-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x600000 : Shape := ⟨2, ![2, 600000]⟩
abbrev S16x128 : Shape := ⟨2, ![16, 128]⟩
abbrev S128 : Shape := ⟨1, ![128]⟩
abbrev S4x128x128 : Shape := ⟨3, ![4, 128, 128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S128x1 .f32) (main_arg13 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg12
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S128x128 .f32) (main_arg9 : FVec F S128 .f32) (main_arg10 : FVec F S128x128 .f32) (main_arg11 : FVec F S128 .f32) (main_arg12 : FVec F S128x1 .f32) (main_arg13 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S4x128x128 .f32) (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S4x128x128 .f32 := Host.absf main_arg6
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x16 .f32) (main_arg1 : IVec S2x600000 32) (main_arg2 : FVec F S16x128 .f32) (main_arg3 : FVec F S128 .f32) (main_arg4 : FVec F S4x128x128 .f32) (main_arg5 : FVec F S128 .f32) (main_arg6 : FVec F S4x128x128 .f32) (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x128 .f32 := Host.absf main_arg2
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg4
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg5 main_arg6 main_arg7 main_arg8 main_arg9 main_arg10 main_arg11 main_arg12 main_arg13 main_v13 main_v16
-- ==== Kernel.lean ====
abbrev S100000x16 : Shape := ⟨2, ![100000, 16]⟩
abbrev S2x600000 : Shape := ⟨2, ![2, 600000]⟩
abbrev S16x128 : Shape := ⟨2, ![16, 128]⟩
abbrev S128 : Shape := ⟨1, ![128]⟩
abbrev S4x128x128 : Shape := ⟨3, ![4, 128, 128]⟩
abbrev S128x128 : Shape := ⟨2, ![128, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x128 : Shape := ⟨2, ![100000, 128]⟩
abbrev S2000x16 : Shape := ⟨2, ![2000, 16]⟩
abbrev S2000x128 : Shape := ⟨2, ![2000, 128]⟩
abbrev S1x128 : Shape := ⟨2, ![1, 128]⟩
abbrev S600000x128 : Shape := ⟨2, ![600000, 128]⟩
abbrev S1x100000x128 : Shape := ⟨3, ![1, 100000, 128]⟩
abbrev S4x100000x128 : Shape := ⟨3, ![4, 100000, 128]⟩
abbrev S4x2000x128 : Shape := ⟨3, ![4, 2000, 128]⟩
abbrev S1x2000x128 : Shape := ⟨3, ![1, 2000, 128]⟩
abbrev S1x128x128 : Shape := ⟨3, ![1, 128, 128]⟩
abbrev S100000x1 : Shape := ⟨2, ![100000, 1]⟩
abbrev S2000x1 : Shape := ⟨2, ![2000, 1]⟩
abbrev S1x1 : Shape := ⟨2, ![1, 1]⟩

abbrev nBuf : Space → Nat
  | .hbm => 158
  | .vmem => 36
  | .smem => 0
  | _ => 0

abbrev hbmTy0_0 (i : Nat) : BufTy := match i % 128 with
  | 0 => ⟨S100000x16, .f32⟩
  | 1 => ⟨S2x600000, .i32⟩
  | 2 => ⟨S16x128, .f32⟩
  | 3 => ⟨S128, .f32⟩
  | 4 => ⟨S4x128x128, .f32⟩
  | 5 => ⟨S128, .f32⟩
  | 6 => ⟨S4x128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x1, .f32⟩
  | 13 => ⟨S1, .f32⟩
  | 14 => ⟨S1x600000, .i32⟩
  | 15 => ⟨S600000, .i32⟩
  | 16 => ⟨S1x600000, .i32⟩
  | 17 => ⟨S600000, .i32⟩
  | 18 => ⟨S_, .f32⟩
  | 19 => ⟨S600000, .f32⟩
  | 20 => ⟨S_, .f32⟩
  | 21 => ⟨S100000, .f32⟩
  | 22 => ⟨S600000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000, .f32⟩
  | 50 => ⟨S600000, .f32⟩
  | 51 => ⟨S600000x1, .f32⟩
  | 52 => ⟨S100000x128, .f32⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000x128, .f32⟩
  | 62 => ⟨S600000x128, .f32⟩
  | 63 => ⟨S600000x128, .f32⟩
  | 64 => ⟨S_, .f32⟩
  | 65 => ⟨S100000x128, .f32⟩
  | 66 => ⟨S600000x1, .i32⟩
  | 67 => ⟨S100000x128, .f32⟩
  | 68 => ⟨S_, .i32⟩
  | 69 => ⟨S600000, .i32⟩
  | 70 => ⟨S600000, .i1⟩
  | 71 => ⟨S_, .i32⟩
  | 72 => ⟨S600000, .i32⟩
  | 73 => ⟨S600000, .i32⟩
  | 74 => ⟨S600000, .i32⟩
  | 75 => ⟨S600000x1, .i32⟩
  | 76 => ⟨S600000x128, .f32⟩
  | 77 => ⟨S600000x128, .f32⟩
  | 78 => ⟨S600000x128, .f32⟩
  | 79 => ⟨S_, .f32⟩
  | 80 => ⟨S100000x128, .f32⟩
  | 81 => ⟨S600000x1, .i32⟩
  | 82 => ⟨S100000x128, .f32⟩
  | 83 => ⟨S_, .i32⟩
  | 84 => ⟨S600000, .i32⟩
  | 85 => ⟨S600000, .i1⟩
  | 86 => ⟨S_, .i32⟩
  | 87 => ⟨S600000, .i32⟩
  | 88 => ⟨S600000, .i32⟩
  | 89 => ⟨S600000, .i32⟩
  | 90 => ⟨S600000x1, .i32⟩
  | 91 => ⟨S600000x128, .f32⟩
  | 92 => ⟨S600000x128, .f32⟩
  | 93 => ⟨S600000x128, .f32⟩
  | 94 => ⟨S_, .f32⟩
  | 95 => ⟨S100000x128, .f32⟩
  | 96 => ⟨S600000x1, .i32⟩
  | 97 => ⟨S100000x128, .f32⟩
  | 98 => ⟨S1x100000x128, .f32⟩
  | 99 => ⟨S1x100000x128, .f32⟩
  | 100 => ⟨S1x100000x128, .f32⟩
  | 101 => ⟨S1x100000x128, .f32⟩
  | 102 => ⟨S4x100000x128, .f32⟩
  | 103 => ⟨S100000x128, .f32⟩
  | 104 => ⟨S_, .i32⟩
  | 105 => ⟨S600000, .i32⟩
  | 106 => ⟨S600000, .i1⟩
  | 107 => ⟨S_, .i32⟩
  | 108 => ⟨S600000, .i32⟩
  | 109 => ⟨S600000, .i32⟩
  | 110 => ⟨S600000, .i32⟩
  | 111 => ⟨S600000x1, .i32⟩
  | 112 => ⟨S600000x128, .f32⟩
  | 113 => ⟨S600000x128, .f32⟩
  | 114 => ⟨S600000x128, .f32⟩
  | 115 => ⟨S_, .f32⟩
  | 116 => ⟨S100000x128, .f32⟩
  | 117 => ⟨S600000x1, .i32⟩
  | 118 => ⟨S100000x128, .f32⟩
  | 119 => ⟨S_, .i32⟩
  | 120 => ⟨S600000, .i32⟩
  | 121 => ⟨S600000, .i1⟩
  | 122 => ⟨S_, .i32⟩
  | 123 => ⟨S600000, .i32⟩
  | 124 => ⟨S600000, .i32⟩
  | 125 => ⟨S600000, .i32⟩
  | 126 => ⟨S600000x1, .i32⟩
  | 127 => ⟨S600000x128, .f32⟩
  | _ => ⟨S100000x16, .f32⟩

abbrev hbmTy0_1 (i : Nat) : BufTy := match i % 128 with
  | 0 => ⟨S600000x128, .f32⟩
  | 1 => ⟨S600000x128, .f32⟩
  | 2 => ⟨S_, .f32⟩
  | 3 => ⟨S100000x128, .f32⟩
  | 4 => ⟨S600000x1, .i32⟩
  | 5 => ⟨S100000x128, .f32⟩
  | 6 => ⟨S_, .i32⟩
  | 7 => ⟨S600000, .i32⟩
  | 8 => ⟨S600000, .i1⟩
  | 9 => ⟨S_, .i32⟩
  | 10 => ⟨S600000, .i32⟩
  | 11 => ⟨S600000, .i32⟩
  | 12 => ⟨S600000, .i32⟩
  | 13 => ⟨S600000x1, .i32⟩
  | 14 => ⟨S600000x128, .f32⟩
  | 15 => ⟨S600000x128, .f32⟩
  | 16 => ⟨S600000x128, .f32⟩
  | 17 => ⟨S_, .f32⟩
  | 18 => ⟨S100000x128, .f32⟩
  | 19 => ⟨S600000x1, .i32⟩
  | 20 => ⟨S100000x128, .f32⟩
  | 21 => ⟨S1x100000x128, .f32⟩
  | 22 => ⟨S1x100000x128, .f32⟩
  | 23 => ⟨S1x100000x128, .f32⟩
  | 24 => ⟨S1x100000x128, .f32⟩
  | 25 => ⟨S4x100000x128, .f32⟩
  | 26 => ⟨S100000x128, .f32⟩
  | 27 => ⟨S100000x128, .f32⟩
  | 28 => ⟨S100000x128, .f32⟩
  | 29 => ⟨S100000x1, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | .local _ .vmem, ⟨0, _⟩ => ⟨S2000x16, .f32⟩
  | .local _ .vmem, ⟨1, _⟩ => ⟨S2000x16, .f32⟩
  | .local _ .vmem, ⟨2, _⟩ => ⟨S16x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S4x2000x128, .f32⟩
  | .local _ .vmem, ⟨7, _⟩ => ⟨S4x2000x128, .f32⟩
  | .local _ .vmem, ⟨8, _⟩ => ⟨S4x128x128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | .local _ .vmem, ⟨12, _⟩ => ⟨S4x2000x128, .f32⟩
  | .local _ .vmem, ⟨13, _⟩ => ⟨S4x2000x128, .f32⟩
  | .local _ .vmem, ⟨14, _⟩ => ⟨S4x128x128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x1, .f32⟩
  | .local _ .vmem, ⟨33, _⟩ => ⟨S1, .f32⟩
  | .local _ .vmem, ⟨34, _⟩ => ⟨S2000x1, .f32⟩
  | .local _ .vmem, ⟨35, _⟩ => ⟨S2000x1, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_6 : Ref sig .tc := ⟨.hbm, 53, rfl⟩
abbrev main_v29 : Ref sig .tc := ⟨.hbm, 54, rfl⟩
abbrev main_v30 : Ref sig .tc := ⟨.hbm, 55, rfl⟩
abbrev main_c_7 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_8 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_9 : Ref sig .tc := ⟨.hbm, 68, rfl⟩
abbrev main_v41 : Ref sig .tc := ⟨.hbm, 69, rfl⟩
abbrev main_v42 : Ref sig .tc := ⟨.hbm, 70, rfl⟩
abbrev main_c_10 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_11 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_12 : Ref sig .tc := ⟨.hbm, 83, rfl⟩
abbrev main_v53 : Ref sig .tc := ⟨.hbm, 84, rfl⟩
abbrev main_v54 : Ref sig .tc := ⟨.hbm, 85, rfl⟩
abbrev main_c_13 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_15 : Ref sig .tc := ⟨.hbm, 104, rfl⟩
abbrev main_v71 : Ref sig .tc := ⟨.hbm, 105, rfl⟩
abbrev main_v72 : Ref sig .tc := ⟨.hbm, 106, rfl⟩
abbrev main_c_16 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_17 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_c_18 : Ref sig .tc := ⟨.hbm, 119, rfl⟩
abbrev main_v83 : Ref sig .tc := ⟨.hbm, 120, rfl⟩
abbrev main_v84 : Ref sig .tc := ⟨.hbm, 121, rfl⟩
abbrev main_c_19 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_20 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_c_21 : Ref sig .tc := ⟨.hbm, 134, rfl⟩
abbrev main_v95 : Ref sig .tc := ⟨.hbm, 135, rfl⟩
abbrev main_v96 : Ref sig .tc := ⟨.hbm, 136, rfl⟩
abbrev main_c_22 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_23 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4x2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  inb_S2000x16_S2000x16_0_0 : ∀ a, (![0, 0] : Fin 2 → Nat) a + S2000x16.size a ≤ S2000x16.size a
  h_S2000x16 : 0 < S2000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S100000x128_S1x100000x128_1_2 : S100000x128.BroadcastsInDim S1x100000x128 (![1, 2] : Fin 2 → Fin S1x100000x128.rank)
  concatenates_S1x100000x128_S1x100000x128_S1x100000x128_S1x100000x128_S4x100000x128_d0 : Shape.Concatenates [S1x100000x128, S1x100000x128, S1x100000x128, S1x100000x128] S4x100000x128 0
  inb_S4x2000x128_S1x2000x128_0_0_0 : ∀ a, (![0, 0, 0] : Fin 3 → Nat) a + S1x2000x128.size a ≤ S4x2000x128.size a
  h_S1x2000x128 : 0 < S1x2000x128.numel
  shapeCasts_S1x2000x128_S2000x128 : S1x2000x128.ShapeCasts S2000x128
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  inb_S4x2000x128_S1x2000x128_1_0_0 : ∀ a, (![1, 0, 0] : Fin 3 → Nat) a + S1x2000x128.size a ≤ S4x2000x128.size a
  inb_S4x128x128_S1x128x128_1_0_0 : ∀ a, (![1, 0, 0] : Fin 3 → Nat) a + S1x128x128.size a ≤ S4x128x128.size a
  inb_S4x2000x128_S1x2000x128_2_0_0 : ∀ a, (![2, 0, 0] : Fin 3 → Nat) a + S1x2000x128.size a ≤ S4x2000x128.size a
  inb_S4x128x128_S1x128x128_2_0_0 : ∀ a, (![2, 0, 0] : Fin 3 → Nat) a + S1x128x128.size a ≤ S4x128x128.size a
  inb_S4x2000x128_S1x2000x128_3_0_0 : ∀ a, (![3, 0, 0] : Fin 3 → Nat) a + S1x2000x128.size a ≤ S4x2000x128.size a
  inb_S4x128x128_S1x128x128_3_0_0 : ∀ a, (![3, 0, 0] : Fin 3 → Nat) a + S1x128x128.size a ≤ S4x128x128.size a
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  dot_S2000x16_S16x128_S2000x128_1_0_0_1_n_n_wf : DotDims.WF S2000x16 S16x128 S2000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x16.size a ≤ S100000x16.size a
  hwx0_0 : ∀ i : grid0.Coords, EltTy.bits .f32 = 32 ∨ (Rect.block (s := S100000x16) S2000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x2000x128.size a ≤ S4x100000x128.size a
  hwx1_0 : ∀ i : grid1.Coords, EltTy.bits .f32 = 32 ∨ (Rect.block (s := S4x100000x128) S4x2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x128x128.size a ≤ S4x128x128.size a
  hwx1_1 : ∀ i : grid1.Coords, EltTy.bits .f32 = 32 ∨ (Rect.block (s := S4x128x128) S4x128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x2000x128.size a ≤ S4x100000x128.size a
  hwx2_0 : ∀ i : grid2.Coords, EltTy.bits .f32 = 32 ∨ (Rect.block (s := S4x100000x128) S4x2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x128x128.size a ≤ S4x128x128.size a
  hwx2_1 : ∀ i : grid2.Coords, EltTy.bits .f32 = 32 ∨ (Rect.block (s := S4x128x128) S4x128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S100000x128.size a
  hwx4_3 : ∀ i : grid4.Coords, EltTy.bits .f32 = 32 ∨ (Rect.block (s := S100000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x1.size a ≤ S128x1.size a
  hwx5_1 : ∀ i : grid5.Coords, EltTy.bits .f32 = 32 ∨ (Rect.block (s := S128x1) S128x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1.size a ≤ S1.size a
  hwx5_2 : ∀ i : grid5.Coords, EltTy.bits .f32 = 32 ∨ (Rect.block (s := S1) S1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x1.size a ≤ S100000x1.size a
  hwx5_3 : ∀ i : grid5.Coords, EltTy.bits .f32 = 32 ∨ (Rect.block (s := S100000x1) S2000x1.size (cc5_transform_3 i) (hinb5_3 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def dot_S2000x16_S16x128_S2000x128_1_0_0_1_n_n : DotDims S2000x16 S16x128 S2000x128 where
  lhsContracting := [1]
  rhsContracting := [0]
  lhsNonContracting := [0]
  rhsNonContracting := [1]
  lhsBatch := []
  rhsBatch := []
  wf := dot_S2000x16_S16x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v69) S4x2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S4x128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v70) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v111) S4x2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S4x128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v112) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v112) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v113) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v113) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v114) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v114) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg12) S128x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg13) S1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v115) S2000x1.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x16 : Shape := ⟨2, ![100000, 16]⟩
abbrev S2x600000 : Shape := ⟨2, ![2, 600000]⟩
abbrev S16x128 : Shape := ⟨2, ![16, 128]⟩
abbrev S128 : Shape := ⟨1, ![128]⟩
abbrev S4x128x128 : Shape := ⟨3, ![4, 128, 128]⟩
abbrev S128x128 : Shape := ⟨2, ![128, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S100000x128 : Shape := ⟨2, ![100000, 128]⟩
abbrev S1x128 : Shape := ⟨2, ![1, 128]⟩
abbrev S_ : Shape := ⟨0, ![]⟩
abbrev S100000 : Shape := ⟨1, ![100000]⟩
abbrev S600000x1 : Shape := ⟨2, ![600000, 1]⟩
abbrev S1x128x128 : Shape := ⟨3, ![1, 128, 128]⟩
abbrev S600000x128 : Shape := ⟨2, ![600000, 128]⟩
abbrev S100000x1 : Shape := ⟨2, ![100000, 1]⟩
abbrev S1x1 : Shape := ⟨2, ![1, 1]⟩

abbrev nBuf : Space → Nat
  | .hbm => 246
  | .vmem => 0
  | .smem => 0
  | _ => 0

abbrev hbmTy0_0 (i : Nat) : BufTy := match i % 128 with
  | 0 => ⟨S100000x16, .f32⟩
  | 1 => ⟨S2x600000, .i32⟩
  | 2 => ⟨S16x128, .f32⟩
  | 3 => ⟨S128, .f32⟩
  | 4 => ⟨S4x128x128, .f32⟩
  | 5 => ⟨S128, .f32⟩
  | 6 => ⟨S4x128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x1, .f32⟩
  | 13 => ⟨S1, .f32⟩
  | 14 => ⟨S1x600000, .i32⟩
  | 15 => ⟨S600000, .i32⟩
  | 16 => ⟨S1x600000, .i32⟩
  | 17 => ⟨S600000, .i32⟩
  | 18 => ⟨S100000x128, .f32⟩
  | 19 => ⟨S1x128, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S_, .f32⟩
  | 26 => ⟨S600000, .f32⟩
  | 27 => ⟨S_, .f32⟩
  | 28 => ⟨S100000, .f32⟩
  | 29 => ⟨S600000x1, .i32⟩
  | 30 => ⟨S100000, .f32⟩
  | 31 => ⟨S_, .f32⟩
  | 32 => ⟨S100000, .f32⟩
  | 33 => ⟨S100000, .i1⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000, .f32⟩
  | 48 => ⟨S_, .i32⟩
  | 49 => ⟨S600000, .i32⟩
  | 50 => ⟨S600000, .i1⟩
  | 51 => ⟨S_, .i32⟩
  | 52 => ⟨S600000, .i32⟩
  | 53 => ⟨S600000, .i32⟩
  | 54 => ⟨S600000, .i32⟩
  | 55 => ⟨S600000x1, .i32⟩
  | 56 => ⟨S600000, .f32⟩
  | 57 => ⟨S600000, .f32⟩
  | 58 => ⟨S600000x1, .f32⟩
  | 59 => ⟨S1x128x128, .f32⟩
  | 60 => ⟨S128x128, .f32⟩
  | 61 => ⟨S100000x128, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000x128, .f32⟩
  | 71 => ⟨S600000x128, .f32⟩
  | 72 => ⟨S600000x128, .f32⟩
  | 73 => ⟨S_, .f32⟩
  | 74 => ⟨S100000x128, .f32⟩
  | 75 => ⟨S600000x1, .i32⟩
  | 76 => ⟨S100000x128, .f32⟩
  | 77 => ⟨S1x128x128, .f32⟩
  | 78 => ⟨S128x128, .f32⟩
  | 79 => ⟨S100000x128, .f32⟩
  | 80 => ⟨S100000x128, .f32⟩
  | 81 => ⟨S_, .i32⟩
  | 82 => ⟨S600000, .i32⟩
  | 83 => ⟨S600000, .i1⟩
  | 84 => ⟨S_, .i32⟩
  | 85 => ⟨S600000, .i32⟩
  | 86 => ⟨S600000, .i32⟩
  | 87 => ⟨S600000, .i32⟩
  | 88 => ⟨S600000x1, .i32⟩
  | 89 => ⟨S600000x128, .f32⟩
  | 90 => ⟨S600000x128, .f32⟩
  | 91 => ⟨S600000x128, .f32⟩
  | 92 => ⟨S_, .f32⟩
  | 93 => ⟨S100000x128, .f32⟩
  | 94 => ⟨S600000x1, .i32⟩
  | 95 => ⟨S100000x128, .f32⟩
  | 96 => ⟨S1x128x128, .f32⟩
  | 97 => ⟨S128x128, .f32⟩
  | 98 => ⟨S100000x128, .f32⟩
  | 99 => ⟨S100000x128, .f32⟩
  | 100 => ⟨S_, .i32⟩
  | 101 => ⟨S600000, .i32⟩
  | 102 => ⟨S600000, .i1⟩
  | 103 => ⟨S_, .i32⟩
  | 104 => ⟨S600000, .i32⟩
  | 105 => ⟨S600000, .i32⟩
  | 106 => ⟨S600000, .i32⟩
  | 107 => ⟨S600000x1, .i32⟩
  | 108 => ⟨S600000x128, .f32⟩
  | 109 => ⟨S600000x128, .f32⟩
  | 110 => ⟨S600000x128, .f32⟩
  | 111 => ⟨S_, .f32⟩
  | 112 => ⟨S100000x128, .f32⟩
  | 113 => ⟨S600000x1, .i32⟩
  | 114 => ⟨S100000x128, .f32⟩
  | 115 => ⟨S1x128x128, .f32⟩
  | 116 => ⟨S128x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S_, .f32⟩
  | 126 => ⟨S600000, .f32⟩
  | 127 => ⟨S_, .f32⟩
  | _ => ⟨S100000x16, .f32⟩

abbrev hbmTy0_1 (i : Nat) : BufTy := match i % 128 with
  | 0 => ⟨S100000, .f32⟩
  | 1 => ⟨S600000x1, .i32⟩
  | 2 => ⟨S100000, .f32⟩
  | 3 => ⟨S_, .f32⟩
  | 4 => ⟨S100000, .f32⟩
  | 5 => ⟨S100000, .i1⟩
  | 6 => ⟨S100000, .f32⟩
  | 7 => ⟨S_, .f32⟩
  | 8 => ⟨S_, .f32⟩
  | 9 => ⟨S100000, .f32⟩
  | 10 => ⟨S100000, .f32⟩
  | 11 => ⟨S_, .i32⟩
  | 12 => ⟨S600000, .i32⟩
  | 13 => ⟨S600000, .i1⟩
  | 14 => ⟨S_, .i32⟩
  | 15 => ⟨S600000, .i32⟩
  | 16 => ⟨S600000, .i32⟩
  | 17 => ⟨S600000, .i32⟩
  | 18 => ⟨S600000x1, .i32⟩
  | 19 => ⟨S600000, .f32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000, .f32⟩
  | 29 => ⟨S600000, .f32⟩
  | 30 => ⟨S600000x1, .f32⟩
  | 31 => ⟨S1x128x128, .f32⟩
  | 32 => ⟨S128x128, .f32⟩
  | 33 => ⟨S100000x128, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000x128, .f32⟩
  | 43 => ⟨S600000x128, .f32⟩
  | 44 => ⟨S600000x128, .f32⟩
  | 45 => ⟨S_, .f32⟩
  | 46 => ⟨S100000x128, .f32⟩
  | 47 => ⟨S600000x1, .i32⟩
  | 48 => ⟨S100000x128, .f32⟩
  | 49 => ⟨S1x128x128, .f32⟩
  | 50 => ⟨S128x128, .f32⟩
  | 51 => ⟨S100000x128, .f32⟩
  | 52 => ⟨S100000x128, .f32⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000x128, .f32⟩
  | 62 => ⟨S600000x128, .f32⟩
  | 63 => ⟨S600000x128, .f32⟩
  | 64 => ⟨S_, .f32⟩
  | 65 => ⟨S100000x128, .f32⟩
  | 66 => ⟨S600000x1, .i32⟩
  | 67 => ⟨S100000x128, .f32⟩
  | 68 => ⟨S1x128x128, .f32⟩
  | 69 => ⟨S128x128, .f32⟩
  | 70 => ⟨S100000x128, .f32⟩
  | 71 => ⟨S100000x128, .f32⟩
  | 72 => ⟨S_, .i32⟩
  | 73 => ⟨S600000, .i32⟩
  | 74 => ⟨S600000, .i1⟩
  | 75 => ⟨S_, .i32⟩
  | 76 => ⟨S600000, .i32⟩
  | 77 => ⟨S600000, .i32⟩
  | 78 => ⟨S600000, .i32⟩
  | 79 => ⟨S600000x1, .i32⟩
  | 80 => ⟨S600000x128, .f32⟩
  | 81 => ⟨S600000x128, .f32⟩
  | 82 => ⟨S600000x128, .f32⟩
  | 83 => ⟨S_, .f32⟩
  | 84 => ⟨S100000x128, .f32⟩
  | 85 => ⟨S600000x1, .i32⟩
  | 86 => ⟨S100000x128, .f32⟩
  | 87 => ⟨S1x128x128, .f32⟩
  | 88 => ⟨S128x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S100000x1, .f32⟩
  | 112 => ⟨S1x1, .f32⟩
  | 113 => ⟨S100000x1, .f32⟩
  | 114 => ⟨S100000x1, .f32⟩
  | 115 => ⟨S_, .f32⟩
  | 116 => ⟨S100000x1, .f32⟩
  | 117 => ⟨S100000x1, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_cst : Ref sig .tc := ⟨.hbm, 22, rfl⟩
abbrev main_call0_v0 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_call1_v0 : Ref sig .tc := ⟨.hbm, 36, rfl⟩
abbrev main_call1_v1 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_4 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_6 : Ref sig .tc := ⟨.hbm, 62, rfl⟩
abbrev main_v36 : Ref sig .tc := ⟨.hbm, 63, rfl⟩
abbrev main_v37 : Ref sig .tc := ⟨.hbm, 64, rfl⟩
abbrev main_c_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_8 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_9 : Ref sig .tc := ⟨.hbm, 81, rfl⟩
abbrev main_v52 : Ref sig .tc := ⟨.hbm, 82, rfl⟩
abbrev main_v53 : Ref sig .tc := ⟨.hbm, 83, rfl⟩
abbrev main_c_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_12 : Ref sig .tc := ⟨.hbm, 100, rfl⟩
abbrev main_v68 : Ref sig .tc := ⟨.hbm, 101, rfl⟩
abbrev main_v69 : Ref sig .tc := ⟨.hbm, 102, rfl⟩
abbrev main_c_13 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_14 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call2_cst : Ref sig .tc := ⟨.hbm, 122, rfl⟩
abbrev main_call2_v0 : Ref sig .tc := ⟨.hbm, 123, rfl⟩
abbrev main_v87 : Ref sig .tc := ⟨.hbm, 124, rfl⟩
abbrev main_cst_15 : Ref sig .tc := ⟨.hbm, 125, rfl⟩
abbrev main_v88 : Ref sig .tc := ⟨.hbm, 126, rfl⟩
abbrev main_cst_16 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_17 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_18 : Ref sig .tc := ⟨.hbm, 135, rfl⟩
abbrev main_call3_v0 : Ref sig .tc := ⟨.hbm, 136, rfl⟩
abbrev main_call3_v1 : Ref sig .tc := ⟨.hbm, 137, rfl⟩
abbrev main_v95 : Ref sig .tc := ⟨.hbm, 138, rfl⟩
abbrev main_c_19 : Ref sig .tc := ⟨.hbm, 139, rfl⟩
abbrev main_v96 : Ref sig .tc := ⟨.hbm, 140, rfl⟩
abbrev main_v97 : Ref sig .tc := ⟨.hbm, 141, rfl⟩
abbrev main_c_20 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_c_21 : Ref sig .tc := ⟨.hbm, 148, rfl⟩
abbrev main_v103 : Ref sig .tc := ⟨.hbm, 149, rfl⟩
abbrev main_v104 : Ref sig .tc := ⟨.hbm, 150, rfl⟩
abbrev main_c_22 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_c_23 : Ref sig .tc := ⟨.hbm, 162, rfl⟩
abbrev main_v115 : Ref sig .tc := ⟨.hbm, 163, rfl⟩
abbrev main_v116 : Ref sig .tc := ⟨.hbm, 164, rfl⟩
abbrev main_c_24 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_25 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_c_26 : Ref sig .tc := ⟨.hbm, 181, rfl⟩
abbrev main_v131 : Ref sig .tc := ⟨.hbm, 182, rfl⟩
abbrev main_v132 : Ref sig .tc := ⟨.hbm, 183, rfl⟩
abbrev main_c_27 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_cst_28 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_c_29 : Ref sig .tc := ⟨.hbm, 200, rfl⟩
abbrev main_v147 : Ref sig .tc := ⟨.hbm, 201, rfl⟩
abbrev main_v148 : Ref sig .tc := ⟨.hbm, 202, rfl⟩
abbrev main_c_30 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_cst_31 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_call4_cst : Ref sig .tc := ⟨.hbm, 222, rfl⟩
abbrev main_call4_v0 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_call5_cst : Ref sig .tc := ⟨.hbm, 229, rfl⟩
abbrev main_call5_v0 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_call6_cst : Ref sig .tc := ⟨.hbm, 236, rfl⟩
abbrev main_call6_v0 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_call7_cst : Ref sig .tc := ⟨.hbm, 243, rfl⟩
abbrev main_call7_v0 : Ref sig .tc := ⟨.hbm, 244, rfl⟩
abbrev main_v181 : Ref sig .tc := ⟨.hbm, 245, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  slices_S4x128x128_S1x128x128_0_0_0 : S4x128x128.Slices ![0, 0, 0] S1x128x128
  shapeCasts_S1x128x128_S128x128 : S1x128x128.ShapeCasts S128x128
  bcast_S600000x1_S600000x128_0_1 : S600000x1.BroadcastsInDim S600000x128 (![0, 1] : Fin 2 → Fin S600000x128.rank)
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S100000x16_S16x128_S100000x128_1_0_0_1_n_n_wf : DotDims.WF S100000x16 S16x128 S100000x128 [1] [0] [0] [1] [] []
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x1_S100000x1_1_0_0_1_n_n_wf : DotDims.WF S100000x128 S128x1 S100000x1 [1] [0] [0] [1] [] []

variable [Facts₀]

def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KBody0.lean ====
/-
  Region 0 of the program's six kernel regions: relu(x·W + b) on a 2000-row block of x, W and b whole.
  What the body leaves in its output block as ONE term of the three input blocks (the single store's value over the
  loads), the body's triple at any float instance, the per-core proof data of the pipeline at entry contents `V`, and
  the obligation that the body meets that data at every grid point. The input blocks are found in their staging
  buffers at every point (the weight and bias windows are fetched once: their index never moves).
-/
import proofs.«147401_j14388140441686_1_alg».proof.Proof.Gen.Kernel.Launch
import proofs.«147401_j14388140441686_1_alg».proof.Proof.Gen.Kernel.Skeleton
import proofs.«147401_j14388140441686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangle of the body's one store: the whole output block. -/
abbrev rst0 : Rect S2000x128 := Rect.unit (s := S2000x128) ![0, 0] S2000x128.size inb_S2000x128_S2000x128_0_0

/-- The output block after the body, from the three input blocks: the one store's value over the loads. -/
def out0_3 (x0 : Vec F S2000x16 .f32) (x1 : Vec F S16x128 .f32) (x2 : Vec F S128 .f32) : Vec F S2000x128 .f32 :=
  View.canon [⟨rst0, k0_pay1 (View.ld x0 (Rect.unit (s := S2000x16) ![0, 0] S2000x16.size inb_S2000x16_S2000x16_0_0)) (View.ld x1 (Rect.unit (s := S16x128) ![0, 0] S16x128.size inb_S16x128_S16x128_0_0)) (View.ld x2 (Rect.unit (s := S128) ![0] S128.size inb_S128_S128_0))⟩]

/-- The store covers the output block. -/
theorem cover0_3 (p0 : Vec F S2000x128 .f32) (y : S2000x128.Idx) :
    ∃ pc ∈ ([⟨rst0, p0⟩] : List (View.Piece (Elt F) S2000x128 .f32)), y ∈ pc.1.set :=
  View.cover_of_tiled [⟨rst0, p0⟩] S2000x128.size (by rfl) y

set_option maxHeartbeats 4000000 in
/-- The body on whole staging memrefs — the inputs' at contents `x0 x1 x2`, the output's at anything — runs to its end
    leaving the inputs as they were and the output at `out0_3 x0 x1 x2`. -/
theorem sound_kernel0 (c : Dev nD) (E : Set ℕ) (i : grid0.Coords) (arg1 : Memref sig .tc .vmem S2000x16 .f32) (harg1 : arg1.IsWhole) (arg2 : Memref sig .tc .vmem S16x128 .f32) (harg2 : arg2.IsWhole) (arg3 : Memref sig .tc .vmem S128 .f32) (harg3 : arg3.IsWhole) (arg4 : Memref sig .tc .vmem S2000x128 .f32) (harg4 : arg4.IsWhole)
    (x0 : Vec F S2000x16 .f32) (x1 : Vec F S16x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__dense_relu_kernel i arg1 harg1 arg2 harg2 arg3 harg3 arg4 harg4) K := by
  simp only [cc0__dense_relu_kernel_eq_skeleton]; unfold cc0__dense_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  Region 1 of the program's six kernel regions: relu(Σ_k H[k]·W[k] + b) on a 2000-row block of the four stacked hop arrays, W and b whole.
  What the body leaves in its output block as ONE term of the three input blocks (the single store's value over the
  loads), the body's triple at any float instance, the per-core proof data of the pipeline at entry contents `V`, and
  the obligation that the body meets that data at every grid point. The input blocks are found in their staging
  buffers at every point (the weight and bias windows are fetched once: their index never moves).
-/
import proofs.«147401_j14388140441686_1_alg».proof.Proof.Gen.Kernel.Launch
import proofs.«147401_j14388140441686_1_alg».proof.Proof.Gen.Kernel.Skeleton
import proofs.«147401_j14388140441686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The rectangle of the body's one store: the whole output block. -/
abbrev rst1 : Rect S2000x128 := Rect.unit (s := S2000x128) ![0, 0] S2000x128.size inb_S2000x128_S2000x128_0_0

/-- The output block after the body, from the three input blocks: the one store's value over the loads. -/
def out1_3 (x0 : Vec F S4x2000x128 .f32) (x1 : Vec F S4x128x128 .f32) (x2 : Vec F S128 .f32) : Vec F S2000x128 .f32 :=
  View.canon [⟨rst1, k1_pay1 (k1_pay2 (View.ld x0 (Rect.unit (s := S4x2000x128) ![0, 0, 0] S1x2000x128.size inb_S4x2000x128_S1x2000x128_0_0_0)) (View.ld x1 (Rect.unit (s := S4x128x128) ![0, 0, 0] S1x128x128.size inb_S4x128x128_S1x128x128_0_0_0)) (View.ld x0 (Rect.unit (s := S4x2000x128) ![1, 0, 0] S1x2000x128.size inb_S4x2000x128_S1x2000x128_1_0_0)) (View.ld x1 (Rect.unit (s := S4x128x128) ![1, 0, 0] S1x128x128.size inb_S4x128x128_S1x128x128_1_0_0)) (View.ld x0 (Rect.unit (s := S4x2000x128) ![2, 0, 0] S1x2000x128.size inb_S4x2000x128_S1x2000x128_2_0_0)) (View.ld x1 (Rect.unit (s := S4x128x128) ![2, 0, 0] S1x128x128.size inb_S4x128x128_S1x128x128_2_0_0))) (k1_pay3 (View.ld x0 (Rect.unit (s := S4x2000x128) ![3, 0, 0] S1x2000x128.size inb_S4x2000x128_S1x2000x128_3_0_0))) (k1_pay4 (View.ld x1 (Rect.unit (s := S4x128x128) ![3, 0, 0] S1x128x128.size inb_S4x128x128_S1x128x128_3_0_0))) (View.ld x2 (Rect.unit (s := S128) ![0] S128.size inb_S128_S128_0))⟩]

/-- The store covers the output block. -/
theorem cover1_3 (p0 : Vec F S2000x128 .f32) (y : S2000x128.Idx) :
    ∃ pc ∈ ([⟨rst1, p0⟩] : List (View.Piece (Elt F) S2000x128 .f32)), y ∈ pc.1.set :=
  View.cover_of_tiled [⟨rst1, p0⟩] S2000x128.size (by rfl) y

set_option maxHeartbeats 4000000 in
/-- The body on whole staging memrefs — the inputs' at contents `x0 x1 x2`, the output's at anything — runs to its end
    leaving the inputs as they were and the output at `out1_3 x0 x1 x2`. -/
theorem sound_kernel1 (c : Dev nD) (E : Set ℕ) (i : grid1.Coords) (arg1 : Memref sig .tc .vmem S4x2000x128 .f32) (harg1 : arg1.IsWhole) (arg2 : Memref sig .tc .vmem S4x128x128 .f32) (harg2 : arg2.IsWhole) (arg3 : Memref sig .tc .vmem S128 .f32) (harg3 : arg3.IsWhole) (arg4 : Memref sig .tc .vmem S2000x128 .f32) (harg4 : arg4.IsWhole)
    (x0 : Vec F S4x2000x128 .f32) (x1 : Vec F S4x128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__tagconv_combine_kernel i arg1 harg1 arg2 harg2 arg3 harg3 arg4 harg4) K := by
  simp only [cc1__tagconv_combine_kernel_eq_skeleton]; unfold cc1__tagconv_combine_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t` each
    input's buffer at its block and the output's at `out1_3` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBody2.lean ====
/-
  Region 2 of the program's six kernel regions: relu(Σ_k H[k]·W[k] + b) on a 2000-row block of the four stacked hop arrays, W and b whole.
  What the body leaves in its output block as ONE term of the three input blocks (the single store's value over the
  loads), the body's triple at any float instance, the per-core proof data of the pipeline at entry contents `V`, and
  the obligation that the body meets that data at every grid point. The input blocks are found in their staging
  buffers at every point (the weight and bias windows are fetched once: their index never moves).
-/
import proofs.«147401_j14388140441686_1_alg».proof.Proof.Gen.Kernel.Launch
import proofs.«147401_j14388140441686_1_alg».proof.Proof.Gen.Kernel.Skeleton
import proofs.«147401_j14388140441686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds the window's block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The rectangle of the body's one store: the whole output block. -/
abbrev rst2 : Rect S2000x128 := Rect.unit (s := S2000x128) ![0, 0] S2000x128.size inb_S2000x128_S2000x128_0_0

/-- The output block after the body, from the three input blocks: the one store's value over the loads. -/
def out2_3 (x0 : Vec F S4x2000x128 .f32) (x1 : Vec F S4x128x128 .f32) (x2 : Vec F S128 .f32) : Vec F S2000x128 .f32 :=
  View.canon [⟨rst2, k2_pay1 (k2_pay2 (View.ld x0 (Rect.unit (s := S4x2000x128) ![0, 0, 0] S1x2000x128.size inb_S4x2000x128_S1x2000x128_0_0_0)) (View.ld x1 (Rect.unit (s := S4x128x128) ![0, 0, 0] S1x128x128.size inb_S4x128x128_S1x128x128_0_0_0)) (View.ld x0 (Rect.unit (s := S4x2000x128) ![1, 0, 0] S1x2000x128.size inb_S4x2000x128_S1x2000x128_1_0_0)) (View.ld x1 (Rect.unit (s := S4x128x128) ![1, 0, 0] S1x128x128.size inb_S4x128x128_S1x128x128_1_0_0)) (View.ld x0 (Rect.unit (s := S4x2000x128) ![2, 0, 0] S1x2000x128.size inb_S4x2000x128_S1x2000x128_2_0_0)) (View.ld x1 (Rect.unit (s := S4x128x128) ![2, 0, 0] S1x128x128.size inb_S4x128x128_S1x128x128_2_0_0))) (k2_pay3 (View.ld x0 (Rect.unit (s := S4x2000x128) ![3, 0, 0] S1x2000x128.size inb_S4x2000x128_S1x2000x128_3_0_0))) (k2_pay4 (View.ld x1 (Rect.unit (s := S4x128x128) ![3, 0, 0] S1x128x128.size inb_S4x128x128_S1x128x128_3_0_0))) (View.ld x2 (Rect.unit (s := S128) ![0] S128.size inb_S128_S128_0))⟩]

/-- The store covers the output block. -/
theorem cover2_3 (p0 : Vec F S2000x128 .f32) (y : S2000x128.Idx) :
    ∃ pc ∈ ([⟨rst2, p0⟩] : List (View.Piece (Elt F) S2000x128 .f32)), y ∈ pc.1.set :=
  View.cover_of_tiled [⟨rst2, p0⟩] S2000x128.size (by rfl) y

set_option maxHeartbeats 4000000 in
/-- The body on whole staging memrefs — the inputs' at contents `x0 x1 x2`, the output's at anything — runs to its end
    leaving the inputs as they were and the output at `out2_3 x0 x1 x2`. -/
theorem sound_kernel2 (c : Dev nD) (E : Set ℕ) (i : grid2.Coords) (arg1 : Memref sig .tc .vmem S4x2000x128 .f32) (harg1 : arg1.IsWhole) (arg2 : Memref sig .tc .vmem S4x128x128 .f32) (harg2 : arg2.IsWhole) (arg3 : Memref sig .tc .vmem S128 .f32) (harg3 : arg3.IsWhole) (arg4 : Memref sig .tc .vmem S2000x128 .f32) (harg4 : arg4.IsWhole)
    (x0 : Vec F S4x2000x128 .f32) (x1 : Vec F S4x128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__tagconv_combine_kernel i arg1 harg1 arg2 harg2 arg3 harg3 arg4 harg4) K := by
  simp only [cc2__tagconv_combine_kernel_eq_skeleton]; unfold cc2__tagconv_combine_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t` each
    input's buffer at its block and the output's at `out2_3` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KBody3.lean ====
/-
  Region 3 of the program's six kernel regions: relu(h·W + b) on a 2000-row block of h, W and b whole.
  What the body leaves in its output block as ONE term of the three input blocks (the single store's value over the
  loads), the body's triple at any float instance, the per-core proof data of the pipeline at entry contents `V`, and
  the obligation that the body meets that data at every grid point. The input blocks are found in their staging
  buffers at every point (the weight and bias windows are fetched once: their index never moves).
-/
import proofs.«147401_j14388140441686_1_alg».proof.Proof.Gen.Kernel.Launch
import proofs.«147401_j14388140441686_1_alg».proof.Proof.Gen.Kernel.Skeleton
import proofs.«147401_j14388140441686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds the window's block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds the window's block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds the window's block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The rectangle of the body's one store: the whole output block. -/
abbrev rst3 : Rect S2000x128 := Rect.unit (s := S2000x128) ![0, 0] S2000x128.size inb_S2000x128_S2000x128_0_0

/-- The output block after the body, from the three input blocks: the one store's value over the loads. -/
def out3_3 (x0 : Vec F S2000x128 .f32) (x1 : Vec F S128x128 .f32) (x2 : Vec F S128 .f32) : Vec F S2000x128 .f32 :=
  View.canon [⟨rst3, k3_pay1 (View.ld x0 (Rect.unit (s := S2000x128) ![0, 0] S2000x128.size inb_S2000x128_S2000x128_0_0)) (View.ld x1 (Rect.unit (s := S128x128) ![0, 0] S128x128.size inb_S128x128_S128x128_0_0)) (View.ld x2 (Rect.unit (s := S128) ![0] S128.size inb_S128_S128_0))⟩]

/-- The store covers the output block. -/
theorem cover3_3 (p0 : Vec F S2000x128 .f32) (y : S2000x128.Idx) :
    ∃ pc ∈ ([⟨rst3, p0⟩] : List (View.Piece (Elt F) S2000x128 .f32)), y ∈ pc.1.set :=
  View.cover_of_tiled [⟨rst3, p0⟩] S2000x128.size (by rfl) y

set_option maxHeartbeats 4000000 in
/-- The body on whole staging memrefs — the inputs' at contents `x0 x1 x2`, the output's at anything — runs to its end
    leaving the inputs as they were and the output at `out3_3 x0 x1 x2`. -/
theorem sound_kernel3 (c : Dev nD) (E : Set ℕ) (i : grid3.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__dense_relu_kernel i arg1 harg1 arg2 harg2 arg3 harg3 arg4 harg4) K := by
  simp only [cc3__dense_relu_kernel_eq_skeleton]; unfold cc3__dense_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of pipeline 3 on core `c`: the arrays as the region finds them; after the body at point `t` each
    input's buffer at its block and the output's at `out3_3` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KBody4.lean ====
/-
  Region 4 of the program's six kernel regions: relu(h·W + b) on a 2000-row block of h, W and b whole.
  What the body leaves in its output block as ONE term of the three input blocks (the single store's value over the
  loads), the body's triple at any float instance, the per-core proof data of the pipeline at entry contents `V`, and
  the obligation that the body meets that data at every grid point. The input blocks are found in their staging
  buffers at every point (the weight and bias windows are fetched once: their index never moves).
-/
import proofs.«147401_j14388140441686_1_alg».proof.Proof.Gen.Kernel.Launch
import proofs.«147401_j14388140441686_1_alg».proof.Proof.Gen.Kernel.Skeleton
import proofs.«147401_j14388140441686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds the window's block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds the window's block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds the window's block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The rectangle of the body's one store: the whole output block. -/
abbrev rst4 : Rect S2000x128 := Rect.unit (s := S2000x128) ![0, 0] S2000x128.size inb_S2000x128_S2000x128_0_0

/-- The output block after the body, from the three input blocks: the one store's value over the loads. -/
def out4_3 (x0 : Vec F S2000x128 .f32) (x1 : Vec F S128x128 .f32) (x2 : Vec F S128 .f32) : Vec F S2000x128 .f32 :=
  View.canon [⟨rst4, k4_pay1 (View.ld x0 (Rect.unit (s := S2000x128) ![0, 0] S2000x128.size inb_S2000x128_S2000x128_0_0)) (View.ld x1 (Rect.unit (s := S128x128) ![0, 0] S128x128.size inb_S128x128_S128x128_0_0)) (View.ld x2 (Rect.unit (s := S128) ![0] S128.size inb_S128_S128_0))⟩]

/-- The store covers the output block. -/
theorem cover4_3 (p0 : Vec F S2000x128 .f32) (y : S2000x128.Idx) :
    ∃ pc ∈ ([⟨rst4, p0⟩] : List (View.Piece (Elt F) S2000x128 .f32)), y ∈ pc.1.set :=
  View.cover_of_tiled [⟨rst4, p0⟩] S2000x128.size (by rfl) y

set_option maxHeartbeats 4000000 in
/-- The body on whole staging memrefs — the inputs' at contents `x0 x1 x2`, the output's at anything — runs to its end
    leaving the inputs as they were and the output at `out4_3 x0 x1 x2`. -/
theorem sound_kernel4 (c : Dev nD) (E : Set ℕ) (i : grid4.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__dense_relu_kernel i arg1 harg1 arg2 harg2 arg3 harg3 arg4 harg4) K := by
  simp only [cc4__dense_relu_kernel_eq_skeleton]; unfold cc4__dense_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of pipeline 4 on core `c`: the arrays as the region finds them; after the body at point `t` each
    input's buffer at its block and the output's at `out4_3` of the input blocks; the invariant the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KBody5.lean ====
/-
  Region 5 of the program's six kernel regions: relu(h·w + b) on a 2000-row block of h, the column w and the scalar b whole.
  What the body leaves in its output block as ONE term of the three input blocks (the single store's value over the
  loads), the body's triple at any float instance, the per-core proof data of the pipeline at entry contents `V`, and
  the obligation that the body meets that data at every grid point. The input blocks are found in their staging
  buffers at every point (the weight and bias windows are fetched once: their index never moves).
-/
import proofs.«147401_j14388140441686_1_alg».proof.Proof.Gen.Kernel.Launch
import proofs.«147401_j14388140441686_1_alg».proof.Proof.Gen.Kernel.Skeleton
import proofs.«147401_j14388140441686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds the window's block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds the window's block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds the window's block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The rectangle of the body's one store: the whole output block. -/
abbrev rst5 : Rect S2000x1 := Rect.unit (s := S2000x1) ![0, 0] S2000x1.size inb_S2000x1_S2000x1_0_0

/-- The output block after the body, from the three input blocks: the one store's value over the loads. -/
def out5_3 (x0 : Vec F S2000x128 .f32) (x1 : Vec F S128x1 .f32) (x2 : Vec F S1 .f32) : Vec F S2000x1 .f32 :=
  View.canon [⟨rst5, k5_pay1 (View.ld x0 (Rect.unit (s := S2000x128) ![0, 0] S2000x128.size inb_S2000x128_S2000x128_0_0)) (View.ld x1 (Rect.unit (s := S128x1) ![0, 0] S128x1.size inb_S128x1_S128x1_0_0)) (View.ld x2 (Rect.unit (s := S1) ![0] S1.size inb_S1_S1_0))⟩]

/-- The store covers the output block. -/
theorem cover5_3 (p0 : Vec F S2000x1 .f32) (y : S2000x1.Idx) :
    ∃ pc ∈ ([⟨rst5, p0⟩] : List (View.Piece (Elt F) S2000x1 .f32)), y ∈ pc.1.set :=
  View.cover_of_tiled [⟨rst5, p0⟩] S2000x1.size (by rfl) y

set_option maxHeartbeats 4000000 in
/-- The body on whole staging memrefs — the inputs' at contents `x0 x1 x2`, the output's at anything — runs to its end
    leaving the inputs as they were and the output at `out5_3 x0 x1 x2`. -/
theorem sound_kernel5 (c : Dev nD) (E : Set ℕ) (i : grid5.Coords) (arg1 : Memref sig .tc .vmem S2000x128 .f32) (harg1 : arg1.IsWhole) (arg2 : Memref sig .tc .vmem S128x1 .f32) (harg2 : arg2.IsWhole) (arg3 : Memref sig .tc .vmem S1 .f32) (harg3 : arg3.IsWhole) (arg4 : Memref sig .tc .vmem S2000x1 .f32) (harg4 : arg4.IsWhole)
    (x0 : Vec F S2000x128 .f32) (x1 : Vec F S128x1 .f32) (x2 : Vec F S1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__dense_relu_kernel i arg1 harg1 arg2 harg2 arg3 harg3 arg4 harg4) K := by
  simp only [cc5__dense_relu_kernel_eq_skeleton]; unfold cc5__dense_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The proof data of pipeline 5 on core `c`: the arrays as the region finds them; after the body at point `t` each
    input's buffer at its block and the output's at `out5_3` of the input blocks; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KRun.lean ====
/-
  The whole run of the program: its eleven items in order — three stretches of host operations, the first kernel region,
  a stretch, the second region, a stretch, then four regions back to back — each entered from the buffer contents the
  item before it left. The contents at the twelve boundaries are a fold from the launch memory: a host stretch applies
  its operations; a region leaves its arrays at what its pipeline's write-backs leave and everything else in place.
  Every weakly fair execution terminates, nothing faulting, with every unscoped buffer at the last boundary's contents;
  no item writes an argument array, so each argument reads back as launched.
-/
import proofs.«147401_j14388140441686_1_alg».proof.Proof.KBody0
import proofs.«147401_j14388140441686_1_alg».proof.Proof.KBody1
import proofs.«147401_j14388140441686_1_alg».proof.Proof.KBody2
import proofs.«147401_j14388140441686_1_alg».proof.Proof.KBody3
import proofs.«147401_j14388140441686_1_alg».proof.Proof.KBody4
import proofs.«147401_j14388140441686_1_alg».proof.Proof.KBody5
import proofs.«147401_j14388140441686_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the boundaries -/

/-- Core `c`'s buffers at launch. -/
abbrev B0 : Dev nD → Valuation τ sig (Elt F) := fun c b => (s₀ m ρ).mem ((c : Dev nD), b)
/-- After `hostOps0`. -/
abbrev B1 : Dev nD → Valuation τ sig (Elt F) := fun c => StableHlo.after hostOps0 (B0 m ρ c)
theorem B1_of (c : Dev nD) (r : Ref sig .tc) (h : r ∉ hostOps0_W) : B1 m ρ c r = B0 m ρ c r :=
  StableHlo.after_of_writes_sub hostOps0 _ hostOps0_writes h
/-- After `hostOps0_1`. -/
abbrev B2 : Dev nD → Valuation τ sig (Elt F) := fun c => StableHlo.after hostOps0_1 (B1 m ρ c)
theorem B2_of (c : Dev nD) (r : Ref sig .tc) (h : r ∉ hostOps0_1_W) : B2 m ρ c r = B1 m ρ c r :=
  StableHlo.after_of_writes_sub hostOps0_1 _ hostOps0_1_writes h
/-- After `hostOps0_2`. -/
abbrev B3 : Dev nD → Valuation τ sig (Elt F) := fun c => StableHlo.after hostOps0_2 (B2 m ρ c)
theorem B3_of (c : Dev nD) (r : Ref sig .tc) (h : r ∉ hostOps0_2_W) : B3 m ρ c r = B2 m ρ c r :=
  StableHlo.after_of_writes_sub hostOps0_2 _ hostOps0_2_writes h
/-- Region 0's entry contents read at the TensorCore's references. -/
abbrev U3 : (c : Dev nD) → (b : Ref sig .tc) → Buf (Elt F) ((c : Thread nD τ).loc b) := fun c b => B3 m ρ c b
/-- At region 0's exit: its arrays at what the pipeline leaves, every other buffer as entered. -/
def B4 (c : Dev nD) : Valuation τ sig (Elt F) :=
  Pipeline.withArrays spec0 c (B3 m ρ c) fun w => (dat0 (U3 m ρ) c).arrAt w cfg0.N
theorem B4_arr (c : Dev nD) (w : Fin cfg0.W) :
    B4 m ρ c (Proc.devRef .tc (Pipeline.arrRef spec0 w)) = (dat0 (U3 m ρ) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m ρ c (Proc.devRef .tc b) = B3 m ρ c (Proc.devRef .tc b) := by
  unfold B4; exact Pipeline.withArrays_of_ne spec0 c _ _ b hb
/-- An input array of region 0 is left as entered. -/
theorem B4_in (c : Dev nD) (w : Fin cfg0.W) (hw : (cfg0.win w).isOut = false := by rfl) :
    B4 m ρ c (Proc.devRef .tc (Pipeline.arrRef spec0 w)) = B3 m ρ c (Proc.devRef .tc (Pipeline.arrRef spec0 w)) :=
  (B4_arr m ρ c w).trans (((dat0 (U3 m ρ) c).arrAt_in w hw _).trans (A_eq0 (U3 m ρ) c w))
abbrev X4 : (c : Dev nD) → (b : Ref sig .tc) → Buf (Elt F) ((c : Thread nD τ).loc b) := fun c b => B4 m ρ c b
theorem hF0 (c : Dev nD) (w : Fin cfg0.W) : (dat0 (U3 m ρ) c).arrAt w cfg0.N = X4 m ρ c (Pipeline.arrRef spec0 w) :=
  (B4_arr m ρ c w).symm
theorem hrest0 (c : Dev nD) : ∀ b, b ∉ Finset.univ.image (Pipeline.arrRef spec0) → X4 m ρ c b = U3 m ρ c b :=
  fun b hb => B4_of_ne m ρ c b fun w e => hb (Finset.mem_image.mpr ⟨w, Finset.mem_univ _, e⟩)
/-- After `hostOps1`. -/
abbrev B5 : Dev nD → Valuation τ sig (Elt F) := fun c => StableHlo.after hostOps1 (B4 m ρ c)
theorem B5_of (c : Dev nD) (r : Ref sig .tc) (h : r ∉ hostOps1_W) : B5 m ρ c r = B4 m ρ c r :=
  StableHlo.after_of_writes_sub hostOps1 _ hostOps1_writes h
/-- Region 1's entry contents read at the TensorCore's references. -/
abbrev U5 : (c : Dev nD) → (b : Ref sig .tc) → Buf (Elt F) ((c : Thread nD τ).loc b) := fun c b => B5 m ρ c b
/-- At region 1's exit: its arrays at what the pipeline leaves, every other buffer as entered. -/
def B6 (c : Dev nD) : Valuation τ sig (Elt F) :=
  Pipeline.withArrays spec1 c (B5 m ρ c) fun w => (dat1 (U5 m ρ) c).arrAt w cfg1.N
theorem B6_arr (c : Dev nD) (w : Fin cfg1.W) :
    B6 m ρ c (Proc.devRef .tc (Pipeline.arrRef spec1 w)) = (dat1 (U5 m ρ) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m ρ c (Proc.devRef .tc b) = B5 m ρ c (Proc.devRef .tc b) := by
  unfold B6; exact Pipeline.withArrays_of_ne spec1 c _ _ b hb
/-- An input array of region 1 is left as entered. -/
theorem B6_in (c : Dev nD) (w : Fin cfg1.W) (hw : (cfg1.win w).isOut = false := by rfl) :
    B6 m ρ c (Proc.devRef .tc (Pipeline.arrRef spec1 w)) = B5 m ρ c (Proc.devRef .tc (Pipeline.arrRef spec1 w)) :=
  (B6_arr m ρ c w).trans (((dat1 (U5 m ρ) c).arrAt_in w hw _).trans (A_eq1 (U5 m ρ) c w))
abbrev X6 : (c : Dev nD) → (b : Ref sig .tc) → Buf (Elt F) ((c : Thread nD τ).loc b) := fun c b => B6 m ρ c b
theorem hF1 (c : Dev nD) (w : Fin cfg1.W) : (dat1 (U5 m ρ) c).arrAt w cfg1.N = X6 m ρ c (Pipeline.arrRef spec1 w) :=
  (B6_arr m ρ c w).symm
theorem hrest1 (c : Dev nD) : ∀ b, b ∉ Finset.univ.image (Pipeline.arrRef spec1) → X6 m ρ c b = U5 m ρ c b :=
  fun b hb => B6_of_ne m ρ c b fun w e => hb (Finset.mem_image.mpr ⟨w, Finset.mem_univ _, e⟩)
/-- After `hostOps2`. -/
abbrev B7 : Dev nD → Valuation τ sig (Elt F) := fun c => StableHlo.after hostOps2 (B6 m ρ c)
theorem B7_of (c : Dev nD) (r : Ref sig .tc) (h : r ∉ hostOps2_W) : B7 m ρ c r = B6 m ρ c r :=
  StableHlo.after_of_writes_sub hostOps2 _ hostOps2_writes h
/-- Region 2's entry contents read at the TensorCore's references. -/
abbrev U7 : (c : Dev nD) → (b : Ref sig .tc) → Buf (Elt F) ((c : Thread nD τ).loc b) := fun c b => B7 m ρ c b
/-- At region 2's exit: its arrays at what the pipeline leaves, every other buffer as entered. -/
def B8 (c : Dev nD) : Valuation τ sig (Elt F) :=
  Pipeline.withArrays spec2 c (B7 m ρ c) fun w => (dat2 (U7 m ρ) c).arrAt w cfg2.N
theorem B8_arr (c : Dev nD) (w : Fin cfg2.W) :
    B8 m ρ c (Proc.devRef .tc (Pipeline.arrRef spec2 w)) = (dat2 (U7 m ρ) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m ρ c (Proc.devRef .tc b) = B7 m ρ c (Proc.devRef .tc b) := by
  unfold B8; exact Pipeline.withArrays_of_ne spec2 c _ _ b hb
/-- An input array of region 2 is left as entered. -/
theorem B8_in (c : Dev nD) (w : Fin cfg2.W) (hw : (cfg2.win w).isOut = false := by rfl) :
    B8 m ρ c (Proc.devRef .tc (Pipeline.arrRef spec2 w)) = B7 m ρ c (Proc.devRef .tc (Pipeline.arrRef spec2 w)) :=
  (B8_arr m ρ c w).trans (((dat2 (U7 m ρ) c).arrAt_in w hw _).trans (A_eq2 (U7 m ρ) c w))
abbrev X8 : (c : Dev nD) → (b : Ref sig .tc) → Buf (Elt F) ((c : Thread nD τ).loc b) := fun c b => B8 m ρ c b
theorem hF2 (c : Dev nD) (w : Fin cfg2.W) : (dat2 (U7 m ρ) c).arrAt w cfg2.N = X8 m ρ c (Pipeline.arrRef spec2 w) :=
  (B8_arr m ρ c w).symm
theorem hrest2 (c : Dev nD) : ∀ b, b ∉ Finset.univ.image (Pipeline.arrRef spec2) → X8 m ρ c b = U7 m ρ c b :=
  fun b hb => B8_of_ne m ρ c b fun w e => hb (Finset.mem_image.mpr ⟨w, Finset.mem_univ _, e⟩)
/-- Region 3's entry contents read at the TensorCore's references. -/
abbrev U8 : (c : Dev nD) → (b : Ref sig .tc) → Buf (Elt F) ((c : Thread nD τ).loc b) := fun c b => B8 m ρ c b
/-- At region 3's exit: its arrays at what the pipeline leaves, every other buffer as entered. -/
def B9 (c : Dev nD) : Valuation τ sig (Elt F) :=
  Pipeline.withArrays spec3 c (B8 m ρ c) fun w => (dat3 (U8 m ρ) c).arrAt w cfg3.N
theorem B9_arr (c : Dev nD) (w : Fin cfg3.W) :
    B9 m ρ c (Proc.devRef .tc (Pipeline.arrRef spec3 w)) = (dat3 (U8 m ρ) c).arrAt w cfg3.N := by
  unfold B9; exact Pipeline.withArrays_arr spec3 launch3.win.arr_inj c _ _ w
theorem B9_of_ne (c : Dev nD) (b : Ref sig .tc) (hb : ∀ w, Pipeline.arrRef spec3 w ≠ b) :
    B9 m ρ c (Proc.devRef .tc b) = B8 m ρ c (Proc.devRef .tc b) := by
  unfold B9; exact Pipeline.withArrays_of_ne spec3 c _ _ b hb
/-- An input array of region 3 is left as entered. -/
theorem B9_in (c : Dev nD) (w : Fin cfg3.W) (hw : (cfg3.win w).isOut = false := by rfl) :
    B9 m ρ c (Proc.devRef .tc (Pipeline.arrRef spec3 w)) = B8 m ρ c (Proc.devRef .tc (Pipeline.arrRef spec3 w)) :=
  (B9_arr m ρ c w).trans (((dat3 (U8 m ρ) c).arrAt_in w hw _).trans (A_eq3 (U8 m ρ) c w))
abbrev X9 : (c : Dev nD) → (b : Ref sig .tc) → Buf (Elt F) ((c : Thread nD τ).loc b) := fun c b => B9 m ρ c b
theorem hF3 (c : Dev nD) (w : Fin cfg3.W) : (dat3 (U8 m ρ) c).arrAt w cfg3.N = X9 m ρ c (Pipeline.arrRef spec3 w) :=
  (B9_arr m ρ c w).symm
theorem hrest3 (c : Dev nD) : ∀ b, b ∉ Finset.univ.image (Pipeline.arrRef spec3) → X9 m ρ c b = U8 m ρ c b :=
  fun b hb => B9_of_ne m ρ c b fun w e => hb (Finset.mem_image.mpr ⟨w, Finset.mem_univ _, e⟩)
/-- Region 4's entry contents read at the TensorCore's references. -/
abbrev U9 : (c : Dev nD) → (b : Ref sig .tc) → Buf (Elt F) ((c : Thread nD τ).loc b) := fun c b => B9 m ρ c b
/-- At region 4's exit: its arrays at what the pipeline leaves, every other buffer as entered. -/
def B10 (c : Dev nD) : Valuation τ sig (Elt F) :=
  Pipeline.withArrays spec4 c (B9 m ρ c) fun w => (dat4 (U9 m ρ) c).arrAt w cfg4.N
theorem B10_arr (c : Dev nD) (w : Fin cfg4.W) :
    B10 m ρ c (Proc.devRef .tc (Pipeline.arrRef spec4 w)) = (dat4 (U9 m ρ) c).arrAt w cfg4.N := by
  unfold B10; exact Pipeline.withArrays_arr spec4 launch4.win.arr_inj c _ _ w
theorem B10_of_ne (c : Dev nD) (b : Ref sig .tc) (hb : ∀ w, Pipeline.arrRef spec4 w ≠ b) :
    B10 m ρ c (Proc.devRef .tc b) = B9 m ρ c (Proc.devRef .tc b) := by
  unfold B10; exact Pipeline.withArrays_of_ne spec4 c _ _ b hb
/-- An input array of region 4 is left as entered. -/
theorem B10_in (c : Dev nD) (w : Fin cfg4.W) (hw : (cfg4.win w).isOut = false := by rfl) :
    B10 m ρ c (Proc.devRef .tc (Pipeline.arrRef spec4 w)) = B9 m ρ c (Proc.devRef .tc (Pipeline.arrRef spec4 w)) :=
  (B10_arr m ρ c w).trans (((dat4 (U9 m ρ) c).arrAt_in w hw _).trans (A_eq4 (U9 m ρ) c w))
abbrev X10 : (c : Dev nD) → (b : Ref sig .tc) → Buf (Elt F) ((c : Thread nD τ).loc b) := fun c b => B10 m ρ c b
theorem hF4 (c : Dev nD) (w : Fin cfg4.W) : (dat4 (U9 m ρ) c).arrAt w cfg4.N = X10 m ρ c (Pipeline.arrRef spec4 w) :=
  (B10_arr m ρ c w).symm
theorem hrest4 (c : Dev nD) : ∀ b, b ∉ Finset.univ.image (Pipeline.arrRef spec4) → X10 m ρ c b = U9 m ρ c b :=
  fun b hb => B10_of_ne m ρ c b fun w e => hb (Finset.mem_image.mpr ⟨w, Finset.mem_univ _, e⟩)
/-- Region 5's entry contents read at the TensorCore's references. -/
abbrev U10 : (c : Dev nD) → (b : Ref sig .tc) → Buf (Elt F) ((c : Thread nD τ).loc b) := fun c b => B10 m ρ c b
/-- At region 5's exit: its arrays at what the pipeline leaves, every other buffer as entered. -/
def B11 (c : Dev nD) : Valuation τ sig (Elt F) :=
  Pipeline.withArrays spec5 c (B10 m ρ c) fun w => (dat5 (U10 m ρ) c).arrAt w cfg5.N
theorem B11_arr (c : Dev nD) (w : Fin cfg5.W) :
    B11 m ρ c (Proc.devRef .tc (Pipeline.arrRef spec5 w)) = (dat5 (U10 m ρ) c).arrAt w cfg5.N := by
  unfold B11; exact Pipeline.withArrays_arr spec5 launch5.win.arr_inj c _ _ w
theorem B11_of_ne (c : Dev nD) (b : Ref sig .tc) (hb : ∀ w, Pipeline.arrRef spec5 w ≠ b) :
    B11 m ρ c (Proc.devRef .tc b) = B10 m ρ c (Proc.devRef .tc b) := by
  unfold B11; exact Pipeline.withArrays_of_ne spec5 c _ _ b hb
/-- An input array of region 5 is left as entered. -/
theorem B11_in (c : Dev nD) (w : Fin cfg5.W) (hw : (cfg5.win w).isOut = false := by rfl) :
    B11 m ρ c (Proc.devRef .tc (Pipeline.arrRef spec5 w)) = B10 m ρ c (Proc.devRef .tc (Pipeline.arrRef spec5 w)) :=
  (B11_arr m ρ c w).trans (((dat5 (U10 m ρ) c).arrAt_in w hw _).trans (A_eq5 (U10 m ρ) c w))
abbrev X11 : (c : Dev nD) → (b : Ref sig .tc) → Buf (Elt F) ((c : Thread nD τ).loc b) := fun c b => B11 m ρ c b
theorem hF5 (c : Dev nD) (w : Fin cfg5.W) : (dat5 (U10 m ρ) c).arrAt w cfg5.N = X11 m ρ c (Pipeline.arrRef spec5 w) :=
  (B11_arr m ρ c w).symm
theorem hrest5 (c : Dev nD) : ∀ b, b ∉ Finset.univ.image (Pipeline.arrRef spec5) → X11 m ρ c b = U10 m ρ c b :=
  fun b hb => B11_of_ne m ρ c b fun w e => hb (Finset.mem_image.mpr ⟨w, Finset.mem_univ _, e⟩)

/-! ## The arguments end as launched -/

theorem B11_main_arg0 (c : Dev nD) : B11 m ρ c (Proc.devRef .tc main_arg0) = m ((c : Thread nD τ).loc main_arg0) :=
  (B11_of_ne m ρ c main_arg0 (by decide)).trans <| (B10_of_ne m ρ c main_arg0 (by decide)).trans <| (B9_of_ne m ρ c main_arg0 (by decide)).trans <| (B8_of_ne m ρ c main_arg0 (by decide)).trans <| (B7_of m ρ c main_arg0 (by decide)).trans <| (B6_of_ne m ρ c main_arg0 (by decide)).trans <| (B5_of m ρ c main_arg0 (by decide)).trans <| (B4_in m ρ c 0 rfl).trans <| (B3_of m ρ c main_arg0 (by decide)).trans <| (B2_of m ρ c main_arg0 (by decide)).trans <| (B1_of m ρ c main_arg0 (by decide)).trans <| rfl
theorem B11_main_arg1 (c : Dev nD) : B11 m ρ c (Proc.devRef .tc main_arg1) = m ((c : Thread nD τ).loc main_arg1) :=
  (B11_of_ne m ρ c main_arg1 (by decide)).trans <| (B10_of_ne m ρ c main_arg1 (by decide)).trans <| (B9_of_ne m ρ c main_arg1 (by decide)).trans <| (B8_of_ne m ρ c main_arg1 (by decide)).trans <| (B7_of m ρ c main_arg1 (by decide)).trans <| (B6_of_ne m ρ c main_arg1 (by decide)).trans <| (B5_of m ρ c main_arg1 (by decide)).trans <| (B4_of_ne m ρ c main_arg1 (by decide)).trans <| (B3_of m ρ c main_arg1 (by decide)).trans <| (B2_of m ρ c main_arg1 (by decide)).trans <| (B1_of m ρ c main_arg1 (by decide)).trans <| rfl
theorem B11_main_arg2 (c : Dev nD) : B11 m ρ c (Proc.devRef .tc main_arg2) = m ((c : Thread nD τ).loc main_arg2) :=
  (B11_of_ne m ρ c main_arg2 (by decide)).trans <| (B10_of_ne m ρ c main_arg2 (by decide)).trans <| (B9_of_ne m ρ c main_arg2 (by decide)).trans <| (B8_of_ne m ρ c main_arg2 (by decide)).trans <| (B7_of m ρ c main_arg2 (by decide)).trans <| (B6_of_ne m ρ c main_arg2 (by decide)).trans <| (B5_of m ρ c main_arg2 (by decide)).trans <| (B4_in m ρ c 1 rfl).trans <| (B3_of m ρ c main_arg2 (by decide)).trans <| (B2_of m ρ c main_arg2 (by decide)).trans <| (B1_of m ρ c main_arg2 (by decide)).trans <| rfl
theorem B11_main_arg3 (c : Dev nD) : B11 m ρ c (Proc.devRef .tc main_arg3) = m ((c : Thread nD τ).loc main_arg3) :=
  (B11_of_ne m ρ c main_arg3 (by decide)).trans <| (B10_of_ne m ρ c main_arg3 (by decide)).trans <| (B9_of_ne m ρ c main_arg3 (by decide)).trans <| (B8_of_ne m ρ c main_arg3 (by decide)).trans <| (B7_of m ρ c main_arg3 (by decide)).trans <| (B6_of_ne m ρ c main_arg3 (by decide)).trans <| (B5_of m ρ c main_arg3 (by decide)).trans <| (B4_in m ρ c 2 rfl).trans <| (B3_of m ρ c main_arg3 (by decide)).trans <| (B2_of m ρ c main_arg3 (by decide)).trans <| (B1_of m ρ c main_arg3 (by decide)).trans <| rfl
theorem B11_main_arg4 (c : Dev nD) : B11 m ρ c (Proc.devRef .tc main_arg4) = m ((c : Thread nD τ).loc main_arg4) :=
  (B11_of_ne m ρ c main_arg4 (by decide)).trans <| (B10_of_ne m ρ c main_arg4 (by decide)).trans <| (B9_of_ne m ρ c main_arg4 (by decide)).trans <| (B8_of_ne m ρ c main_arg4 (by decide)).trans <| (B7_of m ρ c main_arg4 (by decide)).trans <| (B6_in m ρ c 1 rfl).trans <| (B5_of m ρ c main_arg4 (by decide)).trans <| (B4_of_ne m ρ c main_arg4 (by decide)).trans <| (B3_of m ρ c main_arg4 (by decide)).trans <| (B2_of m ρ c main_arg4 (by decide)).trans <| (B1_of m ρ c main_arg4 (by decide)).trans <| rfl
theorem B11_main_arg5 (c : Dev nD) : B11 m ρ c (Proc.devRef .tc main_arg5) = m ((c : Thread nD τ).loc main_arg5) :=
  (B11_of_ne m ρ c main_arg5 (by decide)).trans <| (B10_of_ne m ρ c main_arg5 (by decide)).trans <| (B9_of_ne m ρ c main_arg5 (by decide)).trans <| (B8_of_ne m ρ c main_arg5 (by decide)).trans <| (B7_of m ρ c main_arg5 (by decide)).trans <| (B6_in m ρ c 2 rfl).trans <| (B5_of m ρ c main_arg5 (by decide)).trans <| (B4_of_ne m ρ c main_arg5 (by decide)).trans <| (B3_of m ρ c main_arg5 (by decide)).trans <| (B2_of m ρ c main_arg5 (by decide)).trans <| (B1_of m ρ c main_arg5 (by decide)).trans <| rfl
theorem B11_main_arg6 (c : Dev nD) : B11 m ρ c (Proc.devRef .tc main_arg6) = m ((c : Thread nD τ).loc main_arg6) :=
  (B11_of_ne m ρ c main_arg6 (by decide)).trans <| (B10_of_ne m ρ c main_arg6 (by decide)).trans <| (B9_of_ne m ρ c main_arg6 (by decide)).trans <| (B8_in m ρ c 1 rfl).trans <| (B7_of m ρ c main_arg6 (by decide)).trans <| (B6_of_ne m ρ c main_arg6 (by decide)).trans <| (B5_of m ρ c main_arg6 (by decide)).trans <| (B4_of_ne m ρ c main_arg6 (by decide)).trans <| (B3_of m ρ c main_arg6 (by decide)).trans <| (B2_of m ρ c main_arg6 (by decide)).trans <| (B1_of m ρ c main_arg6 (by decide)).trans <| rfl
theorem B11_main_arg7 (c : Dev nD) : B11 m ρ c (Proc.devRef .tc main_arg7) = m ((c : Thread nD τ).loc main_arg7) :=
  (B11_of_ne m ρ c main_arg7 (by decide)).trans <| (B10_of_ne m ρ c main_arg7 (by decide)).trans <| (B9_of_ne m ρ c main_arg7 (by decide)).trans <| (B8_in m ρ c 2 rfl).trans <| (B7_of m ρ c main_arg7 (by decide)).trans <| (B6_of_ne m ρ c main_arg7 (by decide)).trans <| (B5_of m ρ c main_arg7 (by decide)).trans <| (B4_of_ne m ρ c main_arg7 (by decide)).trans <| (B3_of m ρ c main_arg7 (by decide)).trans <| (B2_of m ρ c main_arg7 (by decide)).trans <| (B1_of m ρ c main_arg7 (by decide)).trans <| rfl
theorem B11_main_arg8 (c : Dev nD) : B11 m ρ c (Proc.devRef .tc main_arg8) = m ((c : Thread nD τ).loc main_arg8) :=
  (B11_of_ne m ρ c main_arg8 (by decide)).trans <| (B10_of_ne m ρ c main_arg8 (by decide)).trans <| (B9_in m ρ c 1 rfl).trans <| (B8_of_ne m ρ c main_arg8 (by decide)).trans <| (B7_of m ρ c main_arg8 (by decide)).trans <| (B6_of_ne m ρ c main_arg8 (by decide)).trans <| (B5_of m ρ c main_arg8 (by decide)).trans <| (B4_of_ne m ρ c main_arg8 (by decide)).trans <| (B3_of m ρ c main_arg8 (by decide)).trans <| (B2_of m ρ c main_arg8 (by decide)).trans <| (B1_of m ρ c main_arg8 (by decide)).trans <| rfl
theorem B11_main_arg9 (c : Dev nD) : B11 m ρ c (Proc.devRef .tc main_arg9) = m ((c : Thread nD τ).loc main_arg9) :=
  (B11_of_ne m ρ c main_arg9 (by decide)).trans <| (B10_of_ne m ρ c main_arg9 (by decide)).trans <| (B9_in m ρ c 2 rfl).trans <| (B8_of_ne m ρ c main_arg9 (by decide)).trans <| (B7_of m ρ c main_arg9 (by decide)).trans <| (B6_of_ne m ρ c main_arg9 (by decide)).trans <| (B5_of m ρ c main_arg9 (by decide)).trans <| (B4_of_ne m ρ c main_arg9 (by decide)).trans <| (B3_of m ρ c main_arg9 (by decide)).trans <| (B2_of m ρ c main_arg9 (by decide)).trans <| (B1_of m ρ c main_arg9 (by decide)).trans <| rfl
theorem B11_main_arg10 (c : Dev nD) : B11 m ρ c (Proc.devRef .tc main_arg10) = m ((c : Thread nD τ).loc main_arg10) :=
  (B11_of_ne m ρ c main_arg10 (by decide)).trans <| (B10_in m ρ c 1 rfl).trans <| (B9_of_ne m ρ c main_arg10 (by decide)).trans <| (B8_of_ne m ρ c main_arg10 (by decide)).trans <| (B7_of m ρ c main_arg10 (by decide)).trans <| (B6_of_ne m ρ c main_arg10 (by decide)).trans <| (B5_of m ρ c main_arg10 (by decide)).trans <| (B4_of_ne m ρ c main_arg10 (by decide)).trans <| (B3_of m ρ c main_arg10 (by decide)).trans <| (B2_of m ρ c main_arg10 (by decide)).trans <| (B1_of m ρ c main_arg10 (by decide)).trans <| rfl
theorem B11_main_arg11 (c : Dev nD) : B11 m ρ c (Proc.devRef .tc main_arg11) = m ((c : Thread nD τ).loc main_arg11) :=
  (B11_of_ne m ρ c main_arg11 (by decide)).trans <| (B10_in m ρ c 2 rfl).trans <| (B9_of_ne m ρ c main_arg11 (by decide)).trans <| (B8_of_ne m ρ c main_arg11 (by decide)).trans <| (B7_of m ρ c main_arg11 (by decide)).trans <| (B6_of_ne m ρ c main_arg11 (by decide)).trans <| (B5_of m ρ c main_arg11 (by decide)).trans <| (B4_of_ne m ρ c main_arg11 (by decide)).trans <| (B3_of m ρ c main_arg11 (by decide)).trans <| (B2_of m ρ c main_arg11 (by decide)).trans <| (B1_of m ρ c main_arg11 (by decide)).trans <| rfl
theorem B11_main_arg12 (c : Dev nD) : B11 m ρ c (Proc.devRef .tc main_arg12) = m ((c : Thread nD τ).loc main_arg12) :=
  (B11_in m ρ c 1 rfl).trans <| (B10_of_ne m ρ c main_arg12 (by decide)).trans <| (B9_of_ne m ρ c main_arg12 (by decide)).trans <| (B8_of_ne m ρ c main_arg12 (by decide)).trans <| (B7_of m ρ c main_arg12 (by decide)).trans <| (B6_of_ne m ρ c main_arg12 (by decide)).trans <| (B5_of m ρ c main_arg12 (by decide)).trans <| (B4_of_ne m ρ c main_arg12 (by decide)).trans <| (B3_of m ρ c main_arg12 (by decide)).trans <| (B2_of m ρ c main_arg12 (by decide)).trans <| (B1_of m ρ c main_arg12 (by decide)).trans <| rfl
theorem B11_main_arg13 (c : Dev nD) : B11 m ρ c (Proc.devRef .tc main_arg13) = m ((c : Thread nD τ).loc main_arg13) :=
  (B11_in m ρ c 2 rfl).trans <| (B10_of_ne m ρ c main_arg13 (by decide)).trans <| (B9_of_ne m ρ c main_arg13 (by decide)).trans <| (B8_of_ne m ρ c main_arg13 (by decide)).trans <| (B7_of m ρ c main_arg13 (by decide)).trans <| (B6_of_ne m ρ c main_arg13 (by decide)).trans <| (B5_of m ρ c main_arg13 (by decide)).trans <| (B4_of_ne m ρ c main_arg13 (by decide)).trans <| (B3_of m ρ c main_arg13 (by decide)).trans <| (B2_of m ρ c main_arg13 (by decide)).trans <| (B1_of m ρ c main_arg13 (by decide)).trans <| rfl

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (U3 m ρ) c
  | ⟨1, _⟩ => fun c => dat1 (U5 m ρ) c
  | ⟨2, _⟩ => fun c => dat2 (U7 m ρ) c
  | ⟨3, _⟩ => fun c => dat3 (U8 m ρ) c
  | ⟨4, _⟩ => fun c => dat4 (U9 m ρ) c
  | ⟨5, _⟩ => fun c => dat5 (U10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (B11 m ρ c) ∗ ∃ r, prngReg c r)

/-! ## The regions as segments -/

set_option backward.isDefEq.respectTransparency.types false in
/-- Region 0 over the thread state: entered from every unscoped buffer at boundary 3's contents, left at boundary 4's. Its
    arrays are split out of the unscoped buffers and put back at the exit contents; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3 m ρ) c).loose
  hwaits := Pipeline.hwaits_of_owed_zero _ _ _ _ L lv 0 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec0 c (U3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U3 m ρ c) (X4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at boundary 5's contents, left at boundary 6's. Its
    arrays are split out of the unscoped buffers and put back at the exit contents; the generator register goes into the
    pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m ρ) c).loose
  hwaits := Pipeline.hwaits_of_owed_zero _ _ _ _ L lv 1 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec1 c (U5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U5 m ρ c) (X6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at boundary 7's contents, left at boundary 8's. Its
    arrays are split out of the unscoped buffers and put back at the exit contents; the generator register goes into the
    pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U7 m ρ) c).loose
  hwaits := Pipeline.hwaits_of_owed_zero _ _ _ _ L lv 2 fun _ _ => rfl
  pre c := iprop(StableHlo.held (c : Thread nD τ) (Pipeline.ucRefs τ sig) (B7 m ρ c) ∗ R c)
  post c := iprop(StableHlo.held (c : Thread nD τ) (Pipeline.ucRefs τ sig) (B8 m ρ c) ∗ R c)
  X c := iprop(∃ r, prngReg c r)
  Y c := iprop(∃ r, prngReg c r)
  Z c := Pipeline.unscopedRest (Ix := Unit) (Name := ℕ) (U := UR sig nD τ) (Lvl := ℕ) spec2 c (U7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U7 m ρ c) (X8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at boundary 8's contents, left at boundary 9's. Its
    arrays are split out of the unscoped buffers and put back at the exit contents; the generator register goes into the
    pipeline's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U8 m ρ) c).loose
  hwaits := Pipeline.hwaits_of_owed_zero _ _ _ _ L lv 3 fun _ _ => rfl
  pre c := iprop(StableHlo.held (c : Thread nD τ) (Pipeline.ucRefs τ sig) (B8 m ρ c) ∗ R c)
  post c := iprop(StableHlo.held (c : Thread nD τ) (Pipeline.ucRefs τ sig) (B9 m ρ c) ∗ R c)
  X c := iprop(∃ r, prngReg c r)
  Y c := iprop(∃ r, prngReg c r)
  Z c := Pipeline.unscopedRest (Ix := Unit) (Name := ℕ) (U := UR sig nD τ) (Lvl := ℕ) spec3 c (U8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U8 m ρ c) (X9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at boundary 9's contents, left at boundary 10's. Its
    arrays are split out of the unscoped buffers and put back at the exit contents; the generator register goes into the
    pipeline's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U9 m ρ) c).loose
  hwaits := Pipeline.hwaits_of_owed_zero _ _ _ _ L lv 4 fun _ _ => rfl
  pre c := iprop(StableHlo.held (c : Thread nD τ) (Pipeline.ucRefs τ sig) (B9 m ρ c) ∗ R c)
  post c := iprop(StableHlo.held (c : Thread nD τ) (Pipeline.ucRefs τ sig) (B10 m ρ c) ∗ R c)
  X c := iprop(∃ r, prngReg c r)
  Y c := iprop(∃ r, prngReg c r)
  Z c := Pipeline.unscopedRest (Ix := Unit) (Name := ℕ) (U := UR sig nD τ) (Lvl := ℕ) spec4 c (U9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (U9 m ρ c) (X10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at boundary 10's contents, left at boundary 11's. Its
    arrays are split out of the unscoped buffers and put back at the exit contents; the generator register goes into the
    pipeline's invariant and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U10 m ρ) c).loose
  hwaits := Pipeline.hwaits_of_owed_zero _ _ _ _ L lv 5 fun _ _ => rfl
  pre c := iprop(StableHlo.held (c : Thread nD τ) (Pipeline.ucRefs τ sig) (B10 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (U10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (U10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (U10 m ρ c) (X11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The eleven segments in order. -/
abbrev theSegs : List (Pipeline.Seg (pcfgs (F := F)) adm (pdats m ρ) () defs₀ 𝒱₀ L lv) :=
  [ .host (hseg hostOps0 hostOps0_sub hostOps0_fresh (B0 m ρ)),
    .host (hseg hostOps0_1 hostOps0_1_sub hostOps0_1_fresh (B1 m ρ)),
    .host (hseg hostOps0_2 hostOps0_2_sub hostOps0_2_fresh (B2 m ρ)),
    .region (reg0 m ρ),
    .host (hseg hostOps1 hostOps1_sub hostOps1_fresh (B4 m ρ)),
    .region (reg1 m ρ),
    .host (hseg hostOps2 hostOps2_sub hostOps2_fresh (B6 m ρ)),
    .region (reg2 m ρ),
    .region (reg3 m ρ),
    .region (reg4 m ρ),
    .region (reg5 m ρ) ]
/-- The program IS the run of the segments. -/
theorem main_is_segs (c : Dev nD) : main (F := F) c = Pipeline.Seg.run (theSegs m ρ) := (main_chain c).trans (by chain_rfl)

set_option backward.isDefEq.respectTransparency.types false in
/-- THE RUN: from any memory with zero counters, every weakly fair execution of the program on the TensorCores
    terminates, nothing faulting, and every final state has each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B11 m ρ c b) :=
  Pipeline.θ_run_regions_kit (pcfgs (F := F)) adm (pdats m ρ) () cellOf_inj emb₁ defs₀ 𝒱₀ L lv m ρ main (theSegs m ρ)
    (fun c Q => by rw [main_is_segs m ρ c])
    (by simp only [theSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B11 m ρ c b)
    (hfin := fun c s' => by
      iintro ⟨⟨Hh, -⟩, HSI⟩
      unfold StableHlo.held
      imodintro
      iapply (pointsTo_read_all (Pipeline.ucRefs τ sig) (fun b => (((c : Thread nD τ)).1, b)) (B11 m ρ c) s')
      isplitl [Hh] <;> iassumption)
    (hQ := fun s h c => h c)

/-- The frame: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (B11_main_arg0 m ρ c),
    (h c _ (mem_uc main_arg1 (by decide))).trans (B11_main_arg1 m ρ c),
    (h c _ (mem_uc main_arg2 (by decide))).trans (B11_main_arg2 m ρ c),
    (h c _ (mem_uc main_arg3 (by decide))).trans (B11_main_arg3 m ρ c),
    (h c _ (mem_uc main_arg4 (by decide))).trans (B11_main_arg4 m ρ c),
    (h c _ (mem_uc main_arg5 (by decide))).trans (B11_main_arg5 m ρ c),
    (h c _ (mem_uc main_arg6 (by decide))).trans (B11_main_arg6 m ρ c),
    (h c _ (mem_uc main_arg7 (by decide))).trans (B11_main_arg7 m ρ c),
    (h c _ (mem_uc main_arg8 (by decide))).trans (B11_main_arg8 m ρ c),
    (h c _ (mem_uc main_arg9 (by decide))).trans (B11_main_arg9 m ρ c),
    (h c _ (mem_uc main_arg10 (by decide))).trans (B11_main_arg10 m ρ c),
    (h c _ (mem_uc main_arg11 (by decide))).trans (B11_main_arg11 m ρ c),
    (h c _ (mem_uc main_arg12 (by decide))).trans (B11_main_arg12 m ρ c),
    (h c _ (mem_uc main_arg13 (by decide))).trans (B11_main_arg13 m ρ c)⟩) (run_all m ρ)

end Cert.Kernel.Hand

end
-- ==== Proof.KIBody0.lean ====
/-
  Region 0 of the program's six kernel regions: relu(x·W + b) on a 2000-row block of x, W and b whole.
  What the body leaves in its output block as ONE term of the three input blocks (the single store's value over the
  loads), the body's triple at any float instance, the per-core proof data of the pipeline at entry contents `V`, and
  the obligation that the body meets that data at every grid point. The input blocks are found in their staging
  buffers at every point (the weight and bias windows are fetched once: their index never moves).
-/
import proofs.«147401_j14388140441686_1_alg».proof.Proof.Gen.KernelIdeal.Launch
import proofs.«147401_j14388140441686_1_alg».proof.Proof.Gen.KernelIdeal.Skeleton
import proofs.«147401_j14388140441686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangle of the body's one store: the whole output block. -/
abbrev rst0 : Rect S2000x128 := Rect.unit (s := S2000x128) ![0, 0] S2000x128.size inb_S2000x128_S2000x128_0_0

/-- The output block after the body, from the three input blocks: the one store's value over the loads. -/
def out0_3 (x0 : Vec F S2000x16 .f32) (x1 : Vec F S16x128 .f32) (x2 : Vec F S128 .f32) : Vec F S2000x128 .f32 :=
  View.canon [⟨rst0, k0_pay1 (View.ld x0 (Rect.unit (s := S2000x16) ![0, 0] S2000x16.size inb_S2000x16_S2000x16_0_0)) (View.ld x1 (Rect.unit (s := S16x128) ![0, 0] S16x128.size inb_S16x128_S16x128_0_0)) (View.ld x2 (Rect.unit (s := S128) ![0] S128.size inb_S128_S128_0))⟩]

/-- The store covers the output block. -/
theorem cover0_3 (p0 : Vec F S2000x128 .f32) (y : S2000x128.Idx) :
    ∃ pc ∈ ([⟨rst0, p0⟩] : List (View.Piece (Elt F) S2000x128 .f32)), y ∈ pc.1.set :=
  View.cover_of_tiled [⟨rst0, p0⟩] S2000x128.size (by rfl) y

set_option maxHeartbeats 4000000 in
/-- The body on whole staging memrefs — the inputs' at contents `x0 x1 x2`, the output's at anything — runs to its end
    leaving the inputs as they were and the output at `out0_3 x0 x1 x2`. -/
theorem sound_kernel0 (c : Dev nD) (E : Set ℕ) (i : grid0.Coords) (arg1 : Memref sig .tc .vmem S2000x16 .f32) (harg1 : arg1.IsWhole) (arg2 : Memref sig .tc .vmem S16x128 .f32) (harg2 : arg2.IsWhole) (arg3 : Memref sig .tc .vmem S128 .f32) (harg3 : arg3.IsWhole) (arg4 : Memref sig .tc .vmem S2000x128 .f32) (harg4 : arg4.IsWhole)
    (x0 : Vec F S2000x16 .f32) (x1 : Vec F S16x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__dense_relu_kernel i arg1 harg1 arg2 harg2 arg3 harg3 arg4 harg4) K := by
  simp only [cc0__dense_relu_kernel_eq_skeleton]; unfold cc0__dense_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIBody1.lean ====
/-
  Region 1 of the program's six kernel regions: relu(Σ_k H[k]·W[k] + b) on a 2000-row block of the four stacked hop arrays, W and b whole.
  What the body leaves in its output block as ONE term of the three input blocks (the single store's value over the
  loads), the body's triple at any float instance, the per-core proof data of the pipeline at entry contents `V`, and
  the obligation that the body meets that data at every grid point. The input blocks are found in their staging
  buffers at every point (the weight and bias windows are fetched once: their index never moves).
-/
import proofs.«147401_j14388140441686_1_alg».proof.Proof.Gen.KernelIdeal.Launch
import proofs.«147401_j14388140441686_1_alg».proof.Proof.Gen.KernelIdeal.Skeleton
import proofs.«147401_j14388140441686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The rectangle of the body's one store: the whole output block. -/
abbrev rst1 : Rect S2000x128 := Rect.unit (s := S2000x128) ![0, 0] S2000x128.size inb_S2000x128_S2000x128_0_0

/-- The output block after the body, from the three input blocks: the one store's value over the loads. -/
def out1_3 (x0 : Vec F S4x2000x128 .f32) (x1 : Vec F S4x128x128 .f32) (x2 : Vec F S128 .f32) : Vec F S2000x128 .f32 :=
  View.canon [⟨rst1, k1_pay1 (k1_pay2 (View.ld x0 (Rect.unit (s := S4x2000x128) ![0, 0, 0] S1x2000x128.size inb_S4x2000x128_S1x2000x128_0_0_0)) (View.ld x1 (Rect.unit (s := S4x128x128) ![0, 0, 0] S1x128x128.size inb_S4x128x128_S1x128x128_0_0_0)) (View.ld x0 (Rect.unit (s := S4x2000x128) ![1, 0, 0] S1x2000x128.size inb_S4x2000x128_S1x2000x128_1_0_0)) (View.ld x1 (Rect.unit (s := S4x128x128) ![1, 0, 0] S1x128x128.size inb_S4x128x128_S1x128x128_1_0_0)) (View.ld x0 (Rect.unit (s := S4x2000x128) ![2, 0, 0] S1x2000x128.size inb_S4x2000x128_S1x2000x128_2_0_0)) (View.ld x1 (Rect.unit (s := S4x128x128) ![2, 0, 0] S1x128x128.size inb_S4x128x128_S1x128x128_2_0_0))) (k1_pay3 (View.ld x0 (Rect.unit (s := S4x2000x128) ![3, 0, 0] S1x2000x128.size inb_S4x2000x128_S1x2000x128_3_0_0))) (k1_pay4 (View.ld x1 (Rect.unit (s := S4x128x128) ![3, 0, 0] S1x128x128.size inb_S4x128x128_S1x128x128_3_0_0))) (View.ld x2 (Rect.unit (s := S128) ![0] S128.size inb_S128_S128_0))⟩]

/-- The store covers the output block. -/
theorem cover1_3 (p0 : Vec F S2000x128 .f32) (y : S2000x128.Idx) :
    ∃ pc ∈ ([⟨rst1, p0⟩] : List (View.Piece (Elt F) S2000x128 .f32)), y ∈ pc.1.set :=
  View.cover_of_tiled [⟨rst1, p0⟩] S2000x128.size (by rfl) y

set_option maxHeartbeats 4000000 in
/-- The body on whole staging memrefs — the inputs' at contents `x0 x1 x2`, the output's at anything — runs to its end
    leaving the inputs as they were and the output at `out1_3 x0 x1 x2`. -/
theorem sound_kernel1 (c : Dev nD) (E : Set ℕ) (i : grid1.Coords) (arg1 : Memref sig .tc .vmem S4x2000x128 .f32) (harg1 : arg1.IsWhole) (arg2 : Memref sig .tc .vmem S4x128x128 .f32) (harg2 : arg2.IsWhole) (arg3 : Memref sig .tc .vmem S128 .f32) (harg3 : arg3.IsWhole) (arg4 : Memref sig .tc .vmem S2000x128 .f32) (harg4 : arg4.IsWhole)
    (x0 : Vec F S4x2000x128 .f32) (x1 : Vec F S4x128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__tagconv_combine_kernel i arg1 harg1 arg2 harg2 arg3 harg3 arg4 harg4) K := by
  simp only [cc1__tagconv_combine_kernel_eq_skeleton]; unfold cc1__tagconv_combine_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t` each
    input's buffer at its block and the output's at `out1_3` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIBody2.lean ====
/-
  Region 2 of the program's six kernel regions: relu(Σ_k H[k]·W[k] + b) on a 2000-row block of the four stacked hop arrays, W and b whole.
  What the body leaves in its output block as ONE term of the three input blocks (the single store's value over the
  loads), the body's triple at any float instance, the per-core proof data of the pipeline at entry contents `V`, and
  the obligation that the body meets that data at every grid point. The input blocks are found in their staging
  buffers at every point (the weight and bias windows are fetched once: their index never moves).
-/
import proofs.«147401_j14388140441686_1_alg».proof.Proof.Gen.KernelIdeal.Launch
import proofs.«147401_j14388140441686_1_alg».proof.Proof.Gen.KernelIdeal.Skeleton
import proofs.«147401_j14388140441686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds the window's block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The rectangle of the body's one store: the whole output block. -/
abbrev rst2 : Rect S2000x128 := Rect.unit (s := S2000x128) ![0, 0] S2000x128.size inb_S2000x128_S2000x128_0_0

/-- The output block after the body, from the three input blocks: the one store's value over the loads. -/
def out2_3 (x0 : Vec F S4x2000x128 .f32) (x1 : Vec F S4x128x128 .f32) (x2 : Vec F S128 .f32) : Vec F S2000x128 .f32 :=
  View.canon [⟨rst2, k2_pay1 (k2_pay2 (View.ld x0 (Rect.unit (s := S4x2000x128) ![0, 0, 0] S1x2000x128.size inb_S4x2000x128_S1x2000x128_0_0_0)) (View.ld x1 (Rect.unit (s := S4x128x128) ![0, 0, 0] S1x128x128.size inb_S4x128x128_S1x128x128_0_0_0)) (View.ld x0 (Rect.unit (s := S4x2000x128) ![1, 0, 0] S1x2000x128.size inb_S4x2000x128_S1x2000x128_1_0_0)) (View.ld x1 (Rect.unit (s := S4x128x128) ![1, 0, 0] S1x128x128.size inb_S4x128x128_S1x128x128_1_0_0)) (View.ld x0 (Rect.unit (s := S4x2000x128) ![2, 0, 0] S1x2000x128.size inb_S4x2000x128_S1x2000x128_2_0_0)) (View.ld x1 (Rect.unit (s := S4x128x128) ![2, 0, 0] S1x128x128.size inb_S4x128x128_S1x128x128_2_0_0))) (k2_pay3 (View.ld x0 (Rect.unit (s := S4x2000x128) ![3, 0, 0] S1x2000x128.size inb_S4x2000x128_S1x2000x128_3_0_0))) (k2_pay4 (View.ld x1 (Rect.unit (s := S4x128x128) ![3, 0, 0] S1x128x128.size inb_S4x128x128_S1x128x128_3_0_0))) (View.ld x2 (Rect.unit (s := S128) ![0] S128.size inb_S128_S128_0))⟩]

/-- The store covers the output block. -/
theorem cover2_3 (p0 : Vec F S2000x128 .f32) (y : S2000x128.Idx) :
    ∃ pc ∈ ([⟨rst2, p0⟩] : List (View.Piece (Elt F) S2000x128 .f32)), y ∈ pc.1.set :=
  View.cover_of_tiled [⟨rst2, p0⟩] S2000x128.size (by rfl) y

set_option maxHeartbeats 4000000 in
/-- The body on whole staging memrefs — the inputs' at contents `x0 x1 x2`, the output's at anything — runs to its end
    leaving the inputs as they were and the output at `out2_3 x0 x1 x2`. -/
theorem sound_kernel2 (c : Dev nD) (E : Set ℕ) (i : grid2.Coords) (arg1 : Memref sig .tc .vmem S4x2000x128 .f32) (harg1 : arg1.IsWhole) (arg2 : Memref sig .tc .vmem S4x128x128 .f32) (harg2 : arg2.IsWhole) (arg3 : Memref sig .tc .vmem S128 .f32) (harg3 : arg3.IsWhole) (arg4 : Memref sig .tc .vmem S2000x128 .f32) (harg4 : arg4.IsWhole)
    (x0 : Vec F S4x2000x128 .f32) (x1 : Vec F S4x128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__tagconv_combine_kernel i arg1 harg1 arg2 harg2 arg3 harg3 arg4 harg4) K := by
  simp only [cc2__tagconv_combine_kernel_eq_skeleton]; unfold cc2__tagconv_combine_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t` each
    input's buffer at its block and the output's at `out2_3` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIBody3.lean ====
/-
  Region 3 of the program's six kernel regions: relu(h·W + b) on a 2000-row block of h, W and b whole.
  What the body leaves in its output block as ONE term of the three input blocks (the single store's value over the
  loads), the body's triple at any float instance, the per-core proof data of the pipeline at entry contents `V`, and
  the obligation that the body meets that data at every grid point. The input blocks are found in their staging
  buffers at every point (the weight and bias windows are fetched once: their index never moves).
-/
import proofs.«147401_j14388140441686_1_alg».proof.Proof.Gen.KernelIdeal.Launch
import proofs.«147401_j14388140441686_1_alg».proof.Proof.Gen.KernelIdeal.Skeleton
import proofs.«147401_j14388140441686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds the window's block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds the window's block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds the window's block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The rectangle of the body's one store: the whole output block. -/
abbrev rst3 : Rect S2000x128 := Rect.unit (s := S2000x128) ![0, 0] S2000x128.size inb_S2000x128_S2000x128_0_0

/-- The output block after the body, from the three input blocks: the one store's value over the loads. -/
def out3_3 (x0 : Vec F S2000x128 .f32) (x1 : Vec F S128x128 .f32) (x2 : Vec F S128 .f32) : Vec F S2000x128 .f32 :=
  View.canon [⟨rst3, k3_pay1 (View.ld x0 (Rect.unit (s := S2000x128) ![0, 0] S2000x128.size inb_S2000x128_S2000x128_0_0)) (View.ld x1 (Rect.unit (s := S128x128) ![0, 0] S128x128.size inb_S128x128_S128x128_0_0)) (View.ld x2 (Rect.unit (s := S128) ![0] S128.size inb_S128_S128_0))⟩]

/-- The store covers the output block. -/
theorem cover3_3 (p0 : Vec F S2000x128 .f32) (y : S2000x128.Idx) :
    ∃ pc ∈ ([⟨rst3, p0⟩] : List (View.Piece (Elt F) S2000x128 .f32)), y ∈ pc.1.set :=
  View.cover_of_tiled [⟨rst3, p0⟩] S2000x128.size (by rfl) y

set_option maxHeartbeats 4000000 in
/-- The body on whole staging memrefs — the inputs' at contents `x0 x1 x2`, the output's at anything — runs to its end
    leaving the inputs as they were and the output at `out3_3 x0 x1 x2`. -/
theorem sound_kernel3 (c : Dev nD) (E : Set ℕ) (i : grid3.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__dense_relu_kernel i arg1 harg1 arg2 harg2 arg3 harg3 arg4 harg4) K := by
  simp only [cc3__dense_relu_kernel_eq_skeleton]; unfold cc3__dense_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of pipeline 3 on core `c`: the arrays as the region finds them; after the body at point `t` each
    input's buffer at its block and the output's at `out3_3` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIBody4.lean ====
/-
  Region 4 of the program's six kernel regions: relu(h·W + b) on a 2000-row block of h, W and b whole.
  What the body leaves in its output block as ONE term of the three input blocks (the single store's value over the
  loads), the body's triple at any float instance, the per-core proof data of the pipeline at entry contents `V`, and
  the obligation that the body meets that data at every grid point. The input blocks are found in their staging
  buffers at every point (the weight and bias windows are fetched once: their index never moves).
-/
import proofs.«147401_j14388140441686_1_alg».proof.Proof.Gen.KernelIdeal.Launch
import proofs.«147401_j14388140441686_1_alg».proof.Proof.Gen.KernelIdeal.Skeleton
import proofs.«147401_j14388140441686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds the window's block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds the window's block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds the window's block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The rectangle of the body's one store: the whole output block. -/
abbrev rst4 : Rect S2000x128 := Rect.unit (s := S2000x128) ![0, 0] S2000x128.size inb_S2000x128_S2000x128_0_0

/-- The output block after the body, from the three input blocks: the one store's value over the loads. -/
def out4_3 (x0 : Vec F S2000x128 .f32) (x1 : Vec F S128x128 .f32) (x2 : Vec F S128 .f32) : Vec F S2000x128 .f32 :=
  View.canon [⟨rst4, k4_pay1 (View.ld x0 (Rect.unit (s := S2000x128) ![0, 0] S2000x128.size inb_S2000x128_S2000x128_0_0)) (View.ld x1 (Rect.unit (s := S128x128) ![0, 0] S128x128.size inb_S128x128_S128x128_0_0)) (View.ld x2 (Rect.unit (s := S128) ![0] S128.size inb_S128_S128_0))⟩]

/-- The store covers the output block. -/
theorem cover4_3 (p0 : Vec F S2000x128 .f32) (y : S2000x128.Idx) :
    ∃ pc ∈ ([⟨rst4, p0⟩] : List (View.Piece (Elt F) S2000x128 .f32)), y ∈ pc.1.set :=
  View.cover_of_tiled [⟨rst4, p0⟩] S2000x128.size (by rfl) y

set_option maxHeartbeats 4000000 in
/-- The body on whole staging memrefs — the inputs' at contents `x0 x1 x2`, the output's at anything — runs to its end
    leaving the inputs as they were and the output at `out4_3 x0 x1 x2`. -/
theorem sound_kernel4 (c : Dev nD) (E : Set ℕ) (i : grid4.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__dense_relu_kernel i arg1 harg1 arg2 harg2 arg3 harg3 arg4 harg4) K := by
  simp only [cc4__dense_relu_kernel_eq_skeleton]; unfold cc4__dense_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of pipeline 4 on core `c`: the arrays as the region finds them; after the body at point `t` each
    input's buffer at its block and the output's at `out4_3` of the input blocks; the invariant the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KIBody5.lean ====
/-
  Region 5 of the program's six kernel regions: relu(h·w + b) on a 2000-row block of h, the column w and the scalar b whole.
  What the body leaves in its output block as ONE term of the three input blocks (the single store's value over the
  loads), the body's triple at any float instance, the per-core proof data of the pipeline at entry contents `V`, and
  the obligation that the body meets that data at every grid point. The input blocks are found in their staging
  buffers at every point (the weight and bias windows are fetched once: their index never moves).
-/
import proofs.«147401_j14388140441686_1_alg».proof.Proof.Gen.KernelIdeal.Launch
import proofs.«147401_j14388140441686_1_alg».proof.Proof.Gen.KernelIdeal.Skeleton
import proofs.«147401_j14388140441686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds the window's block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds the window's block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds the window's block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The rectangle of the body's one store: the whole output block. -/
abbrev rst5 : Rect S2000x1 := Rect.unit (s := S2000x1) ![0, 0] S2000x1.size inb_S2000x1_S2000x1_0_0

/-- The output block after the body, from the three input blocks: the one store's value over the loads. -/
def out5_3 (x0 : Vec F S2000x128 .f32) (x1 : Vec F S128x1 .f32) (x2 : Vec F S1 .f32) : Vec F S2000x1 .f32 :=
  View.canon [⟨rst5, k5_pay1 (View.ld x0 (Rect.unit (s := S2000x128) ![0, 0] S2000x128.size inb_S2000x128_S2000x128_0_0)) (View.ld x1 (Rect.unit (s := S128x1) ![0, 0] S128x1.size inb_S128x1_S128x1_0_0)) (View.ld x2 (Rect.unit (s := S1) ![0] S1.size inb_S1_S1_0))⟩]

/-- The store covers the output block. -/
theorem cover5_3 (p0 : Vec F S2000x1 .f32) (y : S2000x1.Idx) :
    ∃ pc ∈ ([⟨rst5, p0⟩] : List (View.Piece (Elt F) S2000x1 .f32)), y ∈ pc.1.set :=
  View.cover_of_tiled [⟨rst5, p0⟩] S2000x1.size (by rfl) y

set_option maxHeartbeats 4000000 in
/-- The body on whole staging memrefs — the inputs' at contents `x0 x1 x2`, the output's at anything — runs to its end
    leaving the inputs as they were and the output at `out5_3 x0 x1 x2`. -/
theorem sound_kernel5 (c : Dev nD) (E : Set ℕ) (i : grid5.Coords) (arg1 : Memref sig .tc .vmem S2000x128 .f32) (harg1 : arg1.IsWhole) (arg2 : Memref sig .tc .vmem S128x1 .f32) (harg2 : arg2.IsWhole) (arg3 : Memref sig .tc .vmem S1 .f32) (harg3 : arg3.IsWhole) (arg4 : Memref sig .tc .vmem S2000x1 .f32) (harg4 : arg4.IsWhole)
    (x0 : Vec F S2000x128 .f32) (x1 : Vec F S128x1 .f32) (x2 : Vec F S1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__dense_relu_kernel i arg1 harg1 arg2 harg2 arg3 harg3 arg4 harg4) K := by
  simp only [cc5__dense_relu_kernel_eq_skeleton]; unfold cc5__dense_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The proof data of pipeline 5 on core `c`: the arrays as the region finds them; after the body at point `t` each
    input's buffer at its block and the output's at `out5_3` of the input blocks; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KIRun.lean ====
/-
  The whole run of the program: its eleven items in order — three stretches of host operations, the first kernel region,
  a stretch, the second region, a stretch, then four regions back to back — each entered from the buffer contents the
  item before it left. The contents at the twelve boundaries are a fold from the launch memory: a host stretch applies
  its operations; a region leaves its arrays at what its pipeline's write-backs leave and everything else in place.
  Every weakly fair execution terminates, nothing faulting, with every unscoped buffer at the last boundary's contents;
  no item writes an argument array, so each argument reads back as launched.
-/
import proofs.«147401_j14388140441686_1_alg».proof.Proof.KIBody0
import proofs.«147401_j14388140441686_1_alg».proof.Proof.KIBody1
import proofs.«147401_j14388140441686_1_alg».proof.Proof.KIBody2
import proofs.«147401_j14388140441686_1_alg».proof.Proof.KIBody3
import proofs.«147401_j14388140441686_1_alg».proof.Proof.KIBody4
import proofs.«147401_j14388140441686_1_alg».proof.Proof.KIBody5
import proofs.«147401_j14388140441686_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the boundaries -/

/-- Core `c`'s buffers at launch. -/
abbrev B0 : Dev nD → Valuation τ sig (Elt F) := fun c b => (s₀ m ρ).mem ((c : Dev nD), b)
/-- After `hostOps0`. -/
abbrev B1 : Dev nD → Valuation τ sig (Elt F) := fun c => StableHlo.after hostOps0 (B0 m ρ c)
theorem B1_of (c : Dev nD) (r : Ref sig .tc) (h : r ∉ hostOps0_W) : B1 m ρ c r = B0 m ρ c r :=
  StableHlo.after_of_writes_sub hostOps0 _ hostOps0_writes h
/-- After `hostOps0_1`. -/
abbrev B2 : Dev nD → Valuation τ sig (Elt F) := fun c => StableHlo.after hostOps0_1 (B1 m ρ c)
theorem B2_of (c : Dev nD) (r : Ref sig .tc) (h : r ∉ hostOps0_1_W) : B2 m ρ c r = B1 m ρ c r :=
  StableHlo.after_of_writes_sub hostOps0_1 _ hostOps0_1_writes h
/-- After `hostOps0_2`. -/
abbrev B3 : Dev nD → Valuation τ sig (Elt F) := fun c => StableHlo.after hostOps0_2 (B2 m ρ c)
theorem B3_of (c : Dev nD) (r : Ref sig .tc) (h : r ∉ hostOps0_2_W) : B3 m ρ c r = B2 m ρ c r :=
  StableHlo.after_of_writes_sub hostOps0_2 _ hostOps0_2_writes h
/-- Region 0's entry contents read at the TensorCore's references. -/
abbrev U3 : (c : Dev nD) → (b : Ref sig .tc) → Buf (Elt F) ((c : Thread nD τ).loc b) := fun c b => B3 m ρ c b
/-- At region 0's exit: its arrays at what the pipeline leaves, every other buffer as entered. -/
def B4 (c : Dev nD) : Valuation τ sig (Elt F) :=
  Pipeline.withArrays spec0 c (B3 m ρ c) fun w => (dat0 (U3 m ρ) c).arrAt w cfg0.N
theorem B4_arr (c : Dev nD) (w : Fin cfg0.W) :
    B4 m ρ c (Proc.devRef .tc (Pipeline.arrRef spec0 w)) = (dat0 (U3 m ρ) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m ρ c (Proc.devRef .tc b) = B3 m ρ c (Proc.devRef .tc b) := by
  unfold B4; exact Pipeline.withArrays_of_ne spec0 c _ _ b hb
/-- An input array of region 0 is left as entered. -/
theorem B4_in (c : Dev nD) (w : Fin cfg0.W) (hw : (cfg0.win w).isOut = false := by rfl) :
    B4 m ρ c (Proc.devRef .tc (Pipeline.arrRef spec0 w)) = B3 m ρ c (Proc.devRef .tc (Pipeline.arrRef spec0 w)) :=
  (B4_arr m ρ c w).trans (((dat0 (U3 m ρ) c).arrAt_in w hw _).trans (A_eq0 (U3 m ρ) c w))
abbrev X4 : (c : Dev nD) → (b : Ref sig .tc) → Buf (Elt F) ((c : Thread nD τ).loc b) := fun c b => B4 m ρ c b
theorem hF0 (c : Dev nD) (w : Fin cfg0.W) : (dat0 (U3 m ρ) c).arrAt w cfg0.N = X4 m ρ c (Pipeline.arrRef spec0 w) :=
  (B4_arr m ρ c w).symm
theorem hrest0 (c : Dev nD) : ∀ b, b ∉ Finset.univ.image (Pipeline.arrRef spec0) → X4 m ρ c b = U3 m ρ c b :=
  fun b hb => B4_of_ne m ρ c b fun w e => hb (Finset.mem_image.mpr ⟨w, Finset.mem_univ _, e⟩)
/-- After `hostOps1`. -/
abbrev B5 : Dev nD → Valuation τ sig (Elt F) := fun c => StableHlo.after hostOps1 (B4 m ρ c)
theorem B5_of (c : Dev nD) (r : Ref sig .tc) (h : r ∉ hostOps1_W) : B5 m ρ c r = B4 m ρ c r :=
  StableHlo.after_of_writes_sub hostOps1 _ hostOps1_writes h
/-- Region 1's entry contents read at the TensorCore's references. -/
abbrev U5 : (c : Dev nD) → (b : Ref sig .tc) → Buf (Elt F) ((c : Thread nD τ).loc b) := fun c b => B5 m ρ c b
/-- At region 1's exit: its arrays at what the pipeline leaves, every other buffer as entered. -/
def B6 (c : Dev nD) : Valuation τ sig (Elt F) :=
  Pipeline.withArrays spec1 c (B5 m ρ c) fun w => (dat1 (U5 m ρ) c).arrAt w cfg1.N
theorem B6_arr (c : Dev nD) (w : Fin cfg1.W) :
    B6 m ρ c (Proc.devRef .tc (Pipeline.arrRef spec1 w)) = (dat1 (U5 m ρ) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m ρ c (Proc.devRef .tc b) = B5 m ρ c (Proc.devRef .tc b) := by
  unfold B6; exact Pipeline.withArrays_of_ne spec1 c _ _ b hb
/-- An input array of region 1 is left as entered. -/
theorem B6_in (c : Dev nD) (w : Fin cfg1.W) (hw : (cfg1.win w).isOut = false := by rfl) :
    B6 m ρ c (Proc.devRef .tc (Pipeline.arrRef spec1 w)) = B5 m ρ c (Proc.devRef .tc (Pipeline.arrRef spec1 w)) :=
  (B6_arr m ρ c w).trans (((dat1 (U5 m ρ) c).arrAt_in w hw _).trans (A_eq1 (U5 m ρ) c w))
abbrev X6 : (c : Dev nD) → (b : Ref sig .tc) → Buf (Elt F) ((c : Thread nD τ).loc b) := fun c b => B6 m ρ c b
theorem hF1 (c : Dev nD) (w : Fin cfg1.W) : (dat1 (U5 m ρ) c).arrAt w cfg1.N = X6 m ρ c (Pipeline.arrRef spec1 w) :=
  (B6_arr m ρ c w).symm
theorem hrest1 (c : Dev nD) : ∀ b, b ∉ Finset.univ.image (Pipeline.arrRef spec1) → X6 m ρ c b = U5 m ρ c b :=
  fun b hb => B6_of_ne m ρ c b fun w e => hb (Finset.mem_image.mpr ⟨w, Finset.mem_univ _, e⟩)
/-- After `hostOps2`. -/
abbrev B7 : Dev nD → Valuation τ sig (Elt F) := fun c => StableHlo.after hostOps2 (B6 m ρ c)
theorem B7_of (c : Dev nD) (r : Ref sig .tc) (h : r ∉ hostOps2_W) : B7 m ρ c r = B6 m ρ c r :=
  StableHlo.after_of_writes_sub hostOps2 _ hostOps2_writes h
/-- Region 2's entry contents read at the TensorCore's references. -/
abbrev U7 : (c : Dev nD) → (b : Ref sig .tc) → Buf (Elt F) ((c : Thread nD τ).loc b) := fun c b => B7 m ρ c b
/-- At region 2's exit: its arrays at what the pipeline leaves, every other buffer as entered. -/
def B8 (c : Dev nD) : Valuation τ sig (Elt F) :=
  Pipeline.withArrays spec2 c (B7 m ρ c) fun w => (dat2 (U7 m ρ) c).arrAt w cfg2.N
theorem B8_arr (c : Dev nD) (w : Fin cfg2.W) :
    B8 m ρ c (Proc.devRef .tc (Pipeline.arrRef spec2 w)) = (dat2 (U7 m ρ) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m ρ c (Proc.devRef .tc b) = B7 m ρ c (Proc.devRef .tc b) := by
  unfold B8; exact Pipeline.withArrays_of_ne spec2 c _ _ b hb
/-- An input array of region 2 is left as entered. -/
theorem B8_in (c : Dev nD) (w : Fin cfg2.W) (hw : (cfg2.win w).isOut = false := by rfl) :
    B8 m ρ c (Proc.devRef .tc (Pipeline.arrRef spec2 w)) = B7 m ρ c (Proc.devRef .tc (Pipeline.arrRef spec2 w)) :=
  (B8_arr m ρ c w).trans (((dat2 (U7 m ρ) c).arrAt_in w hw _).trans (A_eq2 (U7 m ρ) c w))
abbrev X8 : (c : Dev nD) → (b : Ref sig .tc) → Buf (Elt F) ((c : Thread nD τ).loc b) := fun c b => B8 m ρ c b
theorem hF2 (c : Dev nD) (w : Fin cfg2.W) : (dat2 (U7 m ρ) c).arrAt w cfg2.N = X8 m ρ c (Pipeline.arrRef spec2 w) :=
  (B8_arr m ρ c w).symm
theorem hrest2 (c : Dev nD) : ∀ b, b ∉ Finset.univ.image (Pipeline.arrRef spec2) → X8 m ρ c b = U7 m ρ c b :=
  fun b hb => B8_of_ne m ρ c b fun w e => hb (Finset.mem_image.mpr ⟨w, Finset.mem_univ _, e⟩)
/-- Region 3's entry contents read at the TensorCore's references. -/
abbrev U8 : (c : Dev nD) → (b : Ref sig .tc) → Buf (Elt F) ((c : Thread nD τ).loc b) := fun c b => B8 m ρ c b
/-- At region 3's exit: its arrays at what the pipeline leaves, every other buffer as entered. -/
def B9 (c : Dev nD) : Valuation τ sig (Elt F) :=
  Pipeline.withArrays spec3 c (B8 m ρ c) fun w => (dat3 (U8 m ρ) c).arrAt w cfg3.N
theorem B9_arr (c : Dev nD) (w : Fin cfg3.W) :
    B9 m ρ c (Proc.devRef .tc (Pipeline.arrRef spec3 w)) = (dat3 (U8 m ρ) c).arrAt w cfg3.N := by
  unfold B9; exact Pipeline.withArrays_arr spec3 launch3.win.arr_inj c _ _ w
theorem B9_of_ne (c : Dev nD) (b : Ref sig .tc) (hb : ∀ w, Pipeline.arrRef spec3 w ≠ b) :
    B9 m ρ c (Proc.devRef .tc b) = B8 m ρ c (Proc.devRef .tc b) := by
  unfold B9; exact Pipeline.withArrays_of_ne spec3 c _ _ b hb
/-- An input array of region 3 is left as entered. -/
theorem B9_in (c : Dev nD) (w : Fin cfg3.W) (hw : (cfg3.win w).isOut = false := by rfl) :
    B9 m ρ c (Proc.devRef .tc (Pipeline.arrRef spec3 w)) = B8 m ρ c (Proc.devRef .tc (Pipeline.arrRef spec3 w)) :=
  (B9_arr m ρ c w).trans (((dat3 (U8 m ρ) c).arrAt_in w hw _).trans (A_eq3 (U8 m ρ) c w))
abbrev X9 : (c : Dev nD) → (b : Ref sig .tc) → Buf (Elt F) ((c : Thread nD τ).loc b) := fun c b => B9 m ρ c b
theorem hF3 (c : Dev nD) (w : Fin cfg3.W) : (dat3 (U8 m ρ) c).arrAt w cfg3.N = X9 m ρ c (Pipeline.arrRef spec3 w) :=
  (B9_arr m ρ c w).symm
theorem hrest3 (c : Dev nD) : ∀ b, b ∉ Finset.univ.image (Pipeline.arrRef spec3) → X9 m ρ c b = U8 m ρ c b :=
  fun b hb => B9_of_ne m ρ c b fun w e => hb (Finset.mem_image.mpr ⟨w, Finset.mem_univ _, e⟩)
/-- Region 4's entry contents read at the TensorCore's references. -/
abbrev U9 : (c : Dev nD) → (b : Ref sig .tc) → Buf (Elt F) ((c : Thread nD τ).loc b) := fun c b => B9 m ρ c b
/-- At region 4's exit: its arrays at what the pipeline leaves, every other buffer as entered. -/
def B10 (c : Dev nD) : Valuation τ sig (Elt F) :=
  Pipeline.withArrays spec4 c (B9 m ρ c) fun w => (dat4 (U9 m ρ) c).arrAt w cfg4.N
theorem B10_arr (c : Dev nD) (w : Fin cfg4.W) :
    B10 m ρ c (Proc.devRef .tc (Pipeline.arrRef spec4 w)) = (dat4 (U9 m ρ) c).arrAt w cfg4.N := by
  unfold B10; exact Pipeline.withArrays_arr spec4 launch4.win.arr_inj c _ _ w
theorem B10_of_ne (c : Dev nD) (b : Ref sig .tc) (hb : ∀ w, Pipeline.arrRef spec4 w ≠ b) :
    B10 m ρ c (Proc.devRef .tc b) = B9 m ρ c (Proc.devRef .tc b) := by
  unfold B10; exact Pipeline.withArrays_of_ne spec4 c _ _ b hb
/-- An input array of region 4 is left as entered. -/
theorem B10_in (c : Dev nD) (w : Fin cfg4.W) (hw : (cfg4.win w).isOut = false := by rfl) :
    B10 m ρ c (Proc.devRef .tc (Pipeline.arrRef spec4 w)) = B9 m ρ c (Proc.devRef .tc (Pipeline.arrRef spec4 w)) :=
  (B10_arr m ρ c w).trans (((dat4 (U9 m ρ) c).arrAt_in w hw _).trans (A_eq4 (U9 m ρ) c w))
abbrev X10 : (c : Dev nD) → (b : Ref sig .tc) → Buf (Elt F) ((c : Thread nD τ).loc b) := fun c b => B10 m ρ c b
theorem hF4 (c : Dev nD) (w : Fin cfg4.W) : (dat4 (U9 m ρ) c).arrAt w cfg4.N = X10 m ρ c (Pipeline.arrRef spec4 w) :=
  (B10_arr m ρ c w).symm
theorem hrest4 (c : Dev nD) : ∀ b, b ∉ Finset.univ.image (Pipeline.arrRef spec4) → X10 m ρ c b = U9 m ρ c b :=
  fun b hb => B10_of_ne m ρ c b fun w e => hb (Finset.mem_image.mpr ⟨w, Finset.mem_univ _, e⟩)
/-- Region 5's entry contents read at the TensorCore's references. -/
abbrev U10 : (c : Dev nD) → (b : Ref sig .tc) → Buf (Elt F) ((c : Thread nD τ).loc b) := fun c b => B10 m ρ c b
/-- At region 5's exit: its arrays at what the pipeline leaves, every other buffer as entered. -/
def B11 (c : Dev nD) : Valuation τ sig (Elt F) :=
  Pipeline.withArrays spec5 c (B10 m ρ c) fun w => (dat5 (U10 m ρ) c).arrAt w cfg5.N
theorem B11_arr (c : Dev nD) (w : Fin cfg5.W) :
    B11 m ρ c (Proc.devRef .tc (Pipeline.arrRef spec5 w)) = (dat5 (U10 m ρ) c).arrAt w cfg5.N := by
  unfold B11; exact Pipeline.withArrays_arr spec5 launch5.win.arr_inj c _ _ w
theorem B11_of_ne (c : Dev nD) (b : Ref sig .tc) (hb : ∀ w, Pipeline.arrRef spec5 w ≠ b) :
    B11 m ρ c (Proc.devRef .tc b) = B10 m ρ c (Proc.devRef .tc b) := by
  unfold B11; exact Pipeline.withArrays_of_ne spec5 c _ _ b hb
/-- An input array of region 5 is left as entered. -/
theorem B11_in (c : Dev nD) (w : Fin cfg5.W) (hw : (cfg5.win w).isOut = false := by rfl) :
    B11 m ρ c (Proc.devRef .tc (Pipeline.arrRef spec5 w)) = B10 m ρ c (Proc.devRef .tc (Pipeline.arrRef spec5 w)) :=
  (B11_arr m ρ c w).trans (((dat5 (U10 m ρ) c).arrAt_in w hw _).trans (A_eq5 (U10 m ρ) c w))
abbrev X11 : (c : Dev nD) → (b : Ref sig .tc) → Buf (Elt F) ((c : Thread nD τ).loc b) := fun c b => B11 m ρ c b
theorem hF5 (c : Dev nD) (w : Fin cfg5.W) : (dat5 (U10 m ρ) c).arrAt w cfg5.N = X11 m ρ c (Pipeline.arrRef spec5 w) :=
  (B11_arr m ρ c w).symm
theorem hrest5 (c : Dev nD) : ∀ b, b ∉ Finset.univ.image (Pipeline.arrRef spec5) → X11 m ρ c b = U10 m ρ c b :=
  fun b hb => B11_of_ne m ρ c b fun w e => hb (Finset.mem_image.mpr ⟨w, Finset.mem_univ _, e⟩)

/-! ## The arguments end as launched -/

theorem B11_main_arg0 (c : Dev nD) : B11 m ρ c (Proc.devRef .tc main_arg0) = m ((c : Thread nD τ).loc main_arg0) :=
  (B11_of_ne m ρ c main_arg0 (by decide)).trans <| (B10_of_ne m ρ c main_arg0 (by decide)).trans <| (B9_of_ne m ρ c main_arg0 (by decide)).trans <| (B8_of_ne m ρ c main_arg0 (by decide)).trans <| (B7_of m ρ c main_arg0 (by decide)).trans <| (B6_of_ne m ρ c main_arg0 (by decide)).trans <| (B5_of m ρ c main_arg0 (by decide)).trans <| (B4_in m ρ c 0 rfl).trans <| (B3_of m ρ c main_arg0 (by decide)).trans <| (B2_of m ρ c main_arg0 (by decide)).trans <| (B1_of m ρ c main_arg0 (by decide)).trans <| rfl
theorem B11_main_arg1 (c : Dev nD) : B11 m ρ c (Proc.devRef .tc main_arg1) = m ((c : Thread nD τ).loc main_arg1) :=
  (B11_of_ne m ρ c main_arg1 (by decide)).trans <| (B10_of_ne m ρ c main_arg1 (by decide)).trans <| (B9_of_ne m ρ c main_arg1 (by decide)).trans <| (B8_of_ne m ρ c main_arg1 (by decide)).trans <| (B7_of m ρ c main_arg1 (by decide)).trans <| (B6_of_ne m ρ c main_arg1 (by decide)).trans <| (B5_of m ρ c main_arg1 (by decide)).trans <| (B4_of_ne m ρ c main_arg1 (by decide)).trans <| (B3_of m ρ c main_arg1 (by decide)).trans <| (B2_of m ρ c main_arg1 (by decide)).trans <| (B1_of m ρ c main_arg1 (by decide)).trans <| rfl
theorem B11_main_arg2 (c : Dev nD) : B11 m ρ c (Proc.devRef .tc main_arg2) = m ((c : Thread nD τ).loc main_arg2) :=
  (B11_of_ne m ρ c main_arg2 (by decide)).trans <| (B10_of_ne m ρ c main_arg2 (by decide)).trans <| (B9_of_ne m ρ c main_arg2 (by decide)).trans <| (B8_of_ne m ρ c main_arg2 (by decide)).trans <| (B7_of m ρ c main_arg2 (by decide)).trans <| (B6_of_ne m ρ c main_arg2 (by decide)).trans <| (B5_of m ρ c main_arg2 (by decide)).trans <| (B4_in m ρ c 1 rfl).trans <| (B3_of m ρ c main_arg2 (by decide)).trans <| (B2_of m ρ c main_arg2 (by decide)).trans <| (B1_of m ρ c main_arg2 (by decide)).trans <| rfl
theorem B11_main_arg3 (c : Dev nD) : B11 m ρ c (Proc.devRef .tc main_arg3) = m ((c : Thread nD τ).loc main_arg3) :=
  (B11_of_ne m ρ c main_arg3 (by decide)).trans <| (B10_of_ne m ρ c main_arg3 (by decide)).trans <| (B9_of_ne m ρ c main_arg3 (by decide)).trans <| (B8_of_ne m ρ c main_arg3 (by decide)).trans <| (B7_of m ρ c main_arg3 (by decide)).trans <| (B6_of_ne m ρ c main_arg3 (by decide)).trans <| (B5_of m ρ c main_arg3 (by decide)).trans <| (B4_in m ρ c 2 rfl).trans <| (B3_of m ρ c main_arg3 (by decide)).trans <| (B2_of m ρ c main_arg3 (by decide)).trans <| (B1_of m ρ c main_arg3 (by decide)).trans <| rfl
theorem B11_main_arg4 (c : Dev nD) : B11 m ρ c (Proc.devRef .tc main_arg4) = m ((c : Thread nD τ).loc main_arg4) :=
  (B11_of_ne m ρ c main_arg4 (by decide)).trans <| (B10_of_ne m ρ c main_arg4 (by decide)).trans <| (B9_of_ne m ρ c main_arg4 (by decide)).trans <| (B8_of_ne m ρ c main_arg4 (by decide)).trans <| (B7_of m ρ c main_arg4 (by decide)).trans <| (B6_in m ρ c 1 rfl).trans <| (B5_of m ρ c main_arg4 (by decide)).trans <| (B4_of_ne m ρ c main_arg4 (by decide)).trans <| (B3_of m ρ c main_arg4 (by decide)).trans <| (B2_of m ρ c main_arg4 (by decide)).trans <| (B1_of m ρ c main_arg4 (by decide)).trans <| rfl
theorem B11_main_arg5 (c : Dev nD) : B11 m ρ c (Proc.devRef .tc main_arg5) = m ((c : Thread nD τ).loc main_arg5) :=
  (B11_of_ne m ρ c main_arg5 (by decide)).trans <| (B10_of_ne m ρ c main_arg5 (by decide)).trans <| (B9_of_ne m ρ c main_arg5 (by decide)).trans <| (B8_of_ne m ρ c main_arg5 (by decide)).trans <| (B7_of m ρ c main_arg5 (by decide)).trans <| (B6_in m ρ c 2 rfl).trans <| (B5_of m ρ c main_arg5 (by decide)).trans <| (B4_of_ne m ρ c main_arg5 (by decide)).trans <| (B3_of m ρ c main_arg5 (by decide)).trans <| (B2_of m ρ c main_arg5 (by decide)).trans <| (B1_of m ρ c main_arg5 (by decide)).trans <| rfl
theorem B11_main_arg6 (c : Dev nD) : B11 m ρ c (Proc.devRef .tc main_arg6) = m ((c : Thread nD τ).loc main_arg6) :=
  (B11_of_ne m ρ c main_arg6 (by decide)).trans <| (B10_of_ne m ρ c main_arg6 (by decide)).trans <| (B9_of_ne m ρ c main_arg6 (by decide)).trans <| (B8_in m ρ c 1 rfl).trans <| (B7_of m ρ c main_arg6 (by decide)).trans <| (B6_of_ne m ρ c main_arg6 (by decide)).trans <| (B5_of m ρ c main_arg6 (by decide)).trans <| (B4_of_ne m ρ c main_arg6 (by decide)).trans <| (B3_of m ρ c main_arg6 (by decide)).trans <| (B2_of m ρ c main_arg6 (by decide)).trans <| (B1_of m ρ c main_arg6 (by decide)).trans <| rfl
theorem B11_main_arg7 (c : Dev nD) : B11 m ρ c (Proc.devRef .tc main_arg7) = m ((c : Thread nD τ).loc main_arg7) :=
  (B11_of_ne m ρ c main_arg7 (by decide)).trans <| (B10_of_ne m ρ c main_arg7 (by decide)).trans <| (B9_of_ne m ρ c main_arg7 (by decide)).trans <| (B8_in m ρ c 2 rfl).trans <| (B7_of m ρ c main_arg7 (by decide)).trans <| (B6_of_ne m ρ c main_arg7 (by decide)).trans <| (B5_of m ρ c main_arg7 (by decide)).trans <| (B4_of_ne m ρ c main_arg7 (by decide)).trans <| (B3_of m ρ c main_arg7 (by decide)).trans <| (B2_of m ρ c main_arg7 (by decide)).trans <| (B1_of m ρ c main_arg7 (by decide)).trans <| rfl
theorem B11_main_arg8 (c : Dev nD) : B11 m ρ c (Proc.devRef .tc main_arg8) = m ((c : Thread nD τ).loc main_arg8) :=
  (B11_of_ne m ρ c main_arg8 (by decide)).trans <| (B10_of_ne m ρ c main_arg8 (by decide)).trans <| (B9_in m ρ c 1 rfl).trans <| (B8_of_ne m ρ c main_arg8 (by decide)).trans <| (B7_of m ρ c main_arg8 (by decide)).trans <| (B6_of_ne m ρ c main_arg8 (by decide)).trans <| (B5_of m ρ c main_arg8 (by decide)).trans <| (B4_of_ne m ρ c main_arg8 (by decide)).trans <| (B3_of m ρ c main_arg8 (by decide)).trans <| (B2_of m ρ c main_arg8 (by decide)).trans <| (B1_of m ρ c main_arg8 (by decide)).trans <| rfl
theorem B11_main_arg9 (c : Dev nD) : B11 m ρ c (Proc.devRef .tc main_arg9) = m ((c : Thread nD τ).loc main_arg9) :=
  (B11_of_ne m ρ c main_arg9 (by decide)).trans <| (B10_of_ne m ρ c main_arg9 (by decide)).trans <| (B9_in m ρ c 2 rfl).trans <| (B8_of_ne m ρ c main_arg9 (by decide)).trans <| (B7_of m ρ c main_arg9 (by decide)).trans <| (B6_of_ne m ρ c main_arg9 (by decide)).trans <| (B5_of m ρ c main_arg9 (by decide)).trans <| (B4_of_ne m ρ c main_arg9 (by decide)).trans <| (B3_of m ρ c main_arg9 (by decide)).trans <| (B2_of m ρ c main_arg9 (by decide)).trans <| (B1_of m ρ c main_arg9 (by decide)).trans <| rfl
theorem B11_main_arg10 (c : Dev nD) : B11 m ρ c (Proc.devRef .tc main_arg10) = m ((c : Thread nD τ).loc main_arg10) :=
  (B11_of_ne m ρ c main_arg10 (by decide)).trans <| (B10_in m ρ c 1 rfl).trans <| (B9_of_ne m ρ c main_arg10 (by decide)).trans <| (B8_of_ne m ρ c main_arg10 (by decide)).trans <| (B7_of m ρ c main_arg10 (by decide)).trans <| (B6_of_ne m ρ c main_arg10 (by decide)).trans <| (B5_of m ρ c main_arg10 (by decide)).trans <| (B4_of_ne m ρ c main_arg10 (by decide)).trans <| (B3_of m ρ c main_arg10 (by decide)).trans <| (B2_of m ρ c main_arg10 (by decide)).trans <| (B1_of m ρ c main_arg10 (by decide)).trans <| rfl
theorem B11_main_arg11 (c : Dev nD) : B11 m ρ c (Proc.devRef .tc main_arg11) = m ((c : Thread nD τ).loc main_arg11) :=
  (B11_of_ne m ρ c main_arg11 (by decide)).trans <| (B10_in m ρ c 2 rfl).trans <| (B9_of_ne m ρ c main_arg11 (by decide)).trans <| (B8_of_ne m ρ c main_arg11 (by decide)).trans <| (B7_of m ρ c main_arg11 (by decide)).trans <| (B6_of_ne m ρ c main_arg11 (by decide)).trans <| (B5_of m ρ c main_arg11 (by decide)).trans <| (B4_of_ne m ρ c main_arg11 (by decide)).trans <| (B3_of m ρ c main_arg11 (by decide)).trans <| (B2_of m ρ c main_arg11 (by decide)).trans <| (B1_of m ρ c main_arg11 (by decide)).trans <| rfl
theorem B11_main_arg12 (c : Dev nD) : B11 m ρ c (Proc.devRef .tc main_arg12) = m ((c : Thread nD τ).loc main_arg12) :=
  (B11_in m ρ c 1 rfl).trans <| (B10_of_ne m ρ c main_arg12 (by decide)).trans <| (B9_of_ne m ρ c main_arg12 (by decide)).trans <| (B8_of_ne m ρ c main_arg12 (by decide)).trans <| (B7_of m ρ c main_arg12 (by decide)).trans <| (B6_of_ne m ρ c main_arg12 (by decide)).trans <| (B5_of m ρ c main_arg12 (by decide)).trans <| (B4_of_ne m ρ c main_arg12 (by decide)).trans <| (B3_of m ρ c main_arg12 (by decide)).trans <| (B2_of m ρ c main_arg12 (by decide)).trans <| (B1_of m ρ c main_arg12 (by decide)).trans <| rfl
theorem B11_main_arg13 (c : Dev nD) : B11 m ρ c (Proc.devRef .tc main_arg13) = m ((c : Thread nD τ).loc main_arg13) :=
  (B11_in m ρ c 2 rfl).trans <| (B10_of_ne m ρ c main_arg13 (by decide)).trans <| (B9_of_ne m ρ c main_arg13 (by decide)).trans <| (B8_of_ne m ρ c main_arg13 (by decide)).trans <| (B7_of m ρ c main_arg13 (by decide)).trans <| (B6_of_ne m ρ c main_arg13 (by decide)).trans <| (B5_of m ρ c main_arg13 (by decide)).trans <| (B4_of_ne m ρ c main_arg13 (by decide)).trans <| (B3_of m ρ c main_arg13 (by decide)).trans <| (B2_of m ρ c main_arg13 (by decide)).trans <| (B1_of m ρ c main_arg13 (by decide)).trans <| rfl

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (U3 m ρ) c
  | ⟨1, _⟩ => fun c => dat1 (U5 m ρ) c
  | ⟨2, _⟩ => fun c => dat2 (U7 m ρ) c
  | ⟨3, _⟩ => fun c => dat3 (U8 m ρ) c
  | ⟨4, _⟩ => fun c => dat4 (U9 m ρ) c
  | ⟨5, _⟩ => fun c => dat5 (U10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (B11 m ρ c) ∗ ∃ r, prngReg c r)

/-! ## The regions as segments -/

set_option backward.isDefEq.respectTransparency.types false in
/-- Region 0 over the thread state: entered from every unscoped buffer at boundary 3's contents, left at boundary 4's. Its
    arrays are split out of the unscoped buffers and put back at the exit contents; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3 m ρ) c).loose
  hwaits := Pipeline.hwaits_of_owed_zero _ _ _ _ L lv 0 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec0 c (U3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U3 m ρ c) (X4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at boundary 5's contents, left at boundary 6's. Its
    arrays are split out of the unscoped buffers and put back at the exit contents; the generator register goes into the
    pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m ρ) c).loose
  hwaits := Pipeline.hwaits_of_owed_zero _ _ _ _ L lv 1 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec1 c (U5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U5 m ρ c) (X6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at boundary 7's contents, left at boundary 8's. Its
    arrays are split out of the unscoped buffers and put back at the exit contents; the generator register goes into the
    pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U7 m ρ) c).loose
  hwaits := Pipeline.hwaits_of_owed_zero _ _ _ _ L lv 2 fun _ _ => rfl
  pre c := iprop(StableHlo.held (c : Thread nD τ) (Pipeline.ucRefs τ sig) (B7 m ρ c) ∗ R c)
  post c := iprop(StableHlo.held (c : Thread nD τ) (Pipeline.ucRefs τ sig) (B8 m ρ c) ∗ R c)
  X c := iprop(∃ r, prngReg c r)
  Y c := iprop(∃ r, prngReg c r)
  Z c := Pipeline.unscopedRest (Ix := Unit) (Name := ℕ) (U := UR sig nD τ) (Lvl := ℕ) spec2 c (U7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U7 m ρ c) (X8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at boundary 8's contents, left at boundary 9's. Its
    arrays are split out of the unscoped buffers and put back at the exit contents; the generator register goes into the
    pipeline's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U8 m ρ) c).loose
  hwaits := Pipeline.hwaits_of_owed_zero _ _ _ _ L lv 3 fun _ _ => rfl
  pre c := iprop(StableHlo.held (c : Thread nD τ) (Pipeline.ucRefs τ sig) (B8 m ρ c) ∗ R c)
  post c := iprop(StableHlo.held (c : Thread nD τ) (Pipeline.ucRefs τ sig) (B9 m ρ c) ∗ R c)
  X c := iprop(∃ r, prngReg c r)
  Y c := iprop(∃ r, prngReg c r)
  Z c := Pipeline.unscopedRest (Ix := Unit) (Name := ℕ) (U := UR sig nD τ) (Lvl := ℕ) spec3 c (U8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U8 m ρ c) (X9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at boundary 9's contents, left at boundary 10's. Its
    arrays are split out of the unscoped buffers and put back at the exit contents; the generator register goes into the
    pipeline's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U9 m ρ) c).loose
  hwaits := Pipeline.hwaits_of_owed_zero _ _ _ _ L lv 4 fun _ _ => rfl
  pre c := iprop(StableHlo.held (c : Thread nD τ) (Pipeline.ucRefs τ sig) (B9 m ρ c) ∗ R c)
  post c := iprop(StableHlo.held (c : Thread nD τ) (Pipeline.ucRefs τ sig) (B10 m ρ c) ∗ R c)
  X c := iprop(∃ r, prngReg c r)
  Y c := iprop(∃ r, prngReg c r)
  Z c := Pipeline.unscopedRest (Ix := Unit) (Name := ℕ) (U := UR sig nD τ) (Lvl := ℕ) spec4 c (U9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (U9 m ρ c) (X10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at boundary 10's contents, left at boundary 11's. Its
    arrays are split out of the unscoped buffers and put back at the exit contents; the generator register goes into the
    pipeline's invariant and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U10 m ρ) c).loose
  hwaits := Pipeline.hwaits_of_owed_zero _ _ _ _ L lv 5 fun _ _ => rfl
  pre c := iprop(StableHlo.held (c : Thread nD τ) (Pipeline.ucRefs τ sig) (B10 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (U10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (U10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (U10 m ρ c) (X11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The eleven segments in order. -/
abbrev theSegs : List (Pipeline.Seg (pcfgs (F := F)) adm (pdats m ρ) () defs₀ 𝒱₀ L lv) :=
  [ .host (hseg hostOps0 hostOps0_sub hostOps0_fresh (B0 m ρ)),
    .host (hseg hostOps0_1 hostOps0_1_sub hostOps0_1_fresh (B1 m ρ)),
    .host (hseg hostOps0_2 hostOps0_2_sub hostOps0_2_fresh (B2 m ρ)),
    .region (reg0 m ρ),
    .host (hseg hostOps1 hostOps1_sub hostOps1_fresh (B4 m ρ)),
    .region (reg1 m ρ),
    .host (hseg hostOps2 hostOps2_sub hostOps2_fresh (B6 m ρ)),
    .region (reg2 m ρ),
    .region (reg3 m ρ),
    .region (reg4 m ρ),
    .region (reg5 m ρ) ]
/-- The program IS the run of the segments. -/
theorem main_is_segs (c : Dev nD) : main (F := F) c = Pipeline.Seg.run (theSegs m ρ) := (main_chain c).trans (by chain_rfl)

set_option backward.isDefEq.respectTransparency.types false in
/-- THE RUN: from any memory with zero counters, every weakly fair execution of the program on the TensorCores
    terminates, nothing faulting, and every final state has each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B11 m ρ c b) :=
  Pipeline.θ_run_regions_kit (pcfgs (F := F)) adm (pdats m ρ) () cellOf_inj emb₁ defs₀ 𝒱₀ L lv m ρ main (theSegs m ρ)
    (fun c Q => by rw [main_is_segs m ρ c])
    (by simp only [theSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B11 m ρ c b)
    (hfin := fun c s' => by
      iintro ⟨⟨Hh, -⟩, HSI⟩
      unfold StableHlo.held
      imodintro
      iapply (pointsTo_read_all (Pipeline.ucRefs τ sig) (fun b => (((c : Thread nD τ)).1, b)) (B11 m ρ c) s')
      isplitl [Hh] <;> iassumption)
    (hQ := fun s h c => h c)

/-- The frame: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (B11_main_arg0 m ρ c),
    (h c _ (mem_uc main_arg1 (by decide))).trans (B11_main_arg1 m ρ c),
    (h c _ (mem_uc main_arg2 (by decide))).trans (B11_main_arg2 m ρ c),
    (h c _ (mem_uc main_arg3 (by decide))).trans (B11_main_arg3 m ρ c),
    (h c _ (mem_uc main_arg4 (by decide))).trans (B11_main_arg4 m ρ c),
    (h c _ (mem_uc main_arg5 (by decide))).trans (B11_main_arg5 m ρ c),
    (h c _ (mem_uc main_arg6 (by decide))).trans (B11_main_arg6 m ρ c),
    (h c _ (mem_uc main_arg7 (by decide))).trans (B11_main_arg7 m ρ c),
    (h c _ (mem_uc main_arg8 (by decide))).trans (B11_main_arg8 m ρ c),
    (h c _ (mem_uc main_arg9 (by decide))).trans (B11_main_arg9 m ρ c),
    (h c _ (mem_uc main_arg10 (by decide))).trans (B11_main_arg10 m ρ c),
    (h c _ (mem_uc main_arg11 (by decide))).trans (B11_main_arg11 m ρ c),
    (h c _ (mem_uc main_arg12 (by decide))).trans (B11_main_arg12 m ρ c),
    (h c _ (mem_uc main_arg13 (by decide))).trans (B11_main_arg13 m ρ c)⟩) (run_all m ρ)

end Cert.KernelIdeal.Hand

end
-- ==== Proof.KIBound.lean ====
/-
  Which buffers the items of the run leave alone: every argument array reaches each region that reads it as launched,
  and the three edge buffers (source list, destination list, per-edge weight) written by the opening host stretches
  reach both graph layers' hop computations unchanged.
-/
import proofs.«147401_j14388140441686_1_alg».proof.Proof.KIRun

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

theorem B3_arg0 : B3 m ρ c (Proc.devRef .tc main_arg0) = m ((c : Thread nD τ).loc main_arg0) :=
  (B3_of m ρ c main_arg0 (by decide)).trans <| (B2_of m ρ c main_arg0 (by decide)).trans <| (B1_of m ρ c main_arg0 (by decide)).trans <| rfl
theorem B3_arg2 : B3 m ρ c (Proc.devRef .tc main_arg2) = m ((c : Thread nD τ).loc main_arg2) :=
  (B3_of m ρ c main_arg2 (by decide)).trans <| (B2_of m ρ c main_arg2 (by decide)).trans <| (B1_of m ρ c main_arg2 (by decide)).trans <| rfl
theorem B3_arg3 : B3 m ρ c (Proc.devRef .tc main_arg3) = m ((c : Thread nD τ).loc main_arg3) :=
  (B3_of m ρ c main_arg3 (by decide)).trans <| (B2_of m ρ c main_arg3 (by decide)).trans <| (B1_of m ρ c main_arg3 (by decide)).trans <| rfl
theorem B5_arg4 : B5 m ρ c (Proc.devRef .tc main_arg4) = m ((c : Thread nD τ).loc main_arg4) :=
  (B5_of m ρ c main_arg4 (by decide)).trans <| (B4_of_ne m ρ c main_arg4 (by decide)).trans <| (B3_of m ρ c main_arg4 (by decide)).trans <| (B2_of m ρ c main_arg4 (by decide)).trans <| (B1_of m ρ c main_arg4 (by decide)).trans <| rfl
theorem B5_arg5 : B5 m ρ c (Proc.devRef .tc main_arg5) = m ((c : Thread nD τ).loc main_arg5) :=
  (B5_of m ρ c main_arg5 (by decide)).trans <| (B4_of_ne m ρ c main_arg5 (by decide)).trans <| (B3_of m ρ c main_arg5 (by decide)).trans <| (B2_of m ρ c main_arg5 (by decide)).trans <| (B1_of m ρ c main_arg5 (by decide)).trans <| rfl
theorem B7_arg6 : B7 m ρ c (Proc.devRef .tc main_arg6) = m ((c : Thread nD τ).loc main_arg6) :=
  (B7_of m ρ c main_arg6 (by decide)).trans <| (B6_of_ne m ρ c main_arg6 (by decide)).trans <| (B5_of m ρ c main_arg6 (by decide)).trans <| (B4_of_ne m ρ c main_arg6 (by decide)).trans <| (B3_of m ρ c main_arg6 (by decide)).trans <| (B2_of m ρ c main_arg6 (by decide)).trans <| (B1_of m ρ c main_arg6 (by decide)).trans <| rfl
theorem B7_arg7 : B7 m ρ c (Proc.devRef .tc main_arg7) = m ((c : Thread nD τ).loc main_arg7) :=
  (B7_of m ρ c main_arg7 (by decide)).trans <| (B6_of_ne m ρ c main_arg7 (by decide)).trans <| (B5_of m ρ c main_arg7 (by decide)).trans <| (B4_of_ne m ρ c main_arg7 (by decide)).trans <| (B3_of m ρ c main_arg7 (by decide)).trans <| (B2_of m ρ c main_arg7 (by decide)).trans <| (B1_of m ρ c main_arg7 (by decide)).trans <| rfl
theorem B8_arg8 : B8 m ρ c (Proc.devRef .tc main_arg8) = m ((c : Thread nD τ).loc main_arg8) :=
  (B8_of_ne m ρ c main_arg8 (by decide)).trans <| (B7_of m ρ c main_arg8 (by decide)).trans <| (B6_of_ne m ρ c main_arg8 (by decide)).trans <| (B5_of m ρ c main_arg8 (by decide)).trans <| (B4_of_ne m ρ c main_arg8 (by decide)).trans <| (B3_of m ρ c main_arg8 (by decide)).trans <| (B2_of m ρ c main_arg8 (by decide)).trans <| (B1_of m ρ c main_arg8 (by decide)).trans <| rfl
theorem B8_arg9 : B8 m ρ c (Proc.devRef .tc main_arg9) = m ((c : Thread nD τ).loc main_arg9) :=
  (B8_of_ne m ρ c main_arg9 (by decide)).trans <| (B7_of m ρ c main_arg9 (by decide)).trans <| (B6_of_ne m ρ c main_arg9 (by decide)).trans <| (B5_of m ρ c main_arg9 (by decide)).trans <| (B4_of_ne m ρ c main_arg9 (by decide)).trans <| (B3_of m ρ c main_arg9 (by decide)).trans <| (B2_of m ρ c main_arg9 (by decide)).trans <| (B1_of m ρ c main_arg9 (by decide)).trans <| rfl
theorem B9_arg10 : B9 m ρ c (Proc.devRef .tc main_arg10) = m ((c : Thread nD τ).loc main_arg10) :=
  (B9_of_ne m ρ c main_arg10 (by decide)).trans <| (B8_of_ne m ρ c main_arg10 (by decide)).trans <| (B7_of m ρ c main_arg10 (by decide)).trans <| (B6_of_ne m ρ c main_arg10 (by decide)).trans <| (B5_of m ρ c main_arg10 (by decide)).trans <| (B4_of_ne m ρ c main_arg10 (by decide)).trans <| (B3_of m ρ c main_arg10 (by decide)).trans <| (B2_of m ρ c main_arg10 (by decide)).trans <| (B1_of m ρ c main_arg10 (by decide)).trans <| rfl
theorem B9_arg11 : B9 m ρ c (Proc.devRef .tc main_arg11) = m ((c : Thread nD τ).loc main_arg11) :=
  (B9_of_ne m ρ c main_arg11 (by decide)).trans <| (B8_of_ne m ρ c main_arg11 (by decide)).trans <| (B7_of m ρ c main_arg11 (by decide)).trans <| (B6_of_ne m ρ c main_arg11 (by decide)).trans <| (B5_of m ρ c main_arg11 (by decide)).trans <| (B4_of_ne m ρ c main_arg11 (by decide)).trans <| (B3_of m ρ c main_arg11 (by decide)).trans <| (B2_of m ρ c main_arg11 (by decide)).trans <| (B1_of m ρ c main_arg11 (by decide)).trans <| rfl
theorem B10_arg12 : B10 m ρ c (Proc.devRef .tc main_arg12) = m ((c : Thread nD τ).loc main_arg12) :=
  (B10_of_ne m ρ c main_arg12 (by decide)).trans <| (B9_of_ne m ρ c main_arg12 (by decide)).trans <| (B8_of_ne m ρ c main_arg12 (by decide)).trans <| (B7_of m ρ c main_arg12 (by decide)).trans <| (B6_of_ne m ρ c main_arg12 (by decide)).trans <| (B5_of m ρ c main_arg12 (by decide)).trans <| (B4_of_ne m ρ c main_arg12 (by decide)).trans <| (B3_of m ρ c main_arg12 (by decide)).trans <| (B2_of m ρ c main_arg12 (by decide)).trans <| (B1_of m ρ c main_arg12 (by decide)).trans <| rfl
theorem B10_arg13 : B10 m ρ c (Proc.devRef .tc main_arg13) = m ((c : Thread nD τ).loc main_arg13) :=
  (B10_of_ne m ρ c main_arg13 (by decide)).trans <| (B9_of_ne m ρ c main_arg13 (by decide)).trans <| (B8_of_ne m ρ c main_arg13 (by decide)).trans <| (B7_of m ρ c main_arg13 (by decide)).trans <| (B6_of_ne m ρ c main_arg13 (by decide)).trans <| (B5_of m ρ c main_arg13 (by decide)).trans <| (B4_of_ne m ρ c main_arg13 (by decide)).trans <| (B3_of m ρ c main_arg13 (by decide)).trans <| (B2_of m ρ c main_arg13 (by decide)).trans <| (B1_of m ρ c main_arg13 (by decide)).trans <| rfl
theorem B4_main_v1 : B4 m ρ c (Proc.devRef .tc main_v1) = B3 m ρ c (Proc.devRef .tc main_v1) :=
  (B4_of_ne m ρ c main_v1 (by decide)).trans <| rfl
theorem B4_main_v3 : B4 m ρ c (Proc.devRef .tc main_v3) = B3 m ρ c (Proc.devRef .tc main_v3) :=
  (B4_of_ne m ρ c main_v3 (by decide)).trans <| rfl
theorem B4_main_v27 : B4 m ρ c (Proc.devRef .tc main_v27) = B3 m ρ c (Proc.devRef .tc main_v27) :=
  (B4_of_ne m ρ c main_v27 (by decide)).trans <| rfl
theorem B6_main_v1 : B6 m ρ c (Proc.devRef .tc main_v1) = B3 m ρ c (Proc.devRef .tc main_v1) :=
  (B6_of_ne m ρ c main_v1 (by decide)).trans <| (B5_of m ρ c main_v1 (by decide)).trans <| (B4_of_ne m ρ c main_v1 (by decide)).trans <| rfl
theorem B6_main_v3 : B6 m ρ c (Proc.devRef .tc main_v3) = B3 m ρ c (Proc.devRef .tc main_v3) :=
  (B6_of_ne m ρ c main_v3 (by decide)).trans <| (B5_of m ρ c main_v3 (by decide)).trans <| (B4_of_ne m ρ c main_v3 (by decide)).trans <| rfl
theorem B6_main_v27 : B6 m ρ c (Proc.devRef .tc main_v27) = B3 m ρ c (Proc.devRef .tc main_v27) :=
  (B6_of_ne m ρ c main_v27 (by decide)).trans <| (B5_of m ρ c main_v27 (by decide)).trans <| (B4_of_ne m ρ c main_v27 (by decide)).trans <| rfl

end Cert.KernelIdeal.Hand

end
-- ==== Proof.RefTerm.lean ====
/-
  The reference's run read back one operation at a time: this module brings in the reference's run and its
  read-at-an-index stages, on which the comparison with the kernel's value is built.
-/
import proofs.«147401_j14388140441686_1_alg».proof.Proof.RefRunP
import proofs.«147401_j14388140441686_1_alg».proof.Proof.RefReadP
-- ==== Proof.KIHost.lean ====
/-
  What the kernel program's stretches of host operations leave, stated against the reference's own stages. Both
  programs normalise the edge list, count in-degrees, take the inverse square roots, form the per-edge weight and run
  each hop (gather the source rows, scale by the edge weight, scatter-add into the destination rows) with the same
  operations in the same order; the kernel's text differs only in that it computes the edge weight once and stacks the
  four hop arrays of a layer along a new leading axis. So each buffer a stretch writes is, term for term, the
  reference's stage of the same name, once the buffers the stretch reads are.
-/
import proofs.«147401_j14388140441686_1_alg».proof.Proof.Gen.KernelIdeal.Launch
import proofs.«147401_j14388140441686_1_alg».proof.Proof.RefTerm
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.StableHlo

variable {F : FTy → Type} [FloatOps F]
variable (W : Valuation τ sig (Elt F))

/-- After the first three stretches: the source list, the destination list and the per-edge weight. -/
theorem edges_src : StableHlo.after hostOps0_2 (StableHlo.after hostOps0_1 (StableHlo.after hostOps0 W)) main_v1 = Cert.ReferenceIdeal.ReadP.val_main_v1 (F := F) (W main_arg1) := by
  after_results_simp <;> rfl
theorem edges_dst : StableHlo.after hostOps0_2 (StableHlo.after hostOps0_1 (StableHlo.after hostOps0 W)) main_v3 = Cert.ReferenceIdeal.ReadP.val_main_v3 (F := F) (W main_arg1) := by
  after_results_simp <;> rfl
theorem edges_weight : StableHlo.after hostOps0_2 (StableHlo.after hostOps0_1 (StableHlo.after hostOps0 W)) main_v27 = Cert.ReferenceIdeal.ReadP.val_main_v32 (F := F) (W main_arg1) := by
  after_results_simp <;> rfl

section Layer1
variable (x0 : (⟨S100000x16, .f32⟩ : BufTy).Contents (Elt F)) (x1 : (⟨S2x600000, .i32⟩ : BufTy).Contents (Elt F)) (x2 : (⟨S16x128, .f32⟩ : BufTy).Contents (Elt F)) (x3 : (⟨S128, .f32⟩ : BufTy).Contents (Elt F)) (x4 : (⟨S4x128x128, .f32⟩ : BufTy).Contents (Elt F)) (x5 : (⟨S128, .f32⟩ : BufTy).Contents (Elt F))
variable (h28 : W main_v28 = Cert.ReferenceIdeal.ReadP.val_main_v8 (F := F) x0 x2 x3) (h1 : W main_v1 = Cert.ReferenceIdeal.ReadP.val_main_v1 (F := F) x1)
  (h3 : W main_v3 = Cert.ReferenceIdeal.ReadP.val_main_v3 (F := F) x1) (h27 : W main_v27 = Cert.ReferenceIdeal.ReadP.val_main_v32 (F := F) x1)
include h28 h1 h3 h27

/-- The first layer's three hops. -/
theorem hop1_1 : StableHlo.after hostOps1 W main_v40 = Cert.ReferenceIdeal.ReadP.val_main_v47 (F := F) x0 x1 x2 x3 := by
  after_results_simp <;> (try rw [h28, h1, h3, h27]) <;> rfl
theorem hop1_2 : StableHlo.after hostOps1 W main_v52 = Cert.ReferenceIdeal.ReadP.val_main_v63 (F := F) x0 x1 x2 x3 := by
  after_results_simp <;> (try rw [h28, h1, h3, h27]) <;> rfl
theorem hop1_3 : StableHlo.after hostOps1 W main_v64 = Cert.ReferenceIdeal.ReadP.val_main_v79 (F := F) x0 x1 x2 x3 := by
  after_results_simp <;> (try rw [h28, h1, h3, h27]) <;> rfl
end Layer1

section Layer2
variable (x0 : (⟨S100000x16, .f32⟩ : BufTy).Contents (Elt F)) (x1 : (⟨S2x600000, .i32⟩ : BufTy).Contents (Elt F)) (x2 : (⟨S16x128, .f32⟩ : BufTy).Contents (Elt F)) (x3 : (⟨S128, .f32⟩ : BufTy).Contents (Elt F)) (x4 : (⟨S4x128x128, .f32⟩ : BufTy).Contents (Elt F)) (x5 : (⟨S128, .f32⟩ : BufTy).Contents (Elt F))
variable (h70 : W main_v70 = Cert.ReferenceIdeal.ReadP.val_main_v87 (F := F) x0 x1 x2 x3 x4 x5) (h1 : W main_v1 = Cert.ReferenceIdeal.ReadP.val_main_v1 (F := F) x1)
  (h3 : W main_v3 = Cert.ReferenceIdeal.ReadP.val_main_v3 (F := F) x1) (h27 : W main_v27 = Cert.ReferenceIdeal.ReadP.val_main_v32 (F := F) x1)
include h70 h1 h3 h27

/-- The second layer's three hops. -/
theorem hop2_1 : StableHlo.after hostOps2 W main_v82 = Cert.ReferenceIdeal.ReadP.val_main_v126 (F := F) x0 x1 x2 x3 x4 x5 := by
  after_results_simp <;> (try rw [h70, h1, h3, h27]) <;> rfl
theorem hop2_2 : StableHlo.after hostOps2 W main_v94 = Cert.ReferenceIdeal.ReadP.val_main_v142 (F := F) x0 x1 x2 x3 x4 x5 := by
  after_results_simp <;> (try rw [h70, h1, h3, h27]) <;> rfl
theorem hop2_3 : StableHlo.after hostOps2 W main_v106 = Cert.ReferenceIdeal.ReadP.val_main_v158 (F := F) x0 x1 x2 x3 x4 x5 := by
  after_results_simp <;> (try rw [h70, h1, h3, h27]) <;> rfl
end Layer2

end Cert.KernelIdeal.Hand

end
-- ==== Proof.KIHostStack.lean ====
/-
  The two stacks the kernel program's host operations build for its graph layers: the entry activations and the three
  hops, each given a new leading axis of length one and joined along it. The joining operation is the last of its
  stretch and reads four buffers it does not write, so the stacked array is the join of what the stretch leaves in those
  four; and each of the four is the reference's stage under the new axis, once the buffers the stretch reads hold the
  reference's stages.
-/
import proofs.«147401_j14388140441686_1_alg».proof.Proof.Gen.KernelIdeal.Launch
import proofs.«147401_j14388140441686_1_alg».proof.Proof.RefTerm
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.StableHlo

variable {F : FTy → Type} [FloatOps F]
variable (W : Valuation τ sig (Elt F))

/-- The joining operation's own result, for ANY contents of the buffers before it: the four operands side by side. -/
theorem join1 (G : Valuation τ sig (Elt F)) (hxs hy) :
    (nary (τ := τ) ![main_v65, main_v66, main_v67, main_v68] main_v69 (fun u => concatenate S4x100000x128 0 [⟨S1x100000x128, u 0⟩, ⟨S1x100000x128, u 1⟩, ⟨S1x100000x128, u 2⟩, ⟨S1x100000x128, u 3⟩] concatenates_S1x100000x128_S1x100000x128_S1x100000x128_S1x100000x128_S4x100000x128_d0) hxs hy).result G (Proc.devRef .tc main_v69)
      = concatenate S4x100000x128 0 [⟨S1x100000x128, G (Proc.devRef .tc main_v65)⟩, ⟨S1x100000x128, G (Proc.devRef .tc main_v66)⟩, ⟨S1x100000x128, G (Proc.devRef .tc main_v67)⟩, ⟨S1x100000x128, G (Proc.devRef .tc main_v68)⟩] concatenates_S1x100000x128_S1x100000x128_S1x100000x128_S1x100000x128_S4x100000x128_d0 := by
  rw [nary4_result]; rfl

/-- The joining operation's own result, for ANY contents of the buffers before it: the four operands side by side. -/
theorem join2 (G : Valuation τ sig (Elt F)) (hxs hy) :
    (nary (τ := τ) ![main_v107, main_v108, main_v109, main_v110] main_v111 (fun u => concatenate S4x100000x128 0 [⟨S1x100000x128, u 0⟩, ⟨S1x100000x128, u 1⟩, ⟨S1x100000x128, u 2⟩, ⟨S1x100000x128, u 3⟩] concatenates_S1x100000x128_S1x100000x128_S1x100000x128_S1x100000x128_S4x100000x128_d0) hxs hy).result G (Proc.devRef .tc main_v111)
      = concatenate S4x100000x128 0 [⟨S1x100000x128, G (Proc.devRef .tc main_v107)⟩, ⟨S1x100000x128, G (Proc.devRef .tc main_v108)⟩, ⟨S1x100000x128, G (Proc.devRef .tc main_v109)⟩, ⟨S1x100000x128, G (Proc.devRef .tc main_v110)⟩] concatenates_S1x100000x128_S1x100000x128_S1x100000x128_S1x100000x128_S4x100000x128_d0 := by
  rw [nary4_result]; rfl

section Layer1
variable (x0 : (⟨S100000x16, .f32⟩ : BufTy).Contents (Elt F)) (x1 : (⟨S2x600000, .i32⟩ : BufTy).Contents (Elt F)) (x2 : (⟨S16x128, .f32⟩ : BufTy).Contents (Elt F)) (x3 : (⟨S128, .f32⟩ : BufTy).Contents (Elt F)) (x4 : (⟨S4x128x128, .f32⟩ : BufTy).Contents (Elt F)) (x5 : (⟨S128, .f32⟩ : BufTy).Contents (Elt F))
variable (h28 : W main_v28 = Cert.ReferenceIdeal.ReadP.val_main_v8 (F := F) x0 x2 x3) (h1 : W main_v1 = Cert.ReferenceIdeal.ReadP.val_main_v1 (F := F) x1)
  (h3 : W main_v3 = Cert.ReferenceIdeal.ReadP.val_main_v3 (F := F) x1) (h27 : W main_v27 = Cert.ReferenceIdeal.ReadP.val_main_v32 (F := F) x1)
include h28 h1 h3 h27

theorem piece1_0 : StableHlo.after hostOps1 W main_v65 = broadcastInDim S1x100000x128 ![1, 2] bcast_S100000x128_S1x100000x128_1_2 (Cert.ReferenceIdeal.ReadP.val_main_v8 (F := F) x0 x2 x3) := by
  after_results_simp <;> rw [h28] <;> rfl
theorem piece1_1 : StableHlo.after hostOps1 W main_v66 = broadcastInDim S1x100000x128 ![1, 2] bcast_S100000x128_S1x100000x128_1_2 (Cert.ReferenceIdeal.ReadP.val_main_v47 (F := F) x0 x1 x2 x3) := by
  after_results_simp <;> (try rw [h28, h1, h3, h27]) <;> rfl
theorem piece1_2 : StableHlo.after hostOps1 W main_v67 = broadcastInDim S1x100000x128 ![1, 2] bcast_S100000x128_S1x100000x128_1_2 (Cert.ReferenceIdeal.ReadP.val_main_v63 (F := F) x0 x1 x2 x3) := by
  after_results_simp <;> (try rw [h28, h1, h3, h27]) <;> rfl
theorem piece1_3 : StableHlo.after hostOps1 W main_v68 = broadcastInDim S1x100000x128 ![1, 2] bcast_S100000x128_S1x100000x128_1_2 (Cert.ReferenceIdeal.ReadP.val_main_v79 (F := F) x0 x1 x2 x3) := by
  after_results_simp <;> (try rw [h28, h1, h3, h27]) <;> rfl

set_option maxHeartbeats 2000000 in
/-- The first layer's stack: the entry activations and the three hops along a new leading axis. -/
theorem stack1 : StableHlo.after hostOps1 W main_v69 = (concatenate S4x100000x128 0 [⟨S1x100000x128, broadcastInDim S1x100000x128 ![1, 2] bcast_S100000x128_S1x100000x128_1_2 (Cert.ReferenceIdeal.ReadP.val_main_v8 (F := F) x0 x2 x3)⟩, ⟨S1x100000x128, broadcastInDim S1x100000x128 ![1, 2] bcast_S100000x128_S1x100000x128_1_2 (Cert.ReferenceIdeal.ReadP.val_main_v47 (F := F) x0 x1 x2 x3)⟩, ⟨S1x100000x128, broadcastInDim S1x100000x128 ![1, 2] bcast_S100000x128_S1x100000x128_1_2 (Cert.ReferenceIdeal.ReadP.val_main_v63 (F := F) x0 x1 x2 x3)⟩, ⟨S1x100000x128, broadcastInDim S1x100000x128 ![1, 2] bcast_S100000x128_S1x100000x128_1_2 (Cert.ReferenceIdeal.ReadP.val_main_v79 (F := F) x0 x1 x2 x3)⟩] concatenates_S1x100000x128_S1x100000x128_S1x100000x128_S1x100000x128_S4x100000x128_d0 : (⟨S4x100000x128, .f32⟩ : BufTy).Contents (Elt F)) := by
  have e0 := piece1_0 W x0 x1 x2 x3 h28 h1 h3 h27
  have e1 := piece1_1 W x0 x1 x2 x3 h28 h1 h3 h27
  have e2 := piece1_2 W x0 x1 x2 x3 h28 h1 h3 h27
  have e3 := piece1_3 W x0 x1 x2 x3 h28 h1 h3 h27
  simp only [after_cons, after_nil] at e0 e1 e2 e3 ⊢
  rw [nary_result_ne (h := by decide)] at e0 e1 e2 e3
  rw [join1, e0, e1, e2, e3]
end Layer1

section Layer2
variable (x0 : (⟨S100000x16, .f32⟩ : BufTy).Contents (Elt F)) (x1 : (⟨S2x600000, .i32⟩ : BufTy).Contents (Elt F)) (x2 : (⟨S16x128, .f32⟩ : BufTy).Contents (Elt F)) (x3 : (⟨S128, .f32⟩ : BufTy).Contents (Elt F)) (x4 : (⟨S4x128x128, .f32⟩ : BufTy).Contents (Elt F)) (x5 : (⟨S128, .f32⟩ : BufTy).Contents (Elt F))
variable (h70 : W main_v70 = Cert.ReferenceIdeal.ReadP.val_main_v87 (F := F) x0 x1 x2 x3 x4 x5) (h1 : W main_v1 = Cert.ReferenceIdeal.ReadP.val_main_v1 (F := F) x1)
  (h3 : W main_v3 = Cert.ReferenceIdeal.ReadP.val_main_v3 (F := F) x1) (h27 : W main_v27 = Cert.ReferenceIdeal.ReadP.val_main_v32 (F := F) x1)
include h70 h1 h3 h27

theorem piece2_0 : StableHlo.after hostOps2 W main_v107 = broadcastInDim S1x100000x128 ![1, 2] bcast_S100000x128_S1x100000x128_1_2 (Cert.ReferenceIdeal.ReadP.val_main_v87 (F := F) x0 x1 x2 x3 x4 x5) := by
  after_results_simp <;> rw [h70] <;> rfl
theorem piece2_1 : StableHlo.after hostOps2 W main_v108 = broadcastInDim S1x100000x128 ![1, 2] bcast_S100000x128_S1x100000x128_1_2 (Cert.ReferenceIdeal.ReadP.val_main_v126 (F := F) x0 x1 x2 x3 x4 x5) := by
  after_results_simp <;> (try rw [h70, h1, h3, h27]) <;> rfl
theorem piece2_2 : StableHlo.after hostOps2 W main_v109 = broadcastInDim S1x100000x128 ![1, 2] bcast_S100000x128_S1x100000x128_1_2 (Cert.ReferenceIdeal.ReadP.val_main_v142 (F := F) x0 x1 x2 x3 x4 x5) := by
  after_results_simp <;> (try rw [h70, h1, h3, h27]) <;> rfl
theorem piece2_3 : StableHlo.after hostOps2 W main_v110 = broadcastInDim S1x100000x128 ![1, 2] bcast_S100000x128_S1x100000x128_1_2 (Cert.ReferenceIdeal.ReadP.val_main_v158 (F := F) x0 x1 x2 x3 x4 x5) := by
  after_results_simp <;> (try rw [h70, h1, h3, h27]) <;> rfl

set_option maxHeartbeats 2000000 in
/-- The second layer's stack. -/
theorem stack2 : StableHlo.after hostOps2 W main_v111 = (concatenate S4x100000x128 0 [⟨S1x100000x128, broadcastInDim S1x100000x128 ![1, 2] bcast_S100000x128_S1x100000x128_1_2 (Cert.ReferenceIdeal.ReadP.val_main_v87 (F := F) x0 x1 x2 x3 x4 x5)⟩, ⟨S1x100000x128, broadcastInDim S1x100000x128 ![1, 2] bcast_S100000x128_S1x100000x128_1_2 (Cert.ReferenceIdeal.ReadP.val_main_v126 (F := F) x0 x1 x2 x3 x4 x5)⟩, ⟨S1x100000x128, broadcastInDim S1x100000x128 ![1, 2] bcast_S100000x128_S1x100000x128_1_2 (Cert.ReferenceIdeal.ReadP.val_main_v142 (F := F) x0 x1 x2 x3 x4 x5)⟩, ⟨S1x100000x128, broadcastInDim S1x100000x128 ![1, 2] bcast_S100000x128_S1x100000x128_1_2 (Cert.ReferenceIdeal.ReadP.val_main_v158 (F := F) x0 x1 x2 x3 x4 x5)⟩] concatenates_S1x100000x128_S1x100000x128_S1x100000x128_S1x100000x128_S4x100000x128_d0 : (⟨S4x100000x128, .f32⟩ : BufTy).Contents (Elt F)) := by
  have e0 := piece2_0 W x0 x1 x2 x3 x4 x5 h70 h1 h3 h27
  have e1 := piece2_1 W x0 x1 x2 x3 x4 x5 h70 h1 h3 h27
  have e2 := piece2_2 W x0 x1 x2 x3 x4 x5 h70 h1 h3 h27
  have e3 := piece2_3 W x0 x1 x2 x3 x4 x5 h70 h1 h3 h27
  simp only [after_cons, after_nil] at e0 e1 e2 e3 ⊢
  rw [nary_result_ne (h := by decide)] at e0 e1 e2 e3
  rw [join2, e0, e1, e2, e3]
end Layer2

end Cert.KernelIdeal.Hand

end
-- ==== Proof.Layers.lean ====
/-
  The network's dense layers as whole-array functions, written with the reference program's own operations:
  relu(x·W + b) for the three widths that occur, and the graph layer's combination
  relu(h₀·W[0] + h₁·W[1] + h₂·W[2] + h₃·W[3] + b) of four hop arrays with the four slices of one weight stack,
  summed left to right as the reference sums them. The kernel's regions are shown to compute exactly these.
-/
import proofs.«147401_j14388140441686_1_alg».proof.Proof.Gen.ReferenceIdeal

noncomputable section

namespace Cert.Layers

open Cert.ReferenceIdeal Cert.ReferenceIdeal.Gen Idealize.ShloMosaic

variable {F : FTy → Type} [FloatOps F]

/-- relu(x·W + b), 16 features in, 128 out. -/
def dense16 (x : (⟨S100000x16, .f32⟩ : BufTy).Contents (Elt F)) (W : (⟨S16x128, .f32⟩ : BufTy).Contents (Elt F)) (b : (⟨S128, .f32⟩ : BufTy).Contents (Elt F)) : (⟨S100000x128, .f32⟩ : BufTy).Contents (Elt F) :=
  maximumf (addf (Host.dotGeneral dot_S100000x16_S16x128_S100000x128_1_0_0_1_n_n none x W) (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- relu(h·W + b), 128 features in, 128 out. -/
def dense128 (h : (⟨S100000x128, .f32⟩ : BufTy).Contents (Elt F)) (W : (⟨S128x128, .f32⟩ : BufTy).Contents (Elt F)) (b : (⟨S128, .f32⟩ : BufTy).Contents (Elt F)) : (⟨S100000x128, .f32⟩ : BufTy).Contents (Elt F) :=
  maximumf (addf (Host.dotGeneral dot_S100000x128_S128x128_S100000x128_1_0_0_1_n_n none h W) (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- relu(h·w + b), 128 features in, one out. -/
def dense1 (h : (⟨S100000x128, .f32⟩ : BufTy).Contents (Elt F)) (W : (⟨S128x1, .f32⟩ : BufTy).Contents (Elt F)) (b : (⟨S1, .f32⟩ : BufTy).Contents (Elt F)) : (⟨S100000x1, .f32⟩ : BufTy).Contents (Elt F) :=
  maximumf (addf (Host.dotGeneral dot_S100000x128_S128x1_S100000x1_1_0_0_1_n_n none h W)
    (broadcastInDim S100000x1 ![0, 1] bcast_S1x1_S100000x1_0_1 (broadcastInDim S1x1 ![1] bcast_S1_S1x1_1 b))) (broadcastInDim S100000x1 ![] bcast_S_S100000x1 (constant S_ .f32 0x00000000#32))

/-- Slice `k` of a stack of four 128×128 weight matrices. -/
def wslice0 (W : (⟨S4x128x128, .f32⟩ : BufTy).Contents (Elt F)) : (⟨S128x128, .f32⟩ : BufTy).Contents (Elt F) :=
  (shapeCast S128x128 (extractStridedSlice S1x128x128 ![0, 0, 0] W slices_S4x128x128_S1x128x128_0_0_0) shapeCasts_S1x128x128_S128x128)
def wslice1 (W : (⟨S4x128x128, .f32⟩ : BufTy).Contents (Elt F)) : (⟨S128x128, .f32⟩ : BufTy).Contents (Elt F) :=
  (shapeCast S128x128 (extractStridedSlice S1x128x128 ![1, 0, 0] W slices_S4x128x128_S1x128x128_1_0_0) shapeCasts_S1x128x128_S128x128)
def wslice2 (W : (⟨S4x128x128, .f32⟩ : BufTy).Contents (Elt F)) : (⟨S128x128, .f32⟩ : BufTy).Contents (Elt F) :=
  (shapeCast S128x128 (extractStridedSlice S1x128x128 ![2, 0, 0] W slices_S4x128x128_S1x128x128_2_0_0) shapeCasts_S1x128x128_S128x128)
def wslice3 (W : (⟨S4x128x128, .f32⟩ : BufTy).Contents (Elt F)) : (⟨S128x128, .f32⟩ : BufTy).Contents (Elt F) :=
  (shapeCast S128x128 (extractStridedSlice S1x128x128 ![3, 0, 0] W slices_S4x128x128_S1x128x128_3_0_0) shapeCasts_S1x128x128_S128x128)

/-- relu(h₀·W[0] + h₁·W[1] + h₂·W[2] + h₃·W[3] + b), the products added left to right. -/
def combine (h0 h1 h2 h3 : (⟨S100000x128, .f32⟩ : BufTy).Contents (Elt F)) (W : (⟨S4x128x128, .f32⟩ : BufTy).Contents (Elt F)) (b : (⟨S128, .f32⟩ : BufTy).Contents (Elt F)) : (⟨S100000x128, .f32⟩ : BufTy).Contents (Elt F) :=
  maximumf (addf (addf (addf (addf (Host.dotGeneral dot_S100000x128_S128x128_S100000x128_1_0_0_1_n_n none h0 (wslice0 W)) (Host.dotGeneral dot_S100000x128_S128x128_S100000x128_1_0_0_1_n_n none h1 (wslice1 W))) (Host.dotGeneral dot_S100000x128_S128x128_S100000x128_1_0_0_1_n_n none h2 (wslice2 W))) (Host.dotGeneral dot_S100000x128_S128x128_S100000x128_1_0_0_1_n_n none h3 (wslice3 W))) (broadcastInDim S100000x128 ![0, 1] bcast_S1x128_S100000x128_0_1 (broadcastInDim S1x128 ![1] bcast_S128_S1x128_1 b))) (broadcastInDim S100000x128 ![] bcast_S_S100000x128 (constant S_ .f32 0x00000000#32))

end Cert.Layers

end
-- ==== Proof.RefLayers.lean ====
/-
  The reference's stages are the layer functions: its first dense layer, each graph layer (the entry activations and
  the three hops combined with the four weight slices), the two inner dense layers and the last one are, by their
  definitions, the layer functions applied to the stages before them.
-/
import proofs.«147401_j14388140441686_1_alg».proof.Proof.Layers
import proofs.«147401_j14388140441686_1_alg».proof.Proof.RefTerm

set_option maxRecDepth 16384

noncomputable section

namespace Cert.Layers

open Cert.ReferenceIdeal Cert.ReferenceIdeal.Gen Idealize.ShloMosaic

variable {F : FTy → Type} [FloatOps F]
variable (x0 : (⟨S100000x16, .f32⟩ : BufTy).Contents (Elt F)) (x1 : (⟨S2x600000, .i32⟩ : BufTy).Contents (Elt F)) (x2 : (⟨S16x128, .f32⟩ : BufTy).Contents (Elt F)) (x3 : (⟨S128, .f32⟩ : BufTy).Contents (Elt F)) (x4 : (⟨S4x128x128, .f32⟩ : BufTy).Contents (Elt F)) (x5 : (⟨S128, .f32⟩ : BufTy).Contents (Elt F)) (x6 : (⟨S4x128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x1, .f32⟩ : BufTy).Contents (Elt F)) (x13 : (⟨S1, .f32⟩ : BufTy).Contents (Elt F))

theorem dense16_is : dense16 (F := F) x0 x2 x3 = ReadP.val_main_v8 (F := F) x0 x2 x3 := rfl
theorem combine1_is : combine (F := F) (ReadP.val_main_v8 (F := F) x0 x2 x3) (ReadP.val_main_v47 (F := F) x0 x1 x2 x3) (ReadP.val_main_v63 (F := F) x0 x1 x2 x3) (ReadP.val_main_v79 (F := F) x0 x1 x2 x3) x4 x5 = ReadP.val_main_v87 (F := F) x0 x1 x2 x3 x4 x5 := rfl
theorem combine2_is : combine (F := F) (ReadP.val_main_v87 (F := F) x0 x1 x2 x3 x4 x5) (ReadP.val_main_v126 (F := F) x0 x1 x2 x3 x4 x5) (ReadP.val_main_v142 (F := F) x0 x1 x2 x3 x4 x5) (ReadP.val_main_v158 (F := F) x0 x1 x2 x3 x4 x5) x6 x7 = ReadP.val_main_v166 (F := F) x0 x1 x2 x3 x4 x5 x6 x7 := rfl
theorem dense128a_is : dense128 (F := F) (ReadP.val_main_v166 (F := F) x0 x1 x2 x3 x4 x5 x6 x7) x8 x9 = ReadP.val_main_v171 (F := F) x0 x1 x2 x3 x4 x5 x6 x7 x8 x9 := rfl
theorem dense128b_is : dense128 (F := F) (ReadP.val_main_v171 (F := F) x0 x1 x2 x3 x4 x5 x6 x7 x8 x9) x10 x11 = ReadP.val_main_v176 (F := F) x0 x1 x2 x3 x4 x5 x6 x7 x8 x9 x10 x11 := rfl
theorem dense1_is : dense1 (F := F) (ReadP.val_main_v176 (F := F) x0 x1 x2 x3 x4 x5 x6 x7 x8 x9 x10 x11) x12 x13 = ReadP.val_main_v181 (F := F) x0 x1 x2 x3 x4 x5 x6 x7 x8 x9 x10 x11 x12 x13 := rfl

end Cert.Layers

end
-- ==== Proof.KIValDenseLib.lean ====
/-
  Shared facts for the plain dense regions relu(x·W + b).

  * `denseAt x W b p q`: the layer's entry at row `p`, column `q` on the extended reals — the maximum of
    (Σ_k x(p,k)·W(k,q)) + b(q) and the f32 zero word's value.
  * `dot_sum_eq`: for a dot with ONE contracted axis (axis 1 of the left operand against axis 0 of the right one, no
    batch axis), the sum over the dot's contraction index of the operands' products at output index (p,q) is the sum
    over the inner coordinate k of l(p,k)·r(k,q): the contraction index is its one coordinate.
  * a bias row read through a leading unit axis and a row broadcast is the bias at the column.
  * the tiling arithmetic: row r lies in block r / B at offset r % B.
-/
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx

/-- The dense layer's entry at (p, q): max((Σ_k x(p,k)·W(k,q)) + b(q), 0), the zero kept as the f32 zero word's value. -/
def denseAt {M K N : ℕ} (x : (⟨2, ![M, K]⟩ : Shape).Idx → EReal) (W : (⟨2, ![K, N]⟩ : Shape).Idx → EReal)
    (b : (⟨1, ![N]⟩ : Shape).Idx → EReal) (p : Fin M) (q : Fin N) : EReal :=
  max ((∑ k : Fin K, x (ix2 p k) * W (ix2 k q)) + b (ix1 q)) (Ideal.ofBits .f32 0x00000000#32)

/-- A one-axis contraction read at (p, q): the sum over the dot's contraction index is the sum over the inner
    coordinate. The four hypotheses say where the dot's operand indices sit: the left operand at (row of the output,
    contraction coordinate), the right one at (contraction coordinate, column of the output). -/
theorem dot_sum_eq {M K N : ℕ} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (l : (⟨2, ![M, K]⟩ : Shape).Idx → EReal) (r : (⟨2, ![K, N]⟩ : Shape).Idx → EReal) (p : Fin M) (q : Fin N) :
    ∑ c : D.contr.Idx, l (D.lhsIdx (ix2 p q) c) * r (D.rhsIdx (ix2 p q) c) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A bias vector given a leading unit axis and broadcast along rows reads, at (p, q), the bias at q (when there is
    one column only, that column is 0). -/
theorem biasRow_apply {M N : ℕ} (b : (⟨1, ![N]⟩ : Shape).Idx → EReal)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 ⟨0, Nat.one_pos⟩ q) (fun a => ?_)).trans ?_
  · match a with
    | ⟨0, _⟩ => show 0 = if (1 : ℕ) = 1 then 0 else _; rw [if_pos rfl]
    | ⟨1, _⟩ =>
      show q.val = if N = 1 then 0 else q.val
      by_cases hN : N = 1
      · rw [if_pos hN]; have := q.isLt; omega
      · rw [if_neg hN]
  · refine (shapeCast_addUnit_apply ![N] b hc (ix2 ⟨0, Nat.one_pos⟩ q)).trans ?_
    exact congrArg b (funext fun a => by match a with | ⟨0, _⟩ => rfl)

/-- Row r = (r / B)·B + r % B. -/
theorem row_split (B r : ℕ) : r / B * B + 1 * (r % B) = r := by
  rw [one_mul]; exact Nat.div_add_mod' r B

end Cert.KernelIdeal.Hand

end
-- ==== Proof.KIVal0.lean ====
/-
  Region 0: relu(h·W + b) on 2000-row blocks of h, with W and b whole.
  The region's output array after its 50 grid points is the dense layer `dense16` of the region's three input arrays,
  index by index, on the extended reals. Three steps: the body's payload read at (p, q) of a block; the layer function
  read at (r, q) of the array; and the tiling — row r of the array lies in block r / 2000 at row r % 2000, the weights
  and the bias are the same whole block at every point — which carries the first to the second.
-/
import proofs.«147401_j14388140441686_1_alg».proof.Proof.KIBody0
import proofs.«147401_j14388140441686_1_alg».proof.Proof.Layers
import proofs.«147401_j14388140441686_1_alg».proof.Proof.KIValDenseLib
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The body's payload at (p, q) -/

/-- The body's dot: rows × inner against inner × columns, one contracted axis. -/
abbrev kdot0 := dot_S2000x16_S16x128_S2000x128_1_0_0_1_n_n

theorem kdot0_lhs0 (i : S2000x128.Idx) (c : kdot0.contr.Idx) : (kdot0.lhsIdx i c 0).val = (i 0).val := by
  unfold DotDims.lhsIdx
  rw [dif_neg (show ¬(0 : Fin S2000x16.rank) ∈ kdot0.lhsBatch by decide), dif_pos (show (0 : Fin S2000x16.rank) ∈ kdot0.lhsNonContracting by decide)]
  rfl
theorem kdot0_lhs1 (i : S2000x128.Idx) (c : kdot0.contr.Idx) : (kdot0.lhsIdx i c 1).val = (c ⟨0, by decide⟩).val :=
  kdot0.lhsIdx_val_of_single rfl i c
theorem kdot0_rhs0 (i : S2000x128.Idx) (c : kdot0.contr.Idx) : (kdot0.rhsIdx i c 0).val = (c ⟨0, by decide⟩).val :=
  kdot0.rhsIdx_val_of_single rfl i c
theorem kdot0_rhs1 (i : S2000x128.Idx) (c : kdot0.contr.Idx) : (kdot0.rhsIdx i c 1).val = (i 1).val := by
  unfold DotDims.rhsIdx
  rw [dif_neg (show ¬(1 : Fin S16x128.rank) ∈ kdot0.rhsBatch by decide), dif_pos (show (1 : Fin S16x128.rank) ∈ kdot0.rhsNonContracting by decide)]
  rfl

/-- The payload at (p, q) of the output block: the casts to bf16 are the identity on the extended reals, the product
    into a zero accumulator is the plain sum over the inner coordinate, the bias row is the bias at q. -/
theorem k0_pay1_apply (x0 : Vec Ideal S2000x16 .f32) (x1 : Vec Ideal S16x128 .f32) (x2 : Vec Ideal S128 .f32)
    (p : Fin 2000) (q : Fin 128) :
    k0_pay1 (F := Ideal) x0 x1 x2 (ix2 p q) = denseAt (M := 2000) (K := 16) (N := 128) x0 x1 x2 p q := by
  unfold k0_pay1 denseAt
  refine (maximumf_apply _ _ _).trans (congrArg₂ max ?_ rfl)
  refine (addf_apply _ _ _).trans (congrArg₂ (· + ·) ?_ (biasRow_apply (M := 2000) (N := 128) x2 _ _ p q))
  refine (Ideal.matmul_constant_zero_apply kdot0 none _ _ (ix2 p q)).trans ?_
  refine (dot_sum_eq (M := 2000) (K := 16) (N := 128) kdot0 rfl rfl kdot0_lhs0 kdot0_lhs1 kdot0_rhs0 kdot0_rhs1 _ _ p q).trans ?_
  refine Finset.sum_congr rfl fun k _ => ?_
  rfl

/-! ## The layer function at (r, q) -/

/-- The reference's dot for this layer. -/
abbrev rdot0 := Cert.ReferenceIdeal.dot_S100000x16_S16x128_S100000x128_1_0_0_1_n_n

theorem rdot0_lhs0 (i : Cert.ReferenceIdeal.S100000x128.Idx) (c : rdot0.contr.Idx) : (rdot0.lhsIdx i c 0).val = (i 0).val := by
  unfold DotDims.lhsIdx
  rw [dif_neg (show ¬(0 : Fin Cert.ReferenceIdeal.S100000x16.rank) ∈ rdot0.lhsBatch by decide), dif_pos (show (0 : Fin Cert.ReferenceIdeal.S100000x16.rank) ∈ rdot0.lhsNonContracting by decide)]
  rfl
theorem rdot0_lhs1 (i : Cert.ReferenceIdeal.S100000x128.Idx) (c : rdot0.contr.Idx) : (rdot0.lhsIdx i c 1).val = (c ⟨0, by decide⟩).val :=
  rdot0.lhsIdx_val_of_single rfl i c
theorem rdot0_rhs0 (i : Cert.ReferenceIdeal.S100000x128.Idx) (c : rdot0.contr.Idx) : (rdot0.rhsIdx i c 0).val = (c ⟨0, by decide⟩).val :=
  rdot0.rhsIdx_val_of_single rfl i c
theorem rdot0_rhs1 (i : Cert.ReferenceIdeal.S100000x128.Idx) (c : rdot0.contr.Idx) : (rdot0.rhsIdx i c 1).val = (i 1).val := by
  unfold DotDims.rhsIdx
  rw [dif_neg (show ¬(1 : Fin Cert.ReferenceIdeal.S16x128.rank) ∈ rdot0.rhsBatch by decide), dif_pos (show (1 : Fin Cert.ReferenceIdeal.S16x128.rank) ∈ rdot0.rhsNonContracting by decide)]
  rfl

/-- The layer at (r, q): the host's dot with one contracted axis is the same sum, the bias is broadcast to a row and
    then along the rows, and the zero splat reads the zero word everywhere. -/
theorem layer0_apply (h : S100000x16.Idx → EReal) (W : S16x128.Idx → EReal) (b : S128.Idx → EReal) (r : Fin 100000) (q : Fin 128) :
    Cert.Layers.dense16 (F := Ideal) h W b (ix2 r q) = denseAt (M := 100000) (K := 16) (N := 128) h W b r q := by
  unfold Cert.Layers.dense16 denseAt
  refine (maximumf_apply _ _ _).trans (congrArg₂ max ?_ ?_)
  · refine (addf_apply _ _ _).trans (congrArg₂ (· + ·) ?_ ?_)
    · refine (Ideal.dotGeneral_apply rdot0 none _ h W (ix2 r q)).trans ?_
      exact dot_sum_eq (M := 100000) (K := 16) (N := 128) rdot0 rfl rfl rdot0_lhs0 rdot0_lhs1 rdot0_rhs0 rdot0_rhs1 h W r q
    · refine (broadcastInDim_apply _ _ _ (ix2 r q) (ix2 ⟨0, Nat.one_pos⟩ q) (fun a => ?_)).trans ?_
      · match a with
        | ⟨0, _⟩ => show 0 = if (1 : Nat) = 1 then 0 else r.val; rw [if_pos rfl]
        | ⟨1, _⟩ => show q.val = if (128 : Nat) = 1 then 0 else q.val; rw [if_neg (by decide)]
      · refine broadcastInDim_apply _ _ b (ix2 ⟨0, Nat.one_pos⟩ q) (ix1 q) (fun a => ?_)
        match a with
        | ⟨0, _⟩ => show q.val = if (128 : Nat) = 1 then 0 else q.val; rw [if_neg (by decide)]
  · exact broadcastInDim_apply _ _ _ (ix2 r q) ix0 (fun a => a.elim0)

/-! ## From blocks to the array -/

theorem hz2_0 : (![0, 0] : Fin 2 → Nat) = fun _ => 0 := funext fun a => by fin_cases a <;> rfl
theorem hz1_0 : (![0] : Fin 1 → Nat) = fun _ => 0 := funext fun a => by fin_cases a <;> rfl

/-- One grid point, over variables: if the activations' block holds rows T·2000 … T·2000+1999 of the array `A`, and
    the weights' and the bias's blocks hold `W` and `B` whole, then the payload at (p, q) of the block is the layer at
    the array's index (T·2000 + p, q). -/
theorem point0 (A : S100000x16.Idx → EReal) (W : S16x128.Idx → EReal) (B : S128.Idx → EReal)
    (x0 : Vec Ideal S2000x16 .f32) (x1 : Vec Ideal S16x128 .f32) (x2 : Vec Ideal S128 .f32) (T : ℕ)
    (h0 : ∀ (p : Fin 2000) (k : Fin 16) (r : Fin 100000), r.val = T * 2000 + 1 * p.val → x0 (ix2 p k) = A (ix2 r k))
    (h1 : ∀ (k : Fin 16) (q : Fin 128), x1 (ix2 k q) = W (ix2 k q))
    (h2 : ∀ q : Fin 128, x2 (ix1 q) = B (ix1 q))
    (p : Fin 2000) (q : Fin 128) (i : S100000x128.Idx) (hi0 : (i 0).val = T * 2000 + 1 * p.val) (hi1 : (i 1).val = q.val) :
    k0_pay1 (F := Ideal) x0 x1 x2 (ix2 p q) = Cert.Layers.dense16 (F := Ideal) A W B i := by
  obtain ⟨r, q', rfl⟩ : ∃ (r : Fin 100000) (q' : Fin 128), i = ix2 r q' := ⟨i 0, i 1, eq_ix2 i⟩
  have hq : q' = q := Fin.ext hi1
  subst hq
  rw [k0_pay1_apply, layer0_apply]
  unfold denseAt
  refine congrArg₂ max (congrArg₂ (· + ·) (Finset.sum_congr rfl fun k _ => ?_) (h2 q')) rfl
  rw [h0 p k r hi0, h1]

/-- The windows' index maps, decided once over the grid: the activations' block index along rows is the output's, the
    other block indices are zero, and the output's row-block index is below 50. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) ≤ 49 :=
  (by decide +kernel : ∀ t : Fin grid0.N, _)

/-- Every row block is some point's. -/
theorem idx_onto0 : ∀ q0 : Fin 50, ∃ t : Fin cfg0.N, win0_3.index t (0 : Fin 2) = q0.val :=
  (by decide +kernel : ∀ q0 : Fin 50, ∃ t : Fin grid0.N, win0_3.index t (0 : Fin 2) = q0.val)

variable (V : (c : Dev nD) → (b : Ref sig .tc) → Buf (Elt Ideal) ((c : Thread nD τ).loc b))

/-- The activations' block at point `t`, at (p, k): the array at row (block index)·2000 + p, column k. -/
theorem iblk0_0_apply (c : Dev nD) (t : Fin cfg0.N) (p : Fin 2000) (k : Fin 16) (r : Fin 100000)
    (hr : r.val = win0_0.index t (0 : Fin 2) * 2000 + 1 * p.val) (h1 : win0_0.index t (1 : Fin 2) = 0) :
    iblk0 (F := Ideal) V c 0 t (ix2 p k) = V c main_arg0 (ix2 r k) := by
  unfold iblk0
  rw [View.read_apply]
  show V c main_arg0 _ = V c main_arg0 _
  congr 1
  funext a
  apply Fin.ext
  match a with
  | ⟨0, _⟩ => show win0_0.index t (0 : Fin 2) * 2000 + 1 * p.val = r.val; omega
  | ⟨1, _⟩ => show win0_0.index t (1 : Fin 2) * 16 + 1 * k.val = k.val; rw [h1]; omega

/-- The weights' block at any point is the weights' array. -/
theorem iblk0_1_apply (c : Dev nD) (t : Fin cfg0.N) (k : Fin 16) (q : Fin 128)
    (h0 : win0_1.index t (0 : Fin 2) = 0) (h1 : win0_1.index t (1 : Fin 2) = 0) :
    iblk0 (F := Ideal) V c 1 t (ix2 k q) = V c main_arg2 (ix2 k q) := by
  unfold iblk0
  rw [View.read_apply]
  show V c main_arg2 _ = V c main_arg2 _
  congr 1
  funext a
  apply Fin.ext
  match a with
  | ⟨0, _⟩ => show win0_1.index t (0 : Fin 2) * 16 + 1 * k.val = k.val; rw [h0]; omega
  | ⟨1, _⟩ => show win0_1.index t (1 : Fin 2) * 128 + 1 * q.val = q.val; rw [h1]; omega

/-- The bias's block at any point is the bias array. -/
theorem iblk0_2_apply (c : Dev nD) (t : Fin cfg0.N) (q : Fin 128)
    (h0 : win0_2.index t (0 : Fin 1) = 0) :
    iblk0 (F := Ideal) V c 2 t (ix1 q) = V c main_arg3 (ix1 q) := by
  unfold iblk0
  rw [View.read_apply]
  show V c main_arg3 _ = V c main_arg3 _
  congr 1
  funext a
  apply Fin.ext
  match a with
  | ⟨0, _⟩ => show win0_2.index t (0 : Fin 1) * 128 + 1 * q.val = q.val; rw [h0]; omega

/-- What point `t` writes back is block `t` of the layer function of the region's input arrays. -/
theorem flushed0_eq (c : Dev nD) (t : Fin cfg0.N) :
    (dat0 (F := Ideal) V c).flushed 3 t
      = ((cfg0.win 3).blk t).view.read (Elt Ideal) (Cert.Layers.dense16 (F := Ideal) (V c main_arg0) (V c main_arg2) (V c main_arg3)) := by
  show (cfg0.win 3).cut (grid0.coords t) ((dat0 (F := Ideal) V c).after 3 t) = _
  rw [after0_3]
  unfold out0_3
  rw [View.canon_unit_zero hz2_0]
  simp only [View.ld_unit_zero (S := S2000x16) hz2_0, View.ld_unit_zero (S := S16x128) hz2_0, View.ld_unit_zero (S := S128) hz1_0]
  obtain ⟨e0, e1, e2, e3, e4, e5, e6⟩ := idx_facts0 t
  funext j
  obtain ⟨p, q, rfl⟩ : ∃ (p : Fin 2000) (q : Fin 128), j = ix2 p q := ⟨j 0, j 1, eq_ix2 j⟩
  refine point0 (V c main_arg0) (V c main_arg2) (V c main_arg3) (iblk0 V c 0 t) (iblk0 V c 1 t) (iblk0 V c 2 t) (win0_3.index t (0 : Fin 2))
    (fun p k r hr => iblk0_0_apply V c t p k r (by rw [e0]; exact hr) e1)
    (fun k q => iblk0_1_apply V c t k q e2 e3)
    (fun q => iblk0_2_apply V c t q e4) p q _ ?_ ?_
  · show win0_3.index t (0 : Fin 2) * 2000 + 1 * p.val = _; rfl
  · show win0_3.index t (1 : Fin 2) * 128 + 1 * q.val = q.val; rw [e5]; omega

/-- An index of the array is in point `t`'s block iff each coordinate is in the block's range on its axis. -/
theorem mem_blk0 (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v28).slice (win0_3.rect t)).set ↔ _
  rw [View.set_slice_whole, Rect.mem_set_unit]
  exact Iff.rfl

/-- Every index of the output array is in some point's block: row r is in block r / 2000. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto0 ⟨(i 0).val / 2000, by omega⟩
  have ht' : win0_3.index t (0 : Fin 2) = (i 0).val / 2000 := ht
  obtain ⟨e0, e1, e2, e3, e4, e5, e6⟩ := idx_facts0 t
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The region's output array is the layer function of its three input arrays. -/
theorem arr0_eq (c : Dev nD) :
    (dat0 (F := Ideal) V c).arrAt 3 cfg0.N = Cert.Layers.dense16 (F := Ideal) (V c main_arg0) (V c main_arg2) (V c main_arg3) :=
  (dat0 (F := Ideal) V c).arrAt_eq_of_cover 3 _ (fun t _ => flushed0_eq V c t) cover0

end Cert.KernelIdeal.Hand

end
-- ==== Proof.KIValCombLib.lean ====
/-
  Shared by the two graph-layer regions: the layer relu(h₀·W[0] + h₁·W[1] + h₂·W[2] + h₃·W[3] + b) read at one index,
  once as the reference's whole-array function and once as the kernel body's value on a 2000-row block.
  At the ideal floats a matrix product into a zero accumulator is the plain sum Σ_k l(p,k)·r(k,q) and the casts to
  bf16 are the identity, so the two sides are the same four sums; the block side starts its accumulation with "0 +".
  Row p of the block at grid point t is row t·2000 + p of the arrays.
-/
import proofs.«147401_j14388140441686_1_alg».proof.Proof.Gen.KernelIdeal.Skeleton
import proofs.«147401_j14388140441686_1_alg».proof.Proof.Layers
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.Layers

open Cert.ReferenceIdeal Cert.ReferenceIdeal.Gen Idealize.ShloMosaic Idealize.ShloMosaic.ValueIdx

/-- Row coordinate of the left operand's index in the whole-array product: the output's row. -/
theorem comb_dg_lhs_0 (i : S100000x128.Idx) (c : dot_S100000x128_S128x128_S100000x128_1_0_0_1_n_n.contr.Idx) :
    (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem comb_dg_lhs_1 (i : S100000x128.Idx) (c : dot_S100000x128_S128x128_S100000x128_1_0_0_1_n_n.contr.Idx) :
    (dot_S100000x128_S128x128_S100000x128_1_0_0_1_n_n.lhsIdx i c 1).val = (c ⟨0, by decide⟩).val :=
  dot_S100000x128_S128x128_S100000x128_1_0_0_1_n_n.lhsIdx_val_of_single rfl i c
theorem comb_dg_rhs_0 (i : S100000x128.Idx) (c : dot_S100000x128_S128x128_S100000x128_1_0_0_1_n_n.contr.Idx) :
    (dot_S100000x128_S128x128_S100000x128_1_0_0_1_n_n.rhsIdx i c 0).val = (c ⟨0, by decide⟩).val :=
  dot_S100000x128_S128x128_S100000x128_1_0_0_1_n_n.rhsIdx_val_of_single rfl i c
theorem comb_dg_rhs_1 (i : S100000x128.Idx) (c : dot_S100000x128_S128x128_S100000x128_1_0_0_1_n_n.contr.Idx) :
    (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The whole-array product of a hop array with a 128×128 weight matrix, read at row `r`, column `q`: the plain sum
    over the 128 features. -/
theorem comb_dg_apply (h : (⟨S100000x128, .f32⟩ : BufTy).Contents (Elt Ideal)) (M : (⟨S128x128, .f32⟩ : BufTy).Contents (Elt Ideal))
    (r : Fin 100000) (q : Fin 128) :
    Host.dotGeneral (F := Ideal) (φ₁ := .f32) (φ₂ := .f32) dot_S100000x128_S128x128_S100000x128_1_0_0_1_n_n none h M (ix2 r q)
      = ∑ k : Fin 128, h (ix2 r k) * M (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 r q) ((ValueIdx.contrEquiv1 dot_S100000x128_S128x128_S100000x128_1_0_0_1_n_n 128 rfl rfl).symm k) = ix2 r k := funext fun a => Fin.ext (by
    match a with
    | ⟨0, _⟩ => exact comb_dg_lhs_0 _ _
    | ⟨1, _⟩ => exact (comb_dg_lhs_1 _ _).trans hk)
  have er : dot_S100000x128_S128x128_S100000x128_1_0_0_1_n_n.rhsIdx (ix2 r q) ((ValueIdx.contrEquiv1 dot_S100000x128_S128x128_S100000x128_1_0_0_1_n_n 128 rfl rfl).symm k) = ix2 k q := funext fun a => Fin.ext (by
    match a with
    | ⟨0, _⟩ => exact (comb_dg_rhs_0 _ _).trans hk
    | ⟨1, _⟩ => exact comb_dg_rhs_1 _ _)
  rw [el, er]

/-- A unit slice of the weight stack along its first axis, with that axis dropped, read at `(k, q)`: the stack at
    `(n, k, q)`. -/
theorem comb_wslice_apply (n : Fin 4) (W : (⟨S4x128x128, .f32⟩ : BufTy).Contents (Elt Ideal))
    (hs : S4x128x128.Slices ![n.val, 0, 0] S1x128x128) (k q : Fin 128) :
    (shapeCast S128x128 (extractStridedSlice S1x128x128 ![n.val, 0, 0] W hs) shapeCasts_S1x128x128_S128x128 : (⟨S128x128, .f32⟩ : BufTy).Contents (Elt Ideal)) (ix2 k q)
      = W (ix3 n k q) := by
  refine (shapeCast_1ab_ab_apply _ shapeCasts_S1x128x128_S128x128 k q).trans ?_
  refine extractStridedSlice_apply ![n.val, 0, 0] W hs (ix3 (0 : Fin 1) k q) (ix3 n k q) (fun a => ?_)
  match a with
  | ⟨0, _⟩ => show n.val = n.val + 0; omega
  | ⟨1, _⟩ => show k.val = 0 + k.val; omega
  | ⟨2, _⟩ => show q.val = 0 + q.val; omega

/-- The bias row broadcast over all rows, read at `(r, q)`: the bias at `q`. -/
theorem comb_brow_apply (b : (⟨S128, .f32⟩ : BufTy).Contents (Elt Ideal)) (r : Fin 100000) (q : Fin 128) :
    (broadcastInDim S100000x128 ![0, 1] bcast_S1x128_S100000x128_0_1 (broadcastInDim S1x128 ![1] bcast_S128_S1x128_1 b) : (⟨S100000x128, .f32⟩ : BufTy).Contents (Elt Ideal)) (ix2 r q) = b (ix1 q) := by
  refine (broadcastInDim_apply _ bcast_S1x128_S100000x128_0_1 _ (ix2 r q) (ix2 (0 : Fin 1) q) (fun a => ?_)).trans ?_
  · match a with
    | ⟨0, _⟩ => show (0 : Nat) = if (1 : Nat) = 1 then 0 else r.val; rw [if_pos rfl]
    | ⟨1, _⟩ => show q.val = if (128 : Nat) = 1 then 0 else q.val; rw [if_neg (by decide)]
  · refine broadcastInDim_apply _ bcast_S128_S1x128_1 b (ix2 (0 : Fin 1) q) (ix1 q) (fun a => ?_)
    match a with
    | ⟨0, _⟩ => show q.val = if (128 : Nat) = 1 then 0 else q.val; rw [if_neg (by decide)]

/-- The zero splat, read anywhere: zero. -/
theorem comb_zsplat_apply (i : S100000x128.Idx) :
    (broadcastInDim S100000x128 ![] bcast_S_S100000x128 (constant (F := Ideal) S_ .f32 0x00000000#32) : (⟨S100000x128, .f32⟩ : BufTy).Contents (Elt Ideal)) i = (0 : EReal) := by
  refine (broadcastInDim_apply _ bcast_S_S100000x128 _ i ix0 (fun a => a.elim0)).trans ?_
  exact Ideal.ofBits_zero_f32

/-- The graph layer read at row `r`, column `q`: the four hop rows against the four slices of the weight stack, added
    left to right, plus the bias, clamped below at zero. -/
theorem combine_apply (h0 h1 h2 h3 : (⟨S100000x128, .f32⟩ : BufTy).Contents (Elt Ideal)) (W : (⟨S4x128x128, .f32⟩ : BufTy).Contents (Elt Ideal))
    (b : (⟨S128, .f32⟩ : BufTy).Contents (Elt Ideal)) (r : Fin 100000) (q : Fin 128) :
    combine (F := Ideal) h0 h1 h2 h3 W b (ix2 r q)
      = max (((((∑ k : Fin 128, h0 (ix2 r k) * W (ix3 (0 : Fin 4) k q))
              + ∑ k : Fin 128, h1 (ix2 r k) * W (ix3 (1 : Fin 4) k q))
              + ∑ k : Fin 128, h2 (ix2 r k) * W (ix3 (2 : Fin 4) k q))
              + ∑ k : Fin 128, h3 (ix2 r k) * W (ix3 (3 : Fin 4) k q)) + b (ix1 q)) (0 : EReal) := by
  unfold combine
  refine congrArg₂ max (congrArg₂ (· + ·) (congrArg₂ (· + ·) (congrArg₂ (· + ·) (congrArg₂ (· + ·) ?_ ?_) ?_) ?_) ?_) ?_
  · refine (comb_dg_apply h0 (wslice0 W) r q).trans (Finset.sum_congr rfl fun k _ => congrArg (h0 (ix2 r k) * ·) ?_)
    exact comb_wslice_apply 0 W slices_S4x128x128_S1x128x128_0_0_0 k q
  · refine (comb_dg_apply h1 (wslice1 W) r q).trans (Finset.sum_congr rfl fun k _ => congrArg (h1 (ix2 r k) * ·) ?_)
    exact comb_wslice_apply 1 W slices_S4x128x128_S1x128x128_1_0_0 k q
  · refine (comb_dg_apply h2 (wslice2 W) r q).trans (Finset.sum_congr rfl fun k _ => congrArg (h2 (ix2 r k) * ·) ?_)
    exact comb_wslice_apply 2 W slices_S4x128x128_S1x128x128_2_0_0 k q
  · refine (comb_dg_apply h3 (wslice3 W) r q).trans (Finset.sum_congr rfl fun k _ => congrArg (h3 (ix2 r k) * ·) ?_)
    exact comb_wslice_apply 3 W slices_S4x128x128_S1x128x128_3_0_0 k q
  · exact comb_brow_apply b r q
  · exact comb_zsplat_apply (ix2 r q)

end Cert.Layers

namespace Cert.KernelIdeal.Hand

open Cert.KernelIdeal Cert.KernelIdeal.Gen
open Idealize.ShloMosaic Idealize.ShloMosaic.ValueIdx

/-- Row coordinate of the left operand's index in the block product: the output's row. -/
theorem comb_mm_lhs_0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- Column coordinate of the left operand's index: the contracted feature. -/
theorem comb_mm_lhs_1 (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c
/-- Row coordinate of the right operand's index: the contracted feature. -/
theorem comb_mm_rhs_0 (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c
/-- Column coordinate of the right operand's index: the output's column. -/
theorem comb_mm_rhs_1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The kernel's matrix product of a 2000-row block with a 128×128 weight matrix into a zero accumulator, read at
    row `p`, column `q`: the plain sum over the 128 features. -/
theorem comb_mm2_apply (x : FVec Ideal S2000x128 .bf16) (y : FVec Ideal S128x128 .bf16) (p : Fin 2000) (q : Fin 128) :
    (matmul (F := Ideal) dot_S2000x128_S128x128_S2000x128_1_0_0_1_n_n none x y
        (constant (F := Ideal) S2000x128 .f32 0x00000000#32) : FVec Ideal S2000x128 .f32) (ix2 p q)
      = ∑ k : Fin 128, x (ix2 p k) * y (ix2 k q) := by
  refine (Ideal.matmul_constant_zero_apply dot_S2000x128_S128x128_S2000x128_1_0_0_1_n_n none _ _ (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact comb_mm_lhs_0 _ _
    | ⟨1, _⟩ => exact (comb_mm_lhs_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (comb_mm_rhs_0 _ _).trans hk
    | ⟨1, _⟩ => exact comb_mm_rhs_1 _ _)
  rw [el, er]

/-- The same product with both operands behind their leading unit axis and the (identity) narrowing to bf16, as the
    kernel body forms it from one hop's block and one slice of the weight stack. -/
theorem comb_mm_apply (a : Vec Ideal S1x2000x128 .f32) (w : Vec Ideal S1x128x128 .f32) (p : Fin 2000) (q : Fin 128) :
    (matmul (F := Ideal) dot_S2000x128_S128x128_S2000x128_1_0_0_1_n_n none
        (truncf (F := Ideal) .bf16 (shapeCast S2000x128 a shapeCasts_S1x2000x128_S2000x128) bitsLt_bf16_f32)
        (truncf (F := Ideal) .bf16 (shapeCast S128x128 w shapeCasts_S1x128x128_S128x128) bitsLt_bf16_f32)
        (constant (F := Ideal) S2000x128 .f32 0x00000000#32) : FVec Ideal S2000x128 .f32) (ix2 p q)
      = ∑ k : Fin 128, a (ix3 (0 : Fin 1) p k) * w (ix3 (0 : Fin 1) k q) := by
  refine (comb_mm2_apply _ _ p q).trans ?_
  refine Finset.sum_congr rfl fun k _ => ?_
  refine congrArg₂ (· * ·) ?_ ?_
  · exact shapeCast_1ab_ab_apply a shapeCasts_S1x2000x128_S2000x128 p k
  · exact shapeCast_1ab_ab_apply w shapeCasts_S1x128x128_S128x128 k q

/-- The bias, given a leading unit axis and broadcast over the block's rows, read at `(p, q)`: the bias at `q`. -/
theorem comb_bias_apply (b : Vec Ideal S128 .f32) (p : Fin 2000) (q : Fin 128) :
    (broadcastTo S2000x128 (shapeCast S1x128 b shapeCasts_S128_S1x128) broadcasts_S1x128_S2000x128 : FVec Ideal S2000x128 .f32) (ix2 p q) = b (ix1 q) :=
  (broadcastTo_1b_ab_apply _ broadcasts_S1x128_S2000x128 p q).trans (shapeCast_a_1a_apply b shapeCasts_S128_S1x128 0 q)

/-- The zero offsets of a rank-2 rectangle, as the constant function. -/
theorem comb_hz2 : (![0, 0] : Fin 2 → Nat) = fun _ => 0 := funext fun a => by fin_cases a <;> rfl
/-- The zero offset of a rank-1 rectangle, as the constant function. -/
theorem comb_hz1 : (![0] : Fin 1 → Nat) = fun _ => 0 := funext fun a => by fin_cases a <;> rfl

/-- Row `p` of the 2000-row block at grid point `t`, as a row of the whole array. -/
def comb_rowAt (t : Nat) (ht : t < 50) (p : Fin 2000) : Fin 100000 := ⟨t * 2000 + p.val, by have := p.isLt; omega⟩

/-- A load of hop `o`'s unit slice of the stacked block, read at `(0, p, k)`: the stacked block at `(o, p, k)`. -/
theorem comb_ld_hop_apply (x0 : Vec Ideal S4x2000x128 .f32) (o : Nat) (ho : o < 4)
    (inb : ∀ a, (![o, 0, 0] : Fin 3 → Nat) a + S1x2000x128.size a ≤ S4x2000x128.size a) (p : Fin 2000) (k : Fin 128) :
    View.ld (Val := Elt Ideal) (e' := .f32) x0 (Rect.unit (s := S4x2000x128) ![o, 0, 0] S1x2000x128.size inb) (ix3 (0 : Fin 1) p k)
      = x0 (ix3 (⟨o, ho⟩ : Fin 4) p k) := by
  show x0 _ = x0 _
  refine congrArg x0 (funext fun a => Fin.ext ?_)
  match a with
  | ⟨0, _⟩ => show o + 1 * 0 = o; omega
  | ⟨1, _⟩ => show 0 + 1 * p.val = p.val; omega
  | ⟨2, _⟩ => show 0 + 1 * k.val = k.val; omega

/-- A load of slice `o` of the weight stack, read at `(0, k, q)`: the stack at `(o, k, q)`. -/
theorem comb_ld_wsl_apply (x1 : Vec Ideal S4x128x128 .f32) (o : Nat) (ho : o < 4)
    (inb : ∀ a, (![o, 0, 0] : Fin 3 → Nat) a + S1x128x128.size a ≤ S4x128x128.size a) (k q : Fin 128) :
    View.ld (Val := Elt Ideal) (e' := .f32) x1 (Rect.unit (s := S4x128x128) ![o, 0, 0] S1x128x128.size inb) (ix3 (0 : Fin 1) k q)
      = x1 (ix3 (⟨o, ho⟩ : Fin 4) k q) := by
  show x1 _ = x1 _
  refine congrArg x1 (funext fun a => Fin.ext ?_)
  match a with
  | ⟨0, _⟩ => show o + 1 * 0 = o; omega
  | ⟨1, _⟩ => show 0 + 1 * k.val = k.val; omega
  | ⟨2, _⟩ => show 0 + 1 * q.val = q.val; omega

/-- One hop's feature sum on the block is that hop's feature sum on the arrays, when the stacked block's row `p` is
    the hop arrays' row `r` and the weight block is the weight stack. -/
theorem comb_hop_sum_eq (x0 : Vec Ideal S4x2000x128 .f32) (x1 : Vec Ideal S4x128x128 .f32)
    (h : (⟨S100000x128, .f32⟩ : BufTy).Contents (Elt Ideal)) (W : (⟨S4x128x128, .f32⟩ : BufTy).Contents (Elt Ideal))
    (o : Nat) (ho : o < 4) (inb0) (inb1) (r : Fin 100000) (p : Fin 2000) (q : Fin 128)
    (hx0 : ∀ k : Fin 128, x0 (ix3 (⟨o, ho⟩ : Fin 4) p k) = h (ix2 r k))
    (hx1 : ∀ k : Fin 128, x1 (ix3 (⟨o, ho⟩ : Fin 4) k q) = W (ix3 (⟨o, ho⟩ : Fin 4) k q)) :
    (∑ k : Fin 128, View.ld (Val := Elt Ideal) (e' := .f32) x0 (Rect.unit (s := S4x2000x128) ![o, 0, 0] S1x2000x128.size inb0) (ix3 (0 : Fin 1) p k)
        * View.ld (Val := Elt Ideal) (e' := .f32) x1 (Rect.unit (s := S4x128x128) ![o, 0, 0] S1x128x128.size inb1) (ix3 (0 : Fin 1) k q) : EReal)
      = ∑ k : Fin 128, h (ix2 r k) * W (ix3 (⟨o, ho⟩ : Fin 4) k q) :=
  Finset.sum_congr rfl fun k _ => congrArg₂ (· * ·)
    ((comb_ld_hop_apply x0 o ho inb0 p k).trans (hx0 k)) ((comb_ld_wsl_apply x1 o ho inb1 k q).trans (hx1 k))

end Cert.KernelIdeal.Hand

end
-- ==== Proof.KIVal1.lean ====
/-
  Region 1 (a graph layer) as a whole-array function: after the region its output array is
  relu(h₀·W[0] + h₁·W[1] + h₂·W[2] + h₃·W[3] + b) of the four hop arrays stacked in its first window, of the weight
  stack and of the bias, index by index. The body's value on the block at grid point t is read at (p, q): four feature
  sums accumulated from zero, plus the bias, clamped at zero; row p of that block is row t·2000 + p of every array, so
  the block point t writes back is block t of the layer function; the 50 blocks tile the 100000 rows.
-/
import proofs.«147401_j14388140441686_1_alg».proof.Proof.KIBody1
import proofs.«147401_j14388140441686_1_alg».proof.Proof.KIValCombLib

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-- The body's payload on variables standing for the four hop blocks, the four weight slices and the bias, read at
    row `p`, column `q` of the block: the four feature sums accumulated from zero left to right, plus the bias,
    clamped below at zero. -/
theorem pay1_apply (a0 a1 a2 a3 : Vec Ideal S1x2000x128 .f32) (w0 w1 w2 w3 : Vec Ideal S1x128x128 .f32) (b : Vec Ideal S128 .f32)
    (p : Fin 2000) (q : Fin 128) :
    k1_pay1 (F := Ideal) (k1_pay2 (F := Ideal) a0 w0 a1 w1 a2 w2) (k1_pay3 (F := Ideal) a3) (k1_pay4 (F := Ideal) w3) b (ix2 p q)
      = max (((((0 : EReal) + ∑ k : Fin 128, a0 (ix3 (0 : Fin 1) p k) * w0 (ix3 (0 : Fin 1) k q))
              + ∑ k : Fin 128, a1 (ix3 (0 : Fin 1) p k) * w1 (ix3 (0 : Fin 1) k q))
              + ∑ k : Fin 128, a2 (ix3 (0 : Fin 1) p k) * w2 (ix3 (0 : Fin 1) k q))
              + ∑ k : Fin 128, a3 (ix3 (0 : Fin 1) p k) * w3 (ix3 (0 : Fin 1) k q) + b (ix1 q)) 0 := by
  unfold k1_pay1 k1_pay2 k1_pay3 k1_pay4
  dsimp only
  refine congrArg₂ max (congrArg₂ (· + ·) (congrArg₂ (· + ·) (congrArg₂ (· + ·) (congrArg₂ (· + ·) (congrArg₂ (· + ·) ?_ ?_) ?_) ?_) ?_) ?_) ?_
  · exact Ideal.ofBits_zero_f32
  · exact comb_mm_apply a0 w0 p q
  · exact comb_mm_apply a1 w1 p q
  · exact comb_mm_apply a2 w2 p q
  · exact comb_mm_apply a3 w3 p q
  · exact comb_bias_apply b p q
  · exact Ideal.ofBits_zero_f32

/-- The printed index maps over the grid: the stacked window moves along rows with the point, the weight and bias
    windows stay, the output window moves along rows with the point. -/
theorem idx_facts1 : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 1) = 0
    ∧ win1_3.index t (0 : Fin 2) = t.val ∧ win1_3.index t (1 : Fin 2) = 0 :=
  (by decide +kernel : ∀ t : Fin grid1.N, _)

/-- A grid point's number is below 50. -/
theorem t_lt1 (t : Fin cfg1.N) : t.val < 50 := lt_of_lt_of_eq t.isLt N_1

variable (V : (c : Dev nD) → (b : Ref sig .tc) → Buf (Elt Ideal) ((c : Thread nD τ).loc b))

/-- The stacked window's block at point `t` is rows `2000 t … 2000 t + 1999` of each hop of the stack. -/
theorem iblk1_0_apply (c : Dev nD) (t : Fin cfg1.N) (n : Fin 4) (p : Fin 2000) (k : Fin 128) :
    (iblk1 V c 0 t : Vec Ideal S4x2000x128 .f32) (ix3 n p k)
      = (V c main_v69 : S4x100000x128.Idx → Elt Ideal .f32) (ix3 n (comb_rowAt t.val (t_lt1 t) p) k) := by
  obtain ⟨e0, e1, e2, -⟩ := idx_facts1 t
  unfold iblk1
  rw [View.read_apply]
  show V c main_v69 _ = V c main_v69 _
  congr 1
  funext a
  apply Fin.ext
  match a with
  | ⟨0, _⟩ => show win1_0.index t (0 : Fin 3) * 4 + 1 * n.val = n.val; rw [e0]; omega
  | ⟨1, _⟩ => show win1_0.index t (1 : Fin 3) * 2000 + 1 * p.val = t.val * 2000 + p.val; rw [e1]; omega
  | ⟨2, _⟩ => show win1_0.index t (2 : Fin 3) * 128 + 1 * k.val = k.val; rw [e2]; omega

/-- The weight window's block at every point is the whole weight stack. -/
theorem iblk1_1_apply (c : Dev nD) (t : Fin cfg1.N) (n : Fin 4) (k q : Fin 128) :
    (iblk1 V c 1 t : Vec Ideal S4x128x128 .f32) (ix3 n k q)
      = (V c main_arg4 : S4x128x128.Idx → Elt Ideal .f32) (ix3 n k q) := by
  obtain ⟨-, -, -, e0, e1, e2, -⟩ := idx_facts1 t
  unfold iblk1
  rw [View.read_apply]
  show V c main_arg4 _ = V c main_arg4 _
  congr 1
  funext a
  apply Fin.ext
  match a with
  | ⟨0, _⟩ => show win1_1.index t (0 : Fin 3) * 4 + 1 * n.val = n.val; rw [e0]; omega
  | ⟨1, _⟩ => show win1_1.index t (1 : Fin 3) * 128 + 1 * k.val = k.val; rw [e1]; omega
  | ⟨2, _⟩ => show win1_1.index t (2 : Fin 3) * 128 + 1 * q.val = q.val; rw [e2]; omega

/-- The bias window's block at every point is the whole bias. -/
theorem iblk1_2_apply (c : Dev nD) (t : Fin cfg1.N) (q : Fin 128) :
    (iblk1 V c 2 t : Vec Ideal S128 .f32) (ix1 q) = (V c main_arg5 : S128.Idx → Elt Ideal .f32) (ix1 q) := by
  obtain ⟨-, -, -, -, -, -, e0, -⟩ := idx_facts1 t
  unfold iblk1
  rw [View.read_apply]
  show V c main_arg5 _ = V c main_arg5 _
  congr 1
  funext a
  apply Fin.ext
  match a with
  | ⟨0, _⟩ => show win1_2.index t (0 : Fin 1) * 128 + 1 * q.val = q.val; rw [e0]; omega

section
variable (c : Dev nD) (h0 h1 h2 h3 : (⟨S100000x128, .f32⟩ : BufTy).Contents (Elt Ideal))
  (hS : ∀ (k : Fin 4) (p : Fin 100000) (j : Fin 128), V c main_v69 (ValueIdx.ix3 k p j) = (![h0, h1, h2, h3] k) (ValueIdx.ix2 p j))
include hS

/-- WHAT POINT `t` WRITES BACK is block `t` of the layer function of the hop arrays, the weight stack and the bias. -/
theorem flushed1_eq (t : Fin cfg1.N) :
    (dat1 (F := Ideal) V c).flushed 3 t
      = ((cfg1.win 3).blk t).view.read (Elt Ideal) (Cert.Layers.combine (F := Ideal) h0 h1 h2 h3 (V c main_arg4) (V c main_arg5)) := by
  show (cfg1.win 3).cut (grid1.coords t) ((dat1 (F := Ideal) V c).after 3 t) = _
  rw [after1_3]
  unfold out1_3
  rw [View.canon_unit_zero comb_hz2]
  obtain ⟨-, -, -, -, -, -, -, e0, e1⟩ := idx_facts1 t
  funext y
  obtain ⟨p, q, rfl⟩ : ∃ (p : Fin 2000) (q : Fin 128), y = ix2 p q := ⟨y 0, y 1, eq_ix2 y⟩
  have hy : (((cfg1.win 3).blk t).view.emb (ix2 p q) : S100000x128.Idx) = ix2 (comb_rowAt t.val (t_lt1 t) p) q := by
    funext a
    apply Fin.ext
    match a with
    | ⟨0, _⟩ => show win1_3.index t (0 : Fin 2) * 2000 + 1 * p.val = t.val * 2000 + p.val; rw [e0]; omega
    | ⟨1, _⟩ => show win1_3.index t (1 : Fin 2) * 128 + 1 * q.val = q.val; rw [e1]; omega
  refine (pay1_apply _ _ _ _ _ _ _ _ _ p q).trans ?_
  refine Eq.trans ?_ (congrArg (Cert.Layers.combine (F := Ideal) h0 h1 h2 h3 (V c main_arg4) (V c main_arg5)) hy.symm)
  refine Eq.trans ?_ (Cert.Layers.combine_apply h0 h1 h2 h3 (V c main_arg4) (V c main_arg5) (comb_rowAt t.val (t_lt1 t) p) q).symm
  rw [zero_add]
  refine congrArg₂ max (congrArg₂ (· + ·) (congrArg₂ (· + ·) (congrArg₂ (· + ·) (congrArg₂ (· + ·) ?_ ?_) ?_) ?_) ?_) rfl
  · exact comb_hop_sum_eq _ _ h0 (V c main_arg4) 0 (by decide) _ _ (comb_rowAt t.val (t_lt1 t) p) p q
      (fun k => (iblk1_0_apply V c t 0 p k).trans (hS 0 _ k)) (fun k => iblk1_1_apply V c t 0 k q)
  · exact comb_hop_sum_eq _ _ h1 (V c main_arg4) 1 (by decide) _ _ (comb_rowAt t.val (t_lt1 t) p) p q
      (fun k => (iblk1_0_apply V c t 1 p k).trans (hS 1 _ k)) (fun k => iblk1_1_apply V c t 1 k q)
  · exact comb_hop_sum_eq _ _ h2 (V c main_arg4) 2 (by decide) _ _ (comb_rowAt t.val (t_lt1 t) p) p q
      (fun k => (iblk1_0_apply V c t 2 p k).trans (hS 2 _ k)) (fun k => iblk1_1_apply V c t 2 k q)
  · exact comb_hop_sum_eq _ _ h3 (V c main_arg4) 3 (by decide) _ _ (comb_rowAt t.val (t_lt1 t) p) p q
      (fun k => (iblk1_0_apply V c t 3 p k).trans (hS 3 _ k)) (fun k => iblk1_1_apply V c t 3 k q)
  · exact (congrFun (View.ld_unit_zero (S := S128) comb_hz1 inb_S128_S128_0 (iblk1 V c 2 t)) (ix1 q)).trans (iblk1_2_apply V c t q)

omit hS in
/-- An index of the output array is in point `t`'s block iff each coordinate is in the block's range on its axis. -/
theorem mem_blk1 (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v70).slice (win1_3.rect t)).set ↔ _
  rw [View.set_slice_whole, Rect.mem_set_unit]
  exact Iff.rfl

omit hS in
/-- Every index of the output array is in the block of the point its row names: row `r` lies in block `r / 2000`. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have ht : (i 0).val / 2000 < cfg1.N := by rw [show cfg1.N = 50 from N_1]; omega
  refine ⟨⟨(i 0).val / 2000, ht⟩, flush1_3 _, ?_⟩
  rw [mem_blk1]
  obtain ⟨-, -, -, -, -, -, -, e0, e1⟩ := idx_facts1 ⟨(i 0).val / 2000, ht⟩
  have e0' : win1_3.index ⟨(i 0).val / 2000, ht⟩ (0 : Fin 2) = (i 0).val / 2000 := e0
  intro a
  match a with
  | ⟨0, _⟩ => show win1_3.index ⟨(i 0).val / 2000, ht⟩ (0 : Fin 2) * 2000 ≤ (i 0).val ∧ (i 0).val < win1_3.index ⟨(i 0).val / 2000, ht⟩ (0 : Fin 2) * 2000 + 2000; rw [e0']; omega
  | ⟨1, _⟩ => show win1_3.index ⟨(i 0).val / 2000, ht⟩ (1 : Fin 2) * 128 ≤ (i 1).val ∧ (i 1).val < win1_3.index ⟨(i 0).val / 2000, ht⟩ (1 : Fin 2) * 128 + 128; rw [e1]; omega

/-- THE OUTPUT ARRAY after region 1 is the graph layer of the four hop arrays its stacked window holds, of the
    weight stack and of the bias. -/
theorem arr1_eq :
    (dat1 (F := Ideal) V c).arrAt 3 cfg1.N = Cert.Layers.combine (F := Ideal) h0 h1 h2 h3 (V c main_arg4) (V c main_arg5) :=
  (dat1 (F := Ideal) V c).arrAt_eq_of_cover 3 _ (fun t _ => flushed1_eq V c h0 h1 h2 h3 hS t) cover1

end

end Cert.KernelIdeal.Hand

end
-- ==== Proof.KIVal2.lean ====
/-
  Region 2 (a graph layer) as a whole-array function: after the region its output array is
  relu(h₀·W[0] + h₁·W[1] + h₂·W[2] + h₃·W[3] + b) of the four hop arrays stacked in its first window, of the weight
  stack and of the bias, index by index. The body's value on the block at grid point t is read at (p, q): four feature
  sums accumulated from zero, plus the bias, clamped at zero; row p of that block is row t·2000 + p of every array, so
  the block point t writes back is block t of the layer function; the 50 blocks tile the 100000 rows.
-/
import proofs.«147401_j14388140441686_1_alg».proof.Proof.KIBody2
import proofs.«147401_j14388140441686_1_alg».proof.Proof.KIValCombLib

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-- The body's payload on variables standing for the four hop blocks, the four weight slices and the bias, read at
    row `p`, column `q` of the block: the four feature sums accumulated from zero left to right, plus the bias,
    clamped below at zero. -/
theorem pay2_apply (a0 a1 a2 a3 : Vec Ideal S1x2000x128 .f32) (w0 w1 w2 w3 : Vec Ideal S1x128x128 .f32) (b : Vec Ideal S128 .f32)
    (p : Fin 2000) (q : Fin 128) :
    k2_pay1 (F := Ideal) (k2_pay2 (F := Ideal) a0 w0 a1 w1 a2 w2) (k2_pay3 (F := Ideal) a3) (k2_pay4 (F := Ideal) w3) b (ix2 p q)
      = max (((((0 : EReal) + ∑ k : Fin 128, a0 (ix3 (0 : Fin 1) p k) * w0 (ix3 (0 : Fin 1) k q))
              + ∑ k : Fin 128, a1 (ix3 (0 : Fin 1) p k) * w1 (ix3 (0 : Fin 1) k q))
              + ∑ k : Fin 128, a2 (ix3 (0 : Fin 1) p k) * w2 (ix3 (0 : Fin 1) k q))
              + ∑ k : Fin 128, a3 (ix3 (0 : Fin 1) p k) * w3 (ix3 (0 : Fin 1) k q) + b (ix1 q)) 0 := by
  unfold k2_pay1 k2_pay2 k2_pay3 k2_pay4
  dsimp only
  refine congrArg₂ max (congrArg₂ (· + ·) (congrArg₂ (· + ·) (congrArg₂ (· + ·) (congrArg₂ (· + ·) (congrArg₂ (· + ·) ?_ ?_) ?_) ?_) ?_) ?_) ?_
  · exact Ideal.ofBits_zero_f32
  · exact comb_mm_apply a0 w0 p q
  · exact comb_mm_apply a1 w1 p q
  · exact comb_mm_apply a2 w2 p q
  · exact comb_mm_apply a3 w3 p q
  · exact comb_bias_apply b p q
  · exact Ideal.ofBits_zero_f32

/-- The printed index maps over the grid: the stacked window moves along rows with the point, the weight and bias
    windows stay, the output window moves along rows with the point. -/
theorem idx_facts2 : ∀ t : Fin cfg2.N,
    win2_0.index t (0 : Fin 3) = 0 ∧ win2_0.index t (1 : Fin 3) = t.val ∧ win2_0.index t (2 : Fin 3) = 0
    ∧ win2_1.index t (0 : Fin 3) = 0 ∧ win2_1.index t (1 : Fin 3) = 0 ∧ win2_1.index t (2 : Fin 3) = 0
    ∧ win2_2.index t (0 : Fin 1) = 0
    ∧ win2_3.index t (0 : Fin 2) = t.val ∧ win2_3.index t (1 : Fin 2) = 0 :=
  (by decide +kernel : ∀ t : Fin grid2.N, _)

/-- A grid point's number is below 50. -/
theorem t_lt2 (t : Fin cfg2.N) : t.val < 50 := lt_of_lt_of_eq t.isLt N_2

variable (V : (c : Dev nD) → (b : Ref sig .tc) → Buf (Elt Ideal) ((c : Thread nD τ).loc b))

/-- The stacked window's block at point `t` is rows `2000 t … 2000 t + 1999` of each hop of the stack. -/
theorem iblk2_0_apply (c : Dev nD) (t : Fin cfg2.N) (n : Fin 4) (p : Fin 2000) (k : Fin 128) :
    (iblk2 V c 0 t : Vec Ideal S4x2000x128 .f32) (ix3 n p k)
      = (V c main_v111 : S4x100000x128.Idx → Elt Ideal .f32) (ix3 n (comb_rowAt t.val (t_lt2 t) p) k) := by
  obtain ⟨e0, e1, e2, -⟩ := idx_facts2 t
  unfold iblk2
  rw [View.read_apply]
  show V c main_v111 _ = V c main_v111 _
  congr 1
  funext a
  apply Fin.ext
  match a with
  | ⟨0, _⟩ => show win2_0.index t (0 : Fin 3) * 4 + 1 * n.val = n.val; rw [e0]; omega
  | ⟨1, _⟩ => show win2_0.index t (1 : Fin 3) * 2000 + 1 * p.val = t.val * 2000 + p.val; rw [e1]; omega
  | ⟨2, _⟩ => show win2_0.index t (2 : Fin 3) * 128 + 1 * k.val = k.val; rw [e2]; omega

/-- The weight window's block at every point is the whole weight stack. -/
theorem iblk2_1_apply (c : Dev nD) (t : Fin cfg2.N) (n : Fin 4) (k q : Fin 128) :
    (iblk2 V c 1 t : Vec Ideal S4x128x128 .f32) (ix3 n k q)
      = (V c main_arg6 : S4x128x128.Idx → Elt Ideal .f32) (ix3 n k q) := by
  obtain ⟨-, -, -, e0, e1, e2, -⟩ := idx_facts2 t
  unfold iblk2
  rw [View.read_apply]
  show V c main_arg6 _ = V c main_arg6 _
  congr 1
  funext a
  apply Fin.ext
  match a with
  | ⟨0, _⟩ => show win2_1.index t (0 : Fin 3) * 4 + 1 * n.val = n.val; rw [e0]; omega
  | ⟨1, _⟩ => show win2_1.index t (1 : Fin 3) * 128 + 1 * k.val = k.val; rw [e1]; omega
  | ⟨2, _⟩ => show win2_1.index t (2 : Fin 3) * 128 + 1 * q.val = q.val; rw [e2]; omega

/-- The bias window's block at every point is the whole bias. -/
theorem iblk2_2_apply (c : Dev nD) (t : Fin cfg2.N) (q : Fin 128) :
    (iblk2 V c 2 t : Vec Ideal S128 .f32) (ix1 q) = (V c main_arg7 : S128.Idx → Elt Ideal .f32) (ix1 q) := by
  obtain ⟨-, -, -, -, -, -, e0, -⟩ := idx_facts2 t
  unfold iblk2
  rw [View.read_apply]
  show V c main_arg7 _ = V c main_arg7 _
  congr 1
  funext a
  apply Fin.ext
  match a with
  | ⟨0, _⟩ => show win2_2.index t (0 : Fin 1) * 128 + 1 * q.val = q.val; rw [e0]; omega

section
variable (c : Dev nD) (h0 h1 h2 h3 : (⟨S100000x128, .f32⟩ : BufTy).Contents (Elt Ideal))
  (hS : ∀ (k : Fin 4) (p : Fin 100000) (j : Fin 128), V c main_v111 (ValueIdx.ix3 k p j) = (![h0, h1, h2, h3] k) (ValueIdx.ix2 p j))
include hS

/-- WHAT POINT `t` WRITES BACK is block `t` of the layer function of the hop arrays, the weight stack and the bias. -/
theorem flushed2_eq (t : Fin cfg2.N) :
    (dat2 (F := Ideal) V c).flushed 3 t
      = ((cfg2.win 3).blk t).view.read (Elt Ideal) (Cert.Layers.combine (F := Ideal) h0 h1 h2 h3 (V c main_arg6) (V c main_arg7)) := by
  show (cfg2.win 3).cut (grid2.coords t) ((dat2 (F := Ideal) V c).after 3 t) = _
  rw [after2_3]
  unfold out2_3
  rw [View.canon_unit_zero comb_hz2]
  obtain ⟨-, -, -, -, -, -, -, e0, e1⟩ := idx_facts2 t
  funext y
  obtain ⟨p, q, rfl⟩ : ∃ (p : Fin 2000) (q : Fin 128), y = ix2 p q := ⟨y 0, y 1, eq_ix2 y⟩
  have hy : (((cfg2.win 3).blk t).view.emb (ix2 p q) : S100000x128.Idx) = ix2 (comb_rowAt t.val (t_lt2 t) p) q := by
    funext a
    apply Fin.ext
    match a with
    | ⟨0, _⟩ => show win2_3.index t (0 : Fin 2) * 2000 + 1 * p.val = t.val * 2000 + p.val; rw [e0]; omega
    | ⟨1, _⟩ => show win2_3.index t (1 : Fin 2) * 128 + 1 * q.val = q.val; rw [e1]; omega
  refine (pay2_apply _ _ _ _ _ _ _ _ _ p q).trans ?_
  refine Eq.trans ?_ (congrArg (Cert.Layers.combine (F := Ideal) h0 h1 h2 h3 (V c main_arg6) (V c main_arg7)) hy.symm)
  refine Eq.trans ?_ (Cert.Layers.combine_apply h0 h1 h2 h3 (V c main_arg6) (V c main_arg7) (comb_rowAt t.val (t_lt2 t) p) q).symm
  rw [zero_add]
  refine congrArg₂ max (congrArg₂ (· + ·) (congrArg₂ (· + ·) (congrArg₂ (· + ·) (congrArg₂ (· + ·) ?_ ?_) ?_) ?_) ?_) rfl
  · exact comb_hop_sum_eq _ _ h0 (V c main_arg6) 0 (by decide) _ _ (comb_rowAt t.val (t_lt2 t) p) p q
      (fun k => (iblk2_0_apply V c t 0 p k).trans (hS 0 _ k)) (fun k => iblk2_1_apply V c t 0 k q)
  · exact comb_hop_sum_eq _ _ h1 (V c main_arg6) 1 (by decide) _ _ (comb_rowAt t.val (t_lt2 t) p) p q
      (fun k => (iblk2_0_apply V c t 1 p k).trans (hS 1 _ k)) (fun k => iblk2_1_apply V c t 1 k q)
  · exact comb_hop_sum_eq _ _ h2 (V c main_arg6) 2 (by decide) _ _ (comb_rowAt t.val (t_lt2 t) p) p q
      (fun k => (iblk2_0_apply V c t 2 p k).trans (hS 2 _ k)) (fun k => iblk2_1_apply V c t 2 k q)
  · exact comb_hop_sum_eq _ _ h3 (V c main_arg6) 3 (by decide) _ _ (comb_rowAt t.val (t_lt2 t) p) p q
      (fun k => (iblk2_0_apply V c t 3 p k).trans (hS 3 _ k)) (fun k => iblk2_1_apply V c t 3 k q)
  · exact (congrFun (View.ld_unit_zero (S := S128) comb_hz1 inb_S128_S128_0 (iblk2 V c 2 t)) (ix1 q)).trans (iblk2_2_apply V c t q)

omit hS in
/-- An index of the output array is in point `t`'s block iff each coordinate is in the block's range on its axis. -/
theorem mem_blk2 (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v112).slice (win2_3.rect t)).set ↔ _
  rw [View.set_slice_whole, Rect.mem_set_unit]
  exact Iff.rfl

omit hS in
/-- Every index of the output array is in the block of the point its row names: row `r` lies in block `r / 2000`. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have ht : (i 0).val / 2000 < cfg2.N := by rw [show cfg2.N = 50 from N_2]; omega
  refine ⟨⟨(i 0).val / 2000, ht⟩, flush2_3 _, ?_⟩
  rw [mem_blk2]
  obtain ⟨-, -, -, -, -, -, -, e0, e1⟩ := idx_facts2 ⟨(i 0).val / 2000, ht⟩
  have e0' : win2_3.index ⟨(i 0).val / 2000, ht⟩ (0 : Fin 2) = (i 0).val / 2000 := e0
  intro a
  match a with
  | ⟨0, _⟩ => show win2_3.index ⟨(i 0).val / 2000, ht⟩ (0 : Fin 2) * 2000 ≤ (i 0).val ∧ (i 0).val < win2_3.index ⟨(i 0).val / 2000, ht⟩ (0 : Fin 2) * 2000 + 2000; rw [e0']; omega
  | ⟨1, _⟩ => show win2_3.index ⟨(i 0).val / 2000, ht⟩ (1 : Fin 2) * 128 ≤ (i 1).val ∧ (i 1).val < win2_3.index ⟨(i 0).val / 2000, ht⟩ (1 : Fin 2) * 128 + 128; rw [e1]; omega

/-- THE OUTPUT ARRAY after region 2 is the graph layer of the four hop arrays its stacked window holds, of the
    weight stack and of the bias. -/
theorem arr2_eq :
    (dat2 (F := Ideal) V c).arrAt 3 cfg2.N = Cert.Layers.combine (F := Ideal) h0 h1 h2 h3 (V c main_arg6) (V c main_arg7) :=
  (dat2 (F := Ideal) V c).arrAt_eq_of_cover 3 _ (fun t _ => flushed2_eq V c h0 h1 h2 h3 hS t) cover2

end

end Cert.KernelIdeal.Hand

end
-- ==== Proof.KIVal3.lean ====
/-
  Region 3: relu(h·W + b) on 2000-row blocks of h, with W and b whole.
  The region's output array after its 50 grid points is the dense layer `dense128` of the region's three input arrays,
  index by index, on the extended reals. Three steps: the body's payload read at (p, q) of a block; the layer function
  read at (r, q) of the array; and the tiling — row r of the array lies in block r / 2000 at row r % 2000, the weights
  and the bias are the same whole block at every point — which carries the first to the second.
-/
import proofs.«147401_j14388140441686_1_alg».proof.Proof.KIBody3
import proofs.«147401_j14388140441686_1_alg».proof.Proof.Layers
import proofs.«147401_j14388140441686_1_alg».proof.Proof.KIValDenseLib
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The body's payload at (p, q) -/

/-- The body's dot: rows × inner against inner × columns, one contracted axis. -/
abbrev kdot3 := dot_S2000x128_S128x128_S2000x128_1_0_0_1_n_n

theorem kdot3_lhs0 (i : S2000x128.Idx) (c : kdot3.contr.Idx) : (kdot3.lhsIdx i c 0).val = (i 0).val := by
  unfold DotDims.lhsIdx
  rw [dif_neg (show ¬(0 : Fin S2000x128.rank) ∈ kdot3.lhsBatch by decide), dif_pos (show (0 : Fin S2000x128.rank) ∈ kdot3.lhsNonContracting by decide)]
  rfl
theorem kdot3_lhs1 (i : S2000x128.Idx) (c : kdot3.contr.Idx) : (kdot3.lhsIdx i c 1).val = (c ⟨0, by decide⟩).val :=
  kdot3.lhsIdx_val_of_single rfl i c
theorem kdot3_rhs0 (i : S2000x128.Idx) (c : kdot3.contr.Idx) : (kdot3.rhsIdx i c 0).val = (c ⟨0, by decide⟩).val :=
  kdot3.rhsIdx_val_of_single rfl i c
theorem kdot3_rhs1 (i : S2000x128.Idx) (c : kdot3.contr.Idx) : (kdot3.rhsIdx i c 1).val = (i 1).val := by
  unfold DotDims.rhsIdx
  rw [dif_neg (show ¬(1 : Fin S128x128.rank) ∈ kdot3.rhsBatch by decide), dif_pos (show (1 : Fin S128x128.rank) ∈ kdot3.rhsNonContracting by decide)]
  rfl

/-- The payload at (p, q) of the output block: the casts to bf16 are the identity on the extended reals, the product
    into a zero accumulator is the plain sum over the inner coordinate, the bias row is the bias at q. -/
theorem k3_pay1_apply (x0 : Vec Ideal S2000x128 .f32) (x1 : Vec Ideal S128x128 .f32) (x2 : Vec Ideal S128 .f32)
    (p : Fin 2000) (q : Fin 128) :
    k3_pay1 (F := Ideal) x0 x1 x2 (ix2 p q) = denseAt (M := 2000) (K := 128) (N := 128) x0 x1 x2 p q := by
  unfold k3_pay1 denseAt
  refine (maximumf_apply _ _ _).trans (congrArg₂ max ?_ rfl)
  refine (addf_apply _ _ _).trans (congrArg₂ (· + ·) ?_ (biasRow_apply (M := 2000) (N := 128) x2 _ _ p q))
  refine (Ideal.matmul_constant_zero_apply kdot3 none _ _ (ix2 p q)).trans ?_
  refine (dot_sum_eq (M := 2000) (K := 128) (N := 128) kdot3 rfl rfl kdot3_lhs0 kdot3_lhs1 kdot3_rhs0 kdot3_rhs1 _ _ p q).trans ?_
  refine Finset.sum_congr rfl fun k _ => ?_
  exact congrArg₂ (· * ·) (congrFun (shapeCast_self x0 _) (ix2 p k)) rfl

/-! ## The layer function at (r, q) -/

/-- The reference's dot for this layer. -/
abbrev rdot3 := Cert.ReferenceIdeal.dot_S100000x128_S128x128_S100000x128_1_0_0_1_n_n

theorem rdot3_lhs0 (i : Cert.ReferenceIdeal.S100000x128.Idx) (c : rdot3.contr.Idx) : (rdot3.lhsIdx i c 0).val = (i 0).val := by
  unfold DotDims.lhsIdx
  rw [dif_neg (show ¬(0 : Fin Cert.ReferenceIdeal.S100000x128.rank) ∈ rdot3.lhsBatch by decide), dif_pos (show (0 : Fin Cert.ReferenceIdeal.S100000x128.rank) ∈ rdot3.lhsNonContracting by decide)]
  rfl
theorem rdot3_lhs1 (i : Cert.ReferenceIdeal.S100000x128.Idx) (c : rdot3.contr.Idx) : (rdot3.lhsIdx i c 1).val = (c ⟨0, by decide⟩).val :=
  rdot3.lhsIdx_val_of_single rfl i c
theorem rdot3_rhs0 (i : Cert.ReferenceIdeal.S100000x128.Idx) (c : rdot3.contr.Idx) : (rdot3.rhsIdx i c 0).val = (c ⟨0, by decide⟩).val :=
  rdot3.rhsIdx_val_of_single rfl i c
theorem rdot3_rhs1 (i : Cert.ReferenceIdeal.S100000x128.Idx) (c : rdot3.contr.Idx) : (rdot3.rhsIdx i c 1).val = (i 1).val := by
  unfold DotDims.rhsIdx
  rw [dif_neg (show ¬(1 : Fin Cert.ReferenceIdeal.S128x128.rank) ∈ rdot3.rhsBatch by decide), dif_pos (show (1 : Fin Cert.ReferenceIdeal.S128x128.rank) ∈ rdot3.rhsNonContracting by decide)]
  rfl

/-- The layer at (r, q): the host's dot with one contracted axis is the same sum, the bias is broadcast to a row and
    then along the rows, and the zero splat reads the zero word everywhere. -/
theorem layer3_apply (h : S100000x128.Idx → EReal) (W : S128x128.Idx → EReal) (b : S128.Idx → EReal) (r : Fin 100000) (q : Fin 128) :
    Cert.Layers.dense128 (F := Ideal) h W b (ix2 r q) = denseAt (M := 100000) (K := 128) (N := 128) h W b r q := by
  unfold Cert.Layers.dense128 denseAt
  refine (maximumf_apply _ _ _).trans (congrArg₂ max ?_ ?_)
  · refine (addf_apply _ _ _).trans (congrArg₂ (· + ·) ?_ ?_)
    · refine (Ideal.dotGeneral_apply rdot3 none _ h W (ix2 r q)).trans ?_
      exact dot_sum_eq (M := 100000) (K := 128) (N := 128) rdot3 rfl rfl rdot3_lhs0 rdot3_lhs1 rdot3_rhs0 rdot3_rhs1 h W r q
    · refine (broadcastInDim_apply _ _ _ (ix2 r q) (ix2 ⟨0, Nat.one_pos⟩ q) (fun a => ?_)).trans ?_
      · match a with
        | ⟨0, _⟩ => show 0 = if (1 : Nat) = 1 then 0 else r.val; rw [if_pos rfl]
        | ⟨1, _⟩ => show q.val = if (128 : Nat) = 1 then 0 else q.val; rw [if_neg (by decide)]
      · refine broadcastInDim_apply _ _ b (ix2 ⟨0, Nat.one_pos⟩ q) (ix1 q) (fun a => ?_)
        match a with
        | ⟨0, _⟩ => show q.val = if (128 : Nat) = 1 then 0 else q.val; rw [if_neg (by decide)]
  · exact broadcastInDim_apply _ _ _ (ix2 r q) ix0 (fun a => a.elim0)

/-! ## From blocks to the array -/

theorem hz2_3 : (![0, 0] : Fin 2 → Nat) = fun _ => 0 := funext fun a => by fin_cases a <;> rfl
theorem hz1_3 : (![0] : Fin 1 → Nat) = fun _ => 0 := funext fun a => by fin_cases a <;> rfl

/-- One grid point, over variables: if the activations' block holds rows T·2000 … T·2000+1999 of the array `A`, and
    the weights' and the bias's blocks hold `W` and `B` whole, then the payload at (p, q) of the block is the layer at
    the array's index (T·2000 + p, q). -/
theorem point3 (A : S100000x128.Idx → EReal) (W : S128x128.Idx → EReal) (B : S128.Idx → EReal)
    (x0 : Vec Ideal S2000x128 .f32) (x1 : Vec Ideal S128x128 .f32) (x2 : Vec Ideal S128 .f32) (T : ℕ)
    (h0 : ∀ (p : Fin 2000) (k : Fin 128) (r : Fin 100000), r.val = T * 2000 + 1 * p.val → x0 (ix2 p k) = A (ix2 r k))
    (h1 : ∀ (k : Fin 128) (q : Fin 128), x1 (ix2 k q) = W (ix2 k q))
    (h2 : ∀ q : Fin 128, x2 (ix1 q) = B (ix1 q))
    (p : Fin 2000) (q : Fin 128) (i : S100000x128.Idx) (hi0 : (i 0).val = T * 2000 + 1 * p.val) (hi1 : (i 1).val = q.val) :
    k3_pay1 (F := Ideal) x0 x1 x2 (ix2 p q) = Cert.Layers.dense128 (F := Ideal) A W B i := by
  obtain ⟨r, q', rfl⟩ : ∃ (r : Fin 100000) (q' : Fin 128), i = ix2 r q' := ⟨i 0, i 1, eq_ix2 i⟩
  have hq : q' = q := Fin.ext hi1
  subst hq
  rw [k3_pay1_apply, layer3_apply]
  unfold denseAt
  refine congrArg₂ max (congrArg₂ (· + ·) (Finset.sum_congr rfl fun k _ => ?_) (h2 q')) rfl
  rw [h0 p k r hi0, h1]

/-- The windows' index maps, decided once over the grid: the activations' block index along rows is the output's, the
    other block indices are zero, and the output's row-block index is below 50. -/
theorem idx_facts3 : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 1) = 0
    ∧ win3_3.index t (1 : Fin 2) = 0 ∧ win3_3.index t (0 : Fin 2) ≤ 49 :=
  (by decide +kernel : ∀ t : Fin grid3.N, _)

/-- Every row block is some point's. -/
theorem idx_onto3 : ∀ q0 : Fin 50, ∃ t : Fin cfg3.N, win3_3.index t (0 : Fin 2) = q0.val :=
  (by decide +kernel : ∀ q0 : Fin 50, ∃ t : Fin grid3.N, win3_3.index t (0 : Fin 2) = q0.val)

variable (V : (c : Dev nD) → (b : Ref sig .tc) → Buf (Elt Ideal) ((c : Thread nD τ).loc b))

/-- The activations' block at point `t`, at (p, k): the array at row (block index)·2000 + p, column k. -/
theorem iblk3_0_apply (c : Dev nD) (t : Fin cfg3.N) (p : Fin 2000) (k : Fin 128) (r : Fin 100000)
    (hr : r.val = win3_0.index t (0 : Fin 2) * 2000 + 1 * p.val) (h1 : win3_0.index t (1 : Fin 2) = 0) :
    iblk3 (F := Ideal) V c 0 t (ix2 p k) = V c main_v112 (ix2 r k) := by
  unfold iblk3
  rw [View.read_apply]
  show V c main_v112 _ = V c main_v112 _
  congr 1
  funext a
  apply Fin.ext
  match a with
  | ⟨0, _⟩ => show win3_0.index t (0 : Fin 2) * 2000 + 1 * p.val = r.val; omega
  | ⟨1, _⟩ => show win3_0.index t (1 : Fin 2) * 128 + 1 * k.val = k.val; rw [h1]; omega

/-- The weights' block at any point is the weights' array. -/
theorem iblk3_1_apply (c : Dev nD) (t : Fin cfg3.N) (k : Fin 128) (q : Fin 128)
    (h0 : win3_1.index t (0 : Fin 2) = 0) (h1 : win3_1.index t (1 : Fin 2) = 0) :
    iblk3 (F := Ideal) V c 1 t (ix2 k q) = V c main_arg8 (ix2 k q) := by
  unfold iblk3
  rw [View.read_apply]
  show V c main_arg8 _ = V c main_arg8 _
  congr 1
  funext a
  apply Fin.ext
  match a with
  | ⟨0, _⟩ => show win3_1.index t (0 : Fin 2) * 128 + 1 * k.val = k.val; rw [h0]; omega
  | ⟨1, _⟩ => show win3_1.index t (1 : Fin 2) * 128 + 1 * q.val = q.val; rw [h1]; omega

/-- The bias's block at any point is the bias array. -/
theorem iblk3_2_apply (c : Dev nD) (t : Fin cfg3.N) (q : Fin 128)
    (h0 : win3_2.index t (0 : Fin 1) = 0) :
    iblk3 (F := Ideal) V c 2 t (ix1 q) = V c main_arg9 (ix1 q) := by
  unfold iblk3
  rw [View.read_apply]
  show V c main_arg9 _ = V c main_arg9 _
  congr 1
  funext a
  apply Fin.ext
  match a with
  | ⟨0, _⟩ => show win3_2.index t (0 : Fin 1) * 128 + 1 * q.val = q.val; rw [h0]; omega

/-- What point `t` writes back is block `t` of the layer function of the region's input arrays. -/
theorem flushed3_eq (c : Dev nD) (t : Fin cfg3.N) :
    (dat3 (F := Ideal) V c).flushed 3 t
      = ((cfg3.win 3).blk t).view.read (Elt Ideal) (Cert.Layers.dense128 (F := Ideal) (V c main_v112) (V c main_arg8) (V c main_arg9)) := by
  show (cfg3.win 3).cut (grid3.coords t) ((dat3 (F := Ideal) V c).after 3 t) = _
  rw [after3_3]
  unfold out3_3
  rw [View.canon_unit_zero hz2_3]
  simp only [View.ld_unit_zero (S := S2000x128) hz2_3, View.ld_unit_zero (S := S128x128) hz2_3, View.ld_unit_zero (S := S128) hz1_3]
  obtain ⟨e0, e1, e2, e3, e4, e5, e6⟩ := idx_facts3 t
  funext j
  obtain ⟨p, q, rfl⟩ : ∃ (p : Fin 2000) (q : Fin 128), j = ix2 p q := ⟨j 0, j 1, eq_ix2 j⟩
  refine point3 (V c main_v112) (V c main_arg8) (V c main_arg9) (iblk3 V c 0 t) (iblk3 V c 1 t) (iblk3 V c 2 t) (win3_3.index t (0 : Fin 2))
    (fun p k r hr => iblk3_0_apply V c t p k r (by rw [e0]; exact hr) e1)
    (fun k q => iblk3_1_apply V c t k q e2 e3)
    (fun q => iblk3_2_apply V c t q e4) p q _ ?_ ?_
  · show win3_3.index t (0 : Fin 2) * 2000 + 1 * p.val = _; rfl
  · show win3_3.index t (1 : Fin 2) * 128 + 1 * q.val = q.val; rw [e5]; omega

/-- An index of the array is in point `t`'s block iff each coordinate is in the block's range on its axis. -/
theorem mem_blk3 (t : Fin cfg3.N) (i : S100000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v113).slice (win3_3.rect t)).set ↔ _
  rw [View.set_slice_whole, Rect.mem_set_unit]
  exact Iff.rfl

/-- Every index of the output array is in some point's block: row r is in block r / 2000. -/
theorem cover3 (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := idx_onto3 ⟨(i 0).val / 2000, by omega⟩
  have ht' : win3_3.index t (0 : Fin 2) = (i 0).val / 2000 := ht
  obtain ⟨e0, e1, e2, e3, e4, e5, e6⟩ := idx_facts3 t
  refine ⟨t, flush3_3 t, ?_⟩
  rw [mem_blk3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 128 ≤ (i 1).val ∧ (i 1).val < win3_3.index t (1 : Fin 2) * 128 + 128; omega

/-- The region's output array is the layer function of its three input arrays. -/
theorem arr3_eq (c : Dev nD) :
    (dat3 (F := Ideal) V c).arrAt 3 cfg3.N = Cert.Layers.dense128 (F := Ideal) (V c main_v112) (V c main_arg8) (V c main_arg9) :=
  (dat3 (F := Ideal) V c).arrAt_eq_of_cover 3 _ (fun t _ => flushed3_eq V c t) cover3

end Cert.KernelIdeal.Hand

end
-- ==== Proof.KIVal4.lean ====
/-
  Region 4: relu(h·W + b) on 2000-row blocks of h, with W and b whole.
  The region's output array after its 50 grid points is the dense layer `dense128` of the region's three input arrays,
  index by index, on the extended reals. Three steps: the body's payload read at (p, q) of a block; the layer function
  read at (r, q) of the array; and the tiling — row r of the array lies in block r / 2000 at row r % 2000, the weights
  and the bias are the same whole block at every point — which carries the first to the second.
-/
import proofs.«147401_j14388140441686_1_alg».proof.Proof.KIBody4
import proofs.«147401_j14388140441686_1_alg».proof.Proof.Layers
import proofs.«147401_j14388140441686_1_alg».proof.Proof.KIValDenseLib
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The body's payload at (p, q) -/

/-- The body's dot: rows × inner against inner × columns, one contracted axis. -/
abbrev kdot4 := dot_S2000x128_S128x128_S2000x128_1_0_0_1_n_n

theorem kdot4_lhs0 (i : S2000x128.Idx) (c : kdot4.contr.Idx) : (kdot4.lhsIdx i c 0).val = (i 0).val := by
  unfold DotDims.lhsIdx
  rw [dif_neg (show ¬(0 : Fin S2000x128.rank) ∈ kdot4.lhsBatch by decide), dif_pos (show (0 : Fin S2000x128.rank) ∈ kdot4.lhsNonContracting by decide)]
  rfl
theorem kdot4_lhs1 (i : S2000x128.Idx) (c : kdot4.contr.Idx) : (kdot4.lhsIdx i c 1).val = (c ⟨0, by decide⟩).val :=
  kdot4.lhsIdx_val_of_single rfl i c
theorem kdot4_rhs0 (i : S2000x128.Idx) (c : kdot4.contr.Idx) : (kdot4.rhsIdx i c 0).val = (c ⟨0, by decide⟩).val :=
  kdot4.rhsIdx_val_of_single rfl i c
theorem kdot4_rhs1 (i : S2000x128.Idx) (c : kdot4.contr.Idx) : (kdot4.rhsIdx i c 1).val = (i 1).val := by
  unfold DotDims.rhsIdx
  rw [dif_neg (show ¬(1 : Fin S128x128.rank) ∈ kdot4.rhsBatch by decide), dif_pos (show (1 : Fin S128x128.rank) ∈ kdot4.rhsNonContracting by decide)]
  rfl

/-- The payload at (p, q) of the output block: the casts to bf16 are the identity on the extended reals, the product
    into a zero accumulator is the plain sum over the inner coordinate, the bias row is the bias at q. -/
theorem k4_pay1_apply (x0 : Vec Ideal S2000x128 .f32) (x1 : Vec Ideal S128x128 .f32) (x2 : Vec Ideal S128 .f32)
    (p : Fin 2000) (q : Fin 128) :
    k4_pay1 (F := Ideal) x0 x1 x2 (ix2 p q) = denseAt (M := 2000) (K := 128) (N := 128) x0 x1 x2 p q := by
  unfold k4_pay1 denseAt
  refine (maximumf_apply _ _ _).trans (congrArg₂ max ?_ rfl)
  refine (addf_apply _ _ _).trans (congrArg₂ (· + ·) ?_ (biasRow_apply (M := 2000) (N := 128) x2 _ _ p q))
  refine (Ideal.matmul_constant_zero_apply kdot4 none _ _ (ix2 p q)).trans ?_
  refine (dot_sum_eq (M := 2000) (K := 128) (N := 128) kdot4 rfl rfl kdot4_lhs0 kdot4_lhs1 kdot4_rhs0 kdot4_rhs1 _ _ p q).trans ?_
  refine Finset.sum_congr rfl fun k _ => ?_
  exact congrArg₂ (· * ·) (congrFun (shapeCast_self x0 _) (ix2 p k)) rfl

/-! ## The layer function at (r, q) -/

/-- The reference's dot for this layer. -/
abbrev rdot4 := Cert.ReferenceIdeal.dot_S100000x128_S128x128_S100000x128_1_0_0_1_n_n

theorem rdot4_lhs0 (i : Cert.ReferenceIdeal.S100000x128.Idx) (c : rdot4.contr.Idx) : (rdot4.lhsIdx i c 0).val = (i 0).val := by
  unfold DotDims.lhsIdx
  rw [dif_neg (show ¬(0 : Fin Cert.ReferenceIdeal.S100000x128.rank) ∈ rdot4.lhsBatch by decide), dif_pos (show (0 : Fin Cert.ReferenceIdeal.S100000x128.rank) ∈ rdot4.lhsNonContracting by decide)]
  rfl
theorem rdot4_lhs1 (i : Cert.ReferenceIdeal.S100000x128.Idx) (c : rdot4.contr.Idx) : (rdot4.lhsIdx i c 1).val = (c ⟨0, by decide⟩).val :=
  rdot4.lhsIdx_val_of_single rfl i c
theorem rdot4_rhs0 (i : Cert.ReferenceIdeal.S100000x128.Idx) (c : rdot4.contr.Idx) : (rdot4.rhsIdx i c 0).val = (c ⟨0, by decide⟩).val :=
  rdot4.rhsIdx_val_of_single rfl i c
theorem rdot4_rhs1 (i : Cert.ReferenceIdeal.S100000x128.Idx) (c : rdot4.contr.Idx) : (rdot4.rhsIdx i c 1).val = (i 1).val := by
  unfold DotDims.rhsIdx
  rw [dif_neg (show ¬(1 : Fin Cert.ReferenceIdeal.S128x128.rank) ∈ rdot4.rhsBatch by decide), dif_pos (show (1 : Fin Cert.ReferenceIdeal.S128x128.rank) ∈ rdot4.rhsNonContracting by decide)]
  rfl

/-- The layer at (r, q): the host's dot with one contracted axis is the same sum, the bias is broadcast to a row and
    then along the rows, and the zero splat reads the zero word everywhere. -/
theorem layer4_apply (h : S100000x128.Idx → EReal) (W : S128x128.Idx → EReal) (b : S128.Idx → EReal) (r : Fin 100000) (q : Fin 128) :
    Cert.Layers.dense128 (F := Ideal) h W b (ix2 r q) = denseAt (M := 100000) (K := 128) (N := 128) h W b r q := by
  unfold Cert.Layers.dense128 denseAt
  refine (maximumf_apply _ _ _).trans (congrArg₂ max ?_ ?_)
  · refine (addf_apply _ _ _).trans (congrArg₂ (· + ·) ?_ ?_)
    · refine (Ideal.dotGeneral_apply rdot4 none _ h W (ix2 r q)).trans ?_
      exact dot_sum_eq (M := 100000) (K := 128) (N := 128) rdot4 rfl rfl rdot4_lhs0 rdot4_lhs1 rdot4_rhs0 rdot4_rhs1 h W r q
    · refine (broadcastInDim_apply _ _ _ (ix2 r q) (ix2 ⟨0, Nat.one_pos⟩ q) (fun a => ?_)).trans ?_
      · match a with
        | ⟨0, _⟩ => show 0 = if (1 : Nat) = 1 then 0 else r.val; rw [if_pos rfl]
        | ⟨1, _⟩ => show q.val = if (128 : Nat) = 1 then 0 else q.val; rw [if_neg (by decide)]
      · refine broadcastInDim_apply _ _ b (ix2 ⟨0, Nat.one_pos⟩ q) (ix1 q) (fun a => ?_)
        match a with
        | ⟨0, _⟩ => show q.val = if (128 : Nat) = 1 then 0 else q.val; rw [if_neg (by decide)]
  · exact broadcastInDim_apply _ _ _ (ix2 r q) ix0 (fun a => a.elim0)

/-! ## From blocks to the array -/

theorem hz2_4 : (![0, 0] : Fin 2 → Nat) = fun _ => 0 := funext fun a => by fin_cases a <;> rfl
theorem hz1_4 : (![0] : Fin 1 → Nat) = fun _ => 0 := funext fun a => by fin_cases a <;> rfl

/-- One grid point, over variables: if the activations' block holds rows T·2000 … T·2000+1999 of the array `A`, and
    the weights' and the bias's blocks hold `W` and `B` whole, then the payload at (p, q) of the block is the layer at
    the array's index (T·2000 + p, q). -/
theorem point4 (A : S100000x128.Idx → EReal) (W : S128x128.Idx → EReal) (B : S128.Idx → EReal)
    (x0 : Vec Ideal S2000x128 .f32) (x1 : Vec Ideal S128x128 .f32) (x2 : Vec Ideal S128 .f32) (T : ℕ)
    (h0 : ∀ (p : Fin 2000) (k : Fin 128) (r : Fin 100000), r.val = T * 2000 + 1 * p.val → x0 (ix2 p k) = A (ix2 r k))
    (h1 : ∀ (k : Fin 128) (q : Fin 128), x1 (ix2 k q) = W (ix2 k q))
    (h2 : ∀ q : Fin 128, x2 (ix1 q) = B (ix1 q))
    (p : Fin 2000) (q : Fin 128) (i : S100000x128.Idx) (hi0 : (i 0).val = T * 2000 + 1 * p.val) (hi1 : (i 1).val = q.val) :
    k4_pay1 (F := Ideal) x0 x1 x2 (ix2 p q) = Cert.Layers.dense128 (F := Ideal) A W B i := by
  obtain ⟨r, q', rfl⟩ : ∃ (r : Fin 100000) (q' : Fin 128), i = ix2 r q' := ⟨i 0, i 1, eq_ix2 i⟩
  have hq : q' = q := Fin.ext hi1
  subst hq
  rw [k4_pay1_apply, layer4_apply]
  unfold denseAt
  refine congrArg₂ max (congrArg₂ (· + ·) (Finset.sum_congr rfl fun k _ => ?_) (h2 q')) rfl
  rw [h0 p k r hi0, h1]

/-- The windows' index maps, decided once over the grid: the activations' block index along rows is the output's, the
    other block indices are zero, and the output's row-block index is below 50. -/
theorem idx_facts4 : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 1) = 0
    ∧ win4_3.index t (1 : Fin 2) = 0 ∧ win4_3.index t (0 : Fin 2) ≤ 49 :=
  (by decide +kernel : ∀ t : Fin grid4.N, _)

/-- Every row block is some point's. -/
theorem idx_onto4 : ∀ q0 : Fin 50, ∃ t : Fin cfg4.N, win4_3.index t (0 : Fin 2) = q0.val :=
  (by decide +kernel : ∀ q0 : Fin 50, ∃ t : Fin grid4.N, win4_3.index t (0 : Fin 2) = q0.val)

variable (V : (c : Dev nD) → (b : Ref sig .tc) → Buf (Elt Ideal) ((c : Thread nD τ).loc b))

/-- The activations' block at point `t`, at (p, k): the array at row (block index)·2000 + p, column k. -/
theorem iblk4_0_apply (c : Dev nD) (t : Fin cfg4.N) (p : Fin 2000) (k : Fin 128) (r : Fin 100000)
    (hr : r.val = win4_0.index t (0 : Fin 2) * 2000 + 1 * p.val) (h1 : win4_0.index t (1 : Fin 2) = 0) :
    iblk4 (F := Ideal) V c 0 t (ix2 p k) = V c main_v113 (ix2 r k) := by
  unfold iblk4
  rw [View.read_apply]
  show V c main_v113 _ = V c main_v113 _
  congr 1
  funext a
  apply Fin.ext
  match a with
  | ⟨0, _⟩ => show win4_0.index t (0 : Fin 2) * 2000 + 1 * p.val = r.val; omega
  | ⟨1, _⟩ => show win4_0.index t (1 : Fin 2) * 128 + 1 * k.val = k.val; rw [h1]; omega

/-- The weights' block at any point is the weights' array. -/
theorem iblk4_1_apply (c : Dev nD) (t : Fin cfg4.N) (k : Fin 128) (q : Fin 128)
    (h0 : win4_1.index t (0 : Fin 2) = 0) (h1 : win4_1.index t (1 : Fin 2) = 0) :
    iblk4 (F := Ideal) V c 1 t (ix2 k q) = V c main_arg10 (ix2 k q) := by
  unfold iblk4
  rw [View.read_apply]
  show V c main_arg10 _ = V c main_arg10 _
  congr 1
  funext a
  apply Fin.ext
  match a with
  | ⟨0, _⟩ => show win4_1.index t (0 : Fin 2) * 128 + 1 * k.val = k.val; rw [h0]; omega
  | ⟨1, _⟩ => show win4_1.index t (1 : Fin 2) * 128 + 1 * q.val = q.val; rw [h1]; omega

/-- The bias's block at any point is the bias array. -/
theorem iblk4_2_apply (c : Dev nD) (t : Fin cfg4.N) (q : Fin 128)
    (h0 : win4_2.index t (0 : Fin 1) = 0) :
    iblk4 (F := Ideal) V c 2 t (ix1 q) = V c main_arg11 (ix1 q) := by
  unfold iblk4
  rw [View.read_apply]
  show V c main_arg11 _ = V c main_arg11 _
  congr 1
  funext a
  apply Fin.ext
  match a with
  | ⟨0, _⟩ => show win4_2.index t (0 : Fin 1) * 128 + 1 * q.val = q.val; rw [h0]; omega

/-- What point `t` writes back is block `t` of the layer function of the region's input arrays. -/
theorem flushed4_eq (c : Dev nD) (t : Fin cfg4.N) :
    (dat4 (F := Ideal) V c).flushed 3 t
      = ((cfg4.win 3).blk t).view.read (Elt Ideal) (Cert.Layers.dense128 (F := Ideal) (V c main_v113) (V c main_arg10) (V c main_arg11)) := by
  show (cfg4.win 3).cut (grid4.coords t) ((dat4 (F := Ideal) V c).after 3 t) = _
  rw [after4_3]
  unfold out4_3
  rw [View.canon_unit_zero hz2_4]
  simp only [View.ld_unit_zero (S := S2000x128) hz2_4, View.ld_unit_zero (S := S128x128) hz2_4, View.ld_unit_zero (S := S128) hz1_4]
  obtain ⟨e0, e1, e2, e3, e4, e5, e6⟩ := idx_facts4 t
  funext j
  obtain ⟨p, q, rfl⟩ : ∃ (p : Fin 2000) (q : Fin 128), j = ix2 p q := ⟨j 0, j 1, eq_ix2 j⟩
  refine point4 (V c main_v113) (V c main_arg10) (V c main_arg11) (iblk4 V c 0 t) (iblk4 V c 1 t) (iblk4 V c 2 t) (win4_3.index t (0 : Fin 2))
    (fun p k r hr => iblk4_0_apply V c t p k r (by rw [e0]; exact hr) e1)
    (fun k q => iblk4_1_apply V c t k q e2 e3)
    (fun q => iblk4_2_apply V c t q e4) p q _ ?_ ?_
  · show win4_3.index t (0 : Fin 2) * 2000 + 1 * p.val = _; rfl
  · show win4_3.index t (1 : Fin 2) * 128 + 1 * q.val = q.val; rw [e5]; omega

/-- An index of the array is in point `t`'s block iff each coordinate is in the block's range on its axis. -/
theorem mem_blk4 (t : Fin cfg4.N) (i : S100000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v114).slice (win4_3.rect t)).set ↔ _
  rw [View.set_slice_whole, Rect.mem_set_unit]
  exact Iff.rfl

/-- Every index of the output array is in some point's block: row r is in block r / 2000. -/
theorem cover4 (i : S100000x128.Idx) : ∃ t : Fin cfg4.N, (cfg4.win 3).flush t = true ∧ i ∈ ((cfg4.win 3).blk t).view.set := by
  have hi0 : (i 0).val < 100000 := (i 0).isLt
  have hi1 : (i 1).val < 128 := (i 1).isLt
  obtain ⟨t, ht⟩ := idx_onto4 ⟨(i 0).val / 2000, by omega⟩
  have ht' : win4_3.index t (0 : Fin 2) = (i 0).val / 2000 := ht
  obtain ⟨e0, e1, e2, e3, e4, e5, e6⟩ := idx_facts4 t
  refine ⟨t, flush4_3 t, ?_⟩
  rw [mem_blk4]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 128 ≤ (i 1).val ∧ (i 1).val < win4_3.index t (1 : Fin 2) * 128 + 128; omega

/-- The region's output array is the layer function of its three input arrays. -/
theorem arr4_eq (c : Dev nD) :
    (dat4 (F := Ideal) V c).arrAt 3 cfg4.N = Cert.Layers.dense128 (F := Ideal) (V c main_v113) (V c main_arg10) (V c main_arg11) :=
  (dat4 (F := Ideal) V c).arrAt_eq_of_cover 3 _ (fun t _ => flushed4_eq V c t) cover4

end Cert.KernelIdeal.Hand

end
-- ==== Proof.KIVal5.lean ====
/-
  Region 5: relu(h·W + b) on 2000-row blocks of h, with W and b whole.
  The region's output array after its 50 grid points is the dense layer `dense1` of the region's three input arrays,
  index by index, on the extended reals. Three steps: the body's payload read at (p, q) of a block; the layer function
  read at (r, q) of the array; and the tiling — row r of the array lies in block r / 2000 at row r % 2000, the weights
  and the bias are the same whole block at every point — which carries the first to the second.
-/
import proofs.«147401_j14388140441686_1_alg».proof.Proof.KIBody5
import proofs.«147401_j14388140441686_1_alg».proof.Proof.Layers
import proofs.«147401_j14388140441686_1_alg».proof.Proof.KIValDenseLib
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The body's payload at (p, q) -/

/-- The body's dot: rows × inner against inner × columns, one contracted axis. -/
abbrev kdot5 := dot_S2000x128_S128x1_S2000x1_1_0_0_1_n_n

theorem kdot5_lhs0 (i : S2000x1.Idx) (c : kdot5.contr.Idx) : (kdot5.lhsIdx i c 0).val = (i 0).val := by
  unfold DotDims.lhsIdx
  rw [dif_neg (show ¬(0 : Fin S2000x128.rank) ∈ kdot5.lhsBatch by decide), dif_pos (show (0 : Fin S2000x128.rank) ∈ kdot5.lhsNonContracting by decide)]
  rfl
theorem kdot5_lhs1 (i : S2000x1.Idx) (c : kdot5.contr.Idx) : (kdot5.lhsIdx i c 1).val = (c ⟨0, by decide⟩).val :=
  kdot5.lhsIdx_val_of_single rfl i c
theorem kdot5_rhs0 (i : S2000x1.Idx) (c : kdot5.contr.Idx) : (kdot5.rhsIdx i c 0).val = (c ⟨0, by decide⟩).val :=
  kdot5.rhsIdx_val_of_single rfl i c
theorem kdot5_rhs1 (i : S2000x1.Idx) (c : kdot5.contr.Idx) : (kdot5.rhsIdx i c 1).val = (i 1).val := by
  unfold DotDims.rhsIdx
  rw [dif_neg (show ¬(1 : Fin S128x1.rank) ∈ kdot5.rhsBatch by decide), dif_pos (show (1 : Fin S128x1.rank) ∈ kdot5.rhsNonContracting by decide)]
  rfl

/-- The payload at (p, q) of the output block: the casts to bf16 are the identity on the extended reals, the product
    into a zero accumulator is the plain sum over the inner coordinate, the bias row is the bias at q. -/
theorem k5_pay1_apply (x0 : Vec Ideal S2000x128 .f32) (x1 : Vec Ideal S128x1 .f32) (x2 : Vec Ideal S1 .f32)
    (p : Fin 2000) (q : Fin 1) :
    k5_pay1 (F := Ideal) x0 x1 x2 (ix2 p q) = denseAt (M := 2000) (K := 128) (N := 1) x0 x1 x2 p q := by
  unfold k5_pay1 denseAt
  refine (maximumf_apply _ _ _).trans (congrArg₂ max ?_ rfl)
  refine (addf_apply _ _ _).trans (congrArg₂ (· + ·) ?_ (biasRow_apply (M := 2000) (N := 1) x2 _ _ p q))
  refine (Ideal.matmul_constant_zero_apply kdot5 none _ _ (ix2 p q)).trans ?_
  refine (dot_sum_eq (M := 2000) (K := 128) (N := 1) kdot5 rfl rfl kdot5_lhs0 kdot5_lhs1 kdot5_rhs0 kdot5_rhs1 _ _ p q).trans ?_
  refine Finset.sum_congr rfl fun k _ => ?_
  exact congrArg₂ (· * ·) (congrFun (shapeCast_self x0 _) (ix2 p k)) rfl

/-! ## The layer function at (r, q) -/

/-- The reference's dot for this layer. -/
abbrev rdot5 := Cert.ReferenceIdeal.dot_S100000x128_S128x1_S100000x1_1_0_0_1_n_n

theorem rdot5_lhs0 (i : Cert.ReferenceIdeal.S100000x1.Idx) (c : rdot5.contr.Idx) : (rdot5.lhsIdx i c 0).val = (i 0).val := by
  unfold DotDims.lhsIdx
  rw [dif_neg (show ¬(0 : Fin Cert.ReferenceIdeal.S100000x128.rank) ∈ rdot5.lhsBatch by decide), dif_pos (show (0 : Fin Cert.ReferenceIdeal.S100000x128.rank) ∈ rdot5.lhsNonContracting by decide)]
  rfl
theorem rdot5_lhs1 (i : Cert.ReferenceIdeal.S100000x1.Idx) (c : rdot5.contr.Idx) : (rdot5.lhsIdx i c 1).val = (c ⟨0, by decide⟩).val :=
  rdot5.lhsIdx_val_of_single rfl i c
theorem rdot5_rhs0 (i : Cert.ReferenceIdeal.S100000x1.Idx) (c : rdot5.contr.Idx) : (rdot5.rhsIdx i c 0).val = (c ⟨0, by decide⟩).val :=
  rdot5.rhsIdx_val_of_single rfl i c
theorem rdot5_rhs1 (i : Cert.ReferenceIdeal.S100000x1.Idx) (c : rdot5.contr.Idx) : (rdot5.rhsIdx i c 1).val = (i 1).val := by
  unfold DotDims.rhsIdx
  rw [dif_neg (show ¬(1 : Fin Cert.ReferenceIdeal.S128x1.rank) ∈ rdot5.rhsBatch by decide), dif_pos (show (1 : Fin Cert.ReferenceIdeal.S128x1.rank) ∈ rdot5.rhsNonContracting by decide)]
  rfl

/-- The layer at (r, q): the host's dot with one contracted axis is the same sum, the bias is broadcast to a row and
    then along the rows, and the zero splat reads the zero word everywhere. -/
theorem layer5_apply (h : S100000x128.Idx → EReal) (W : S128x1.Idx → EReal) (b : S1.Idx → EReal) (r : Fin 100000) (q : Fin 1) :
    Cert.Layers.dense1 (F := Ideal) h W b (ix2 r q) = denseAt (M := 100000) (K := 128) (N := 1) h W b r q := by
  unfold Cert.Layers.dense1 denseAt
  refine (maximumf_apply _ _ _).trans (congrArg₂ max ?_ ?_)
  · refine (addf_apply _ _ _).trans (congrArg₂ (· + ·) ?_ ?_)
    · refine (Ideal.dotGeneral_apply rdot5 none _ h W (ix2 r q)).trans ?_
      exact dot_sum_eq (M := 100000) (K := 128) (N := 1) rdot5 rfl rfl rdot5_lhs0 rdot5_lhs1 rdot5_rhs0 rdot5_rhs1 h W r q
    · refine (broadcastInDim_apply _ _ _ (ix2 r q) (ix2 ⟨0, Nat.one_pos⟩ q) (fun a => ?_)).trans ?_
      · match a with
        | ⟨0, _⟩ => show 0 = if (1 : Nat) = 1 then 0 else r.val; rw [if_pos rfl]
        | ⟨1, _⟩ => show q.val = if (1 : Nat) = 1 then 0 else q.val; rw [if_pos rfl]; have := q.isLt; omega
      · refine broadcastInDim_apply _ _ b (ix2 ⟨0, Nat.one_pos⟩ q) (ix1 q) (fun a => ?_)
        match a with
        | ⟨0, _⟩ => show q.val = if (1 : Nat) = 1 then 0 else q.val; rw [if_pos rfl]; have := q.isLt; omega
  · exact broadcastInDim_apply _ _ _ (ix2 r q) ix0 (fun a => a.elim0)

/-! ## From blocks to the array -/

theorem hz2_5 : (![0, 0] : Fin 2 → Nat) = fun _ => 0 := funext fun a => by fin_cases a <;> rfl
theorem hz1_5 : (![0] : Fin 1 → Nat) = fun _ => 0 := funext fun a => by fin_cases a <;> rfl

/-- One grid point, over variables: if the activations' block holds rows T·2000 … T·2000+1999 of the array `A`, and
    the weights' and the bias's blocks hold `W` and `B` whole, then the payload at (p, q) of the block is the layer at
    the array's index (T·2000 + p, q). -/
theorem point5 (A : S100000x128.Idx → EReal) (W : S128x1.Idx → EReal) (B : S1.Idx → EReal)
    (x0 : Vec Ideal S2000x128 .f32) (x1 : Vec Ideal S128x1 .f32) (x2 : Vec Ideal S1 .f32) (T : ℕ)
    (h0 : ∀ (p : Fin 2000) (k : Fin 128) (r : Fin 100000), r.val = T * 2000 + 1 * p.val → x0 (ix2 p k) = A (ix2 r k))
    (h1 : ∀ (k : Fin 128) (q : Fin 1), x1 (ix2 k q) = W (ix2 k q))
    (h2 : ∀ q : Fin 1, x2 (ix1 q) = B (ix1 q))
    (p : Fin 2000) (q : Fin 1) (i : S100000x1.Idx) (hi0 : (i 0).val = T * 2000 + 1 * p.val) (hi1 : (i 1).val = q.val) :
    k5_pay1 (F := Ideal) x0 x1 x2 (ix2 p q) = Cert.Layers.dense1 (F := Ideal) A W B i := by
  obtain ⟨r, q', rfl⟩ : ∃ (r : Fin 100000) (q' : Fin 1), i = ix2 r q' := ⟨i 0, i 1, eq_ix2 i⟩
  have hq : q' = q := Fin.ext hi1
  subst hq
  rw [k5_pay1_apply, layer5_apply]
  unfold denseAt
  refine congrArg₂ max (congrArg₂ (· + ·) (Finset.sum_congr rfl fun k _ => ?_) (h2 q')) rfl
  rw [h0 p k r hi0, h1]

/-- The windows' index maps, decided once over the grid: the activations' block index along rows is the output's, the
    other block indices are zero, and the output's row-block index is below 50. -/
theorem idx_facts5 : ∀ t : Fin cfg5.N, win5_0.index t (0 : Fin 2) = win5_3.index t (0 : Fin 2)
    ∧ win5_0.index t (1 : Fin 2) = 0
    ∧ win5_1.index t (0 : Fin 2) = 0 ∧ win5_1.index t (1 : Fin 2) = 0
    ∧ win5_2.index t (0 : Fin 1) = 0
    ∧ win5_3.index t (1 : Fin 2) = 0 ∧ win5_3.index t (0 : Fin 2) ≤ 49 :=
  (by decide +kernel : ∀ t : Fin grid5.N, _)

/-- Every row block is some point's. -/
theorem idx_onto5 : ∀ q0 : Fin 50, ∃ t : Fin cfg5.N, win5_3.index t (0 : Fin 2) = q0.val :=
  (by decide +kernel : ∀ q0 : Fin 50, ∃ t : Fin grid5.N, win5_3.index t (0 : Fin 2) = q0.val)

variable (V : (c : Dev nD) → (b : Ref sig .tc) → Buf (Elt Ideal) ((c : Thread nD τ).loc b))

/-- The activations' block at point `t`, at (p, k): the array at row (block index)·2000 + p, column k. -/
theorem iblk5_0_apply (c : Dev nD) (t : Fin cfg5.N) (p : Fin 2000) (k : Fin 128) (r : Fin 100000)
    (hr : r.val = win5_0.index t (0 : Fin 2) * 2000 + 1 * p.val) (h1 : win5_0.index t (1 : Fin 2) = 0) :
    iblk5 (F := Ideal) V c 0 t (ix2 p k) = V c main_v114 (ix2 r k) := by
  unfold iblk5
  rw [View.read_apply]
  show V c main_v114 _ = V c main_v114 _
  congr 1
  funext a
  apply Fin.ext
  match a with
  | ⟨0, _⟩ => show win5_0.index t (0 : Fin 2) * 2000 + 1 * p.val = r.val; omega
  | ⟨1, _⟩ => show win5_0.index t (1 : Fin 2) * 128 + 1 * k.val = k.val; rw [h1]; omega

/-- The weights' block at any point is the weights' array. -/
theorem iblk5_1_apply (c : Dev nD) (t : Fin cfg5.N) (k : Fin 128) (q : Fin 1)
    (h0 : win5_1.index t (0 : Fin 2) = 0) (h1 : win5_1.index t (1 : Fin 2) = 0) :
    iblk5 (F := Ideal) V c 1 t (ix2 k q) = V c main_arg12 (ix2 k q) := by
  unfold iblk5
  rw [View.read_apply]
  show V c main_arg12 _ = V c main_arg12 _
  congr 1
  funext a
  apply Fin.ext
  match a with
  | ⟨0, _⟩ => show win5_1.index t (0 : Fin 2) * 128 + 1 * k.val = k.val; rw [h0]; omega
  | ⟨1, _⟩ => show win5_1.index t (1 : Fin 2) * 1 + 1 * q.val = q.val; rw [h1]; omega

/-- The bias's block at any point is the bias array. -/
theorem iblk5_2_apply (c : Dev nD) (t : Fin cfg5.N) (q : Fin 1)
    (h0 : win5_2.index t (0 : Fin 1) = 0) :
    iblk5 (F := Ideal) V c 2 t (ix1 q) = V c main_arg13 (ix1 q) := by
  unfold iblk5
  rw [View.read_apply]
  show V c main_arg13 _ = V c main_arg13 _
  congr 1
  funext a
  apply Fin.ext
  match a with
  | ⟨0, _⟩ => show win5_2.index t (0 : Fin 1) * 1 + 1 * q.val = q.val; rw [h0]; omega

/-- What point `t` writes back is block `t` of the layer function of the region's input arrays. -/
theorem flushed5_eq (c : Dev nD) (t : Fin cfg5.N) :
    (dat5 (F := Ideal) V c).flushed 3 t
      = ((cfg5.win 3).blk t).view.read (Elt Ideal) (Cert.Layers.dense1 (F := Ideal) (V c main_v114) (V c main_arg12) (V c main_arg13)) := by
  show (cfg5.win 3).cut (grid5.coords t) ((dat5 (F := Ideal) V c).after 3 t) = _
  rw [after5_3]
  unfold out5_3
  rw [View.canon_unit_zero hz2_5]
  simp only [View.ld_unit_zero (S := S2000x128) hz2_5, View.ld_unit_zero (S := S128x1) hz2_5, View.ld_unit_zero (S := S1) hz1_5]
  obtain ⟨e0, e1, e2, e3, e4, e5, e6⟩ := idx_facts5 t
  funext j
  obtain ⟨p, q, rfl⟩ : ∃ (p : Fin 2000) (q : Fin 1), j = ix2 p q := ⟨j 0, j 1, eq_ix2 j⟩
  refine point5 (V c main_v114) (V c main_arg12) (V c main_arg13) (iblk5 V c 0 t) (iblk5 V c 1 t) (iblk5 V c 2 t) (win5_3.index t (0 : Fin 2))
    (fun p k r hr => iblk5_0_apply V c t p k r (by rw [e0]; exact hr) e1)
    (fun k q => iblk5_1_apply V c t k q e2 e3)
    (fun q => iblk5_2_apply V c t q e4) p q _ ?_ ?_
  · show win5_3.index t (0 : Fin 2) * 2000 + 1 * p.val = _; rfl
  · show win5_3.index t (1 : Fin 2) * 1 + 1 * q.val = q.val; rw [e5]; omega

/-- An index of the array is in point `t`'s block iff each coordinate is in the block's range on its axis. -/
theorem mem_blk5 (t : Fin cfg5.N) (i : S100000x1.Idx) :
    i ∈ ((cfg5.win 3).blk t).view.set ↔ ∀ a : Fin 2, win5_3.index t a * S2000x1.size a ≤ (i a).val ∧ (i a).val < win5_3.index t a * S2000x1.size a + S2000x1.size a := by
  show i ∈ ((View.whole main_v115).slice (win5_3.rect t)).set ↔ _
  rw [View.set_slice_whole, Rect.mem_set_unit]
  exact Iff.rfl

/-- Every index of the output array is in some point's block: row r is in block r / 2000. -/
theorem cover5 (i : S100000x1.Idx) : ∃ t : Fin cfg5.N, (cfg5.win 3).flush t = true ∧ i ∈ ((cfg5.win 3).blk t).view.set := by
  have hi0 : (i 0).val < 100000 := (i 0).isLt
  have hi1 : (i 1).val < 1 := (i 1).isLt
  obtain ⟨t, ht⟩ := idx_onto5 ⟨(i 0).val / 2000, by omega⟩
  have ht' : win5_3.index t (0 : Fin 2) = (i 0).val / 2000 := ht
  obtain ⟨e0, e1, e2, e3, e4, e5, e6⟩ := idx_facts5 t
  refine ⟨t, flush5_3 t, ?_⟩
  rw [mem_blk5]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 1 ≤ (i 1).val ∧ (i 1).val < win5_3.index t (1 : Fin 2) * 1 + 1; omega

/-- The region's output array is the layer function of its three input arrays. -/
theorem arr5_eq (c : Dev nD) :
    (dat5 (F := Ideal) V c).arrAt 3 cfg5.N = Cert.Layers.dense1 (F := Ideal) (V c main_v114) (V c main_arg12) (V c main_arg13) :=
  (dat5 (F := Ideal) V c).arrAt_eq_of_cover 3 _ (fun t _ => flushed5_eq V c t) cover5

end Cert.KernelIdeal.Hand

end
-- ==== Proof.KIValStack.lean ====
/-
  The stack of four hop arrays the host builds before each graph-layer region — each hop given a leading unit axis,
  the four concatenated along it — read at (k, p, j): hop k at (p, j).
-/
import proofs.«147401_j14388140441686_1_alg».proof.Proof.Gen.KernelIdeal.Skeleton
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.ValueIdx

/-- A hop array given a leading unit axis, read at `(0, p, j)`: the hop at `(p, j)`. -/
theorem bcast_hop_apply (h : (⟨S100000x128, .f32⟩ : BufTy).Contents (Elt Ideal)) (p : Fin 100000) (j : Fin 128) :
    (broadcastInDim S1x100000x128 ![1, 2] bcast_S100000x128_S1x100000x128_1_2 h : (⟨S1x100000x128, .f32⟩ : BufTy).Contents (Elt Ideal)) (ix3 (0 : Fin 1) p j)
      = h (ix2 p j) := by
  refine broadcastInDim_apply _ bcast_S100000x128_S1x100000x128_1_2 h (ix3 (0 : Fin 1) p j) (ix2 p j) (fun a => ?_)
  match a with
  | ⟨0, _⟩ => show p.val = if (100000 : Nat) = 1 then 0 else p.val; rw [if_neg (by decide)]
  | ⟨1, _⟩ => show j.val = if (128 : Nat) = 1 then 0 else j.val; rw [if_neg (by decide)]

/-- Piece `n` of a concatenation of four `[1, 100000, 128]` arrays along the first axis, read at `(n, p, j)`: that piece
    at `(0, p, j)`. -/
theorem stack_piece (u0 u1 u2 u3 : (⟨S1x100000x128, .f32⟩ : BufTy).Contents (Elt Ideal)) (n : Nat) (hn : n < 4)
    (x : (⟨S1x100000x128, .f32⟩ : BufTy).Contents (Elt Ideal))
    (hx : ([⟨S1x100000x128, u0⟩, ⟨S1x100000x128, u1⟩, ⟨S1x100000x128, u2⟩, ⟨S1x100000x128, u3⟩] : List ((s : Shape) × (s.Idx → Elt Ideal .f32)))[n]'hn = ⟨S1x100000x128, x⟩)
    (p : Fin 100000) (j : Fin 128) :
    (concatenate S4x100000x128 0 [⟨S1x100000x128, u0⟩, ⟨S1x100000x128, u1⟩, ⟨S1x100000x128, u2⟩, ⟨S1x100000x128, u3⟩]
        concatenates_S1x100000x128_S1x100000x128_S1x100000x128_S1x100000x128_S4x100000x128_d0 : (⟨S4x100000x128, .f32⟩ : BufTy).Contents (Elt Ideal))
        (ix3 (⟨n, hn⟩ : Fin 4) p j)
      = x (ix3 (0 : Fin 1) p j) := by
  refine concatenate_apply_piece (0 : Fin S4x100000x128.rank)
    ([⟨S1x100000x128, u0⟩, ⟨S1x100000x128, u1⟩, ⟨S1x100000x128, u2⟩, ⟨S1x100000x128, u3⟩] : List ((s : Shape) × (s.Idx → Elt Ideal .f32))) concatenates_S1x100000x128_S1x100000x128_S1x100000x128_S1x100000x128_S4x100000x128_d0
    (ix3 (⟨n, hn⟩ : Fin 4) p j) n hn S1x100000x128 x hx rfl n ?_ (ix3 (0 : Fin 1) p j) (fun b hb => ?_) ?_
  · have h4 : n = 0 ∨ n = 1 ∨ n = 2 ∨ n = 3 := by omega
    rcases h4 with rfl | rfl | rfl | rfl <;> rfl
  · match b with
    | ⟨0, _⟩ => exact absurd rfl hb
    | ⟨1, _⟩ => rfl
    | ⟨2, _⟩ => rfl
  · show n + 0 = n; omega

/-- THE STACK the host builds, read at `(k, p, j)`: hop `k` at `(p, j)`. -/
theorem stack_apply (h0 h1 h2 h3 : (⟨S100000x128, .f32⟩ : BufTy).Contents (Elt Ideal)) (k : Fin 4) (p : Fin 100000) (j : Fin 128) :
    (concatenate S4x100000x128 0 [⟨S1x100000x128, broadcastInDim S1x100000x128 ![1, 2] bcast_S100000x128_S1x100000x128_1_2 h0⟩,
          ⟨S1x100000x128, broadcastInDim S1x100000x128 ![1, 2] bcast_S100000x128_S1x100000x128_1_2 h1⟩,
          ⟨S1x100000x128, broadcastInDim S1x100000x128 ![1, 2] bcast_S100000x128_S1x100000x128_1_2 h2⟩,
          ⟨S1x100000x128, broadcastInDim S1x100000x128 ![1, 2] bcast_S100000x128_S1x100000x128_1_2 h3⟩]
        concatenates_S1x100000x128_S1x100000x128_S1x100000x128_S1x100000x128_S4x100000x128_d0 : (⟨S4x100000x128, .f32⟩ : BufTy).Contents (Elt Ideal))
        (ValueIdx.ix3 k p j)
      = (![h0, h1, h2, h3] k) (ValueIdx.ix2 p j) := by
  match k with
  | ⟨0, hk⟩ => exact (stack_piece _ _ _ _ 0 hk _ rfl p j).trans (bcast_hop_apply h0 p j)
  | ⟨1, hk⟩ => exact (stack_piece _ _ _ _ 1 hk _ rfl p j).trans (bcast_hop_apply h1 p j)
  | ⟨2, hk⟩ => exact (stack_piece _ _ _ _ 2 hk _ rfl p j).trans (bcast_hop_apply h2 p j)
  | ⟨3, hk⟩ => exact (stack_piece _ _ _ _ 3 hk _ rfl p j).trans (bcast_hop_apply h3 p j)

end Cert.KernelIdeal.Hand

end
-- ==== Proof.KIValue.lean ====
/-
  The kernel program's result, read through its run: each region's output array is its layer function of the arrays
  it read, each host stretch writes the reference's stages, so boundary by boundary the buffers of the kernel program
  hold the reference's stages of the launch arguments, and the last region's output is the reference's result.
-/
import proofs.«147401_j14388140441686_1_alg».proof.Proof.KIBound
import proofs.«147401_j14388140441686_1_alg».proof.Proof.KIHost
import proofs.«147401_j14388140441686_1_alg».proof.Proof.KIHostStack
import proofs.«147401_j14388140441686_1_alg».proof.Proof.RefLayers
import proofs.«147401_j14388140441686_1_alg».proof.Proof.KIVal0
import proofs.«147401_j14388140441686_1_alg».proof.Proof.KIVal1
import proofs.«147401_j14388140441686_1_alg».proof.Proof.KIVal2
import proofs.«147401_j14388140441686_1_alg».proof.Proof.KIVal3
import proofs.«147401_j14388140441686_1_alg».proof.Proof.KIVal4
import proofs.«147401_j14388140441686_1_alg».proof.Proof.KIVal5
import proofs.«147401_j14388140441686_1_alg».proof.Proof.KIValStack

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## The edge buffers -/

theorem src_at3 : B3 m ρ c main_v1 = Cert.ReferenceIdeal.ReadP.val_main_v1 (F := Ideal) (m ((c : Thread nD τ).loc main_arg1)) := edges_src (B0 m ρ c)
theorem dst_at3 : B3 m ρ c main_v3 = Cert.ReferenceIdeal.ReadP.val_main_v3 (F := Ideal) (m ((c : Thread nD τ).loc main_arg1)) := edges_dst (B0 m ρ c)
theorem weight_at3 : B3 m ρ c main_v27 = Cert.ReferenceIdeal.ReadP.val_main_v32 (F := Ideal) (m ((c : Thread nD τ).loc main_arg1)) := edges_weight (B0 m ρ c)

/-! ## The first dense layer -/

theorem act_at4 : B4 m ρ c main_v28 = Cert.ReferenceIdeal.ReadP.val_main_v8 (F := Ideal) (m ((c : Thread nD τ).loc main_arg0)) (m ((c : Thread nD τ).loc main_arg2)) (m ((c : Thread nD τ).loc main_arg3)) := by
  refine (B4_arr m ρ c 3).trans <| (arr0_eq (U3 m ρ) c).trans ?_
  rw [show U3 m ρ c main_arg0 = (m ((c : Thread nD τ).loc main_arg0)) from B3_arg0 m ρ c, show U3 m ρ c main_arg2 = (m ((c : Thread nD τ).loc main_arg2)) from B3_arg2 m ρ c,
    show U3 m ρ c main_arg3 = (m ((c : Thread nD τ).loc main_arg3)) from B3_arg3 m ρ c]
  exact Cert.Layers.dense16_is _ _ _

/-! ## The first graph layer -/

theorem hop1_at5 : B5 m ρ c main_v40 = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) :=
  hop1_1 (B4 m ρ c) _ _ _ _ (act_at4 m ρ c) ((B4_main_v1 m ρ c).trans (src_at3 m ρ c)) ((B4_main_v3 m ρ c).trans (dst_at3 m ρ c)) ((B4_main_v27 m ρ c).trans (weight_at3 m ρ c))
theorem hop2_at5 : B5 m ρ c main_v52 = Cert.ReferenceIdeal.ReadP.val_main_v63 (F := Ideal) (m ((c : Thread nD τ).loc main_arg0)) (m ((c : Thread nD τ).loc main_arg1)) (m ((c : Thread nD τ).loc main_arg2)) (m ((c : Thread nD τ).loc main_arg3)) :=
  hop1_2 (B4 m ρ c) _ _ _ _ (act_at4 m ρ c) ((B4_main_v1 m ρ c).trans (src_at3 m ρ c)) ((B4_main_v3 m ρ c).trans (dst_at3 m ρ c)) ((B4_main_v27 m ρ c).trans (weight_at3 m ρ c))
theorem hop3_at5 : B5 m ρ c main_v64 = Cert.ReferenceIdeal.ReadP.val_main_v79 (F := Ideal) (m ((c : Thread nD τ).loc main_arg0)) (m ((c : Thread nD τ).loc main_arg1)) (m ((c : Thread nD τ).loc main_arg2)) (m ((c : Thread nD τ).loc main_arg3)) :=
  hop1_3 (B4 m ρ c) _ _ _ _ (act_at4 m ρ c) ((B4_main_v1 m ρ c).trans (src_at3 m ρ c)) ((B4_main_v3 m ρ c).trans (dst_at3 m ρ c)) ((B4_main_v27 m ρ c).trans (weight_at3 m ρ c))
theorem stack_at5 : B5 m ρ c main_v69 = (concatenate S4x100000x128 0 [⟨S1x100000x128, broadcastInDim S1x100000x128 ![1, 2] bcast_S100000x128_S1x100000x128_1_2 (Cert.ReferenceIdeal.ReadP.val_main_v8 (F := Ideal) (m ((c : Thread nD τ).loc main_arg0)) (m ((c : Thread nD τ).loc main_arg2)) (m ((c : Thread nD τ).loc main_arg3)))⟩, ⟨S1x100000x128, broadcastInDim S1x100000x128 ![1, 2] bcast_S100000x128_S1x100000x128_1_2 (Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)))⟩, ⟨S1x100000x128, broadcastInDim S1x100000x128 ![1, 2] bcast_S100000x128_S1x100000x128_1_2 (Cert.ReferenceIdeal.ReadP.val_main_v63 (F := Ideal) (m ((c : Thread nD τ).loc main_arg0)) (m ((c : Thread nD τ).loc main_arg1)) (m ((c : Thread nD τ).loc main_arg2)) (m ((c : Thread nD τ).loc main_arg3)))⟩, ⟨S1x100000x128, broadcastInDim S1x100000x128 ![1, 2] bcast_S100000x128_S1x100000x128_1_2 (Cert.ReferenceIdeal.ReadP.val_main_v79 (F := Ideal) (m ((c : Thread nD τ).loc main_arg0)) (m ((c : Thread nD τ).loc main_arg1)) (m ((c : Thread nD τ).loc main_arg2)) (m ((c : Thread nD τ).loc main_arg3)))⟩] concatenates_S1x100000x128_S1x100000x128_S1x100000x128_S1x100000x128_S4x100000x128_d0 : (⟨S4x100000x128, .f32⟩ : BufTy).Contents (Elt Ideal)) :=
  stack1 (B4 m ρ c) _ _ _ _ (act_at4 m ρ c) ((B4_main_v1 m ρ c).trans (src_at3 m ρ c)) ((B4_main_v3 m ρ c).trans (dst_at3 m ρ c)) ((B4_main_v27 m ρ c).trans (weight_at3 m ρ c))

theorem act_at6 : B6 m ρ c main_v70 = Cert.ReferenceIdeal.ReadP.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (B6_arr m ρ c 3).trans <| (arr1_eq (U5 m ρ) c (Cert.ReferenceIdeal.ReadP.val_main_v8 (F := Ideal) (m ((c : Thread nD τ).loc main_arg0)) (m ((c : Thread nD τ).loc main_arg2)) (m ((c : Thread nD τ).loc main_arg3))) (Cert.ReferenceIdeal.ReadP.val_main_v47 (F := Ideal) (m ((c : Thread nD τ).loc main_arg0)) (m ((c : Thread nD τ).loc main_arg1)) (m ((c : Thread nD τ).loc main_arg2)) (m ((c : Thread nD τ).loc main_arg3))) (Cert.ReferenceIdeal.ReadP.val_main_v63 (F := Ideal) (m ((c : Thread nD τ).loc main_arg0)) (m ((c : Thread nD τ).loc main_arg1)) (m ((c : Thread nD τ).loc main_arg2)) (m ((c : Thread nD τ).loc main_arg3))) (Cert.ReferenceIdeal.ReadP.val_main_v79 (F := Ideal) (m ((c : Thread nD τ).loc main_arg0)) (m ((c : Thread nD τ).loc main_arg1)) (m ((c : Thread nD τ).loc main_arg2)) (m ((c : Thread nD τ).loc main_arg3))) (fun k p j => ?_)).trans ?_
  · exact (congrFun (stack_at5 m ρ c) _).trans (stack_apply _ _ _ _ k p j)
  rw [show U5 m ρ c main_arg4 = (m ((c : Thread nD τ).loc main_arg4)) from B5_arg4 m ρ c, show U5 m ρ c main_arg5 = (m ((c : Thread nD τ).loc main_arg5)) from B5_arg5 m ρ c]
  exact Cert.Layers.combine1_is _ _ _ _ _ _

/-! ## The second graph layer -/

theorem hop1_at7 : B7 m ρ c main_v82 = Cert.ReferenceIdeal.ReadP.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  hop2_1 (B6 m ρ c) _ _ _ _ _ _ (act_at6 m ρ c) ((B6_main_v1 m ρ c).trans (src_at3 m ρ c)) ((B6_main_v3 m ρ c).trans (dst_at3 m ρ c)) ((B6_main_v27 m ρ c).trans (weight_at3 m ρ c))
theorem hop2_at7 : B7 m ρ c main_v94 = Cert.ReferenceIdeal.ReadP.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  hop2_2 (B6 m ρ c) _ _ _ _ _ _ (act_at6 m ρ c) ((B6_main_v1 m ρ c).trans (src_at3 m ρ c)) ((B6_main_v3 m ρ c).trans (dst_at3 m ρ c)) ((B6_main_v27 m ρ c).trans (weight_at3 m ρ c))
theorem hop3_at7 : B7 m ρ c main_v106 = Cert.ReferenceIdeal.ReadP.val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  hop2_3 (B6 m ρ c) _ _ _ _ _ _ (act_at6 m ρ c) ((B6_main_v1 m ρ c).trans (src_at3 m ρ c)) ((B6_main_v3 m ρ c).trans (dst_at3 m ρ c)) ((B6_main_v27 m ρ c).trans (weight_at3 m ρ c))
theorem stack_at7 : B7 m ρ c main_v111 = (concatenate S4x100000x128 0 [⟨S1x100000x128, broadcastInDim S1x100000x128 ![1, 2] bcast_S100000x128_S1x100000x128_1_2 (Cert.ReferenceIdeal.ReadP.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))⟩, ⟨S1x100000x128, broadcastInDim S1x100000x128 ![1, 2] bcast_S100000x128_S1x100000x128_1_2 (Cert.ReferenceIdeal.ReadP.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))⟩, ⟨S1x100000x128, broadcastInDim S1x100000x128 ![1, 2] bcast_S100000x128_S1x100000x128_1_2 (Cert.ReferenceIdeal.ReadP.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))⟩, ⟨S1x100000x128, broadcastInDim S1x100000x128 ![1, 2] bcast_S100000x128_S1x100000x128_1_2 (Cert.ReferenceIdeal.ReadP.val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))⟩] concatenates_S1x100000x128_S1x100000x128_S1x100000x128_S1x100000x128_S4x100000x128_d0 : (⟨S4x100000x128, .f32⟩ : BufTy).Contents (Elt Ideal)) :=
  stack2 (B6 m ρ c) _ _ _ _ _ _ (act_at6 m ρ c) ((B6_main_v1 m ρ c).trans (src_at3 m ρ c)) ((B6_main_v3 m ρ c).trans (dst_at3 m ρ c)) ((B6_main_v27 m ρ c).trans (weight_at3 m ρ c))

theorem act_at8 : B8 m ρ c main_v112 = Cert.ReferenceIdeal.ReadP.val_main_v166 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (B8_arr m ρ c 3).trans <| (arr2_eq (U7 m ρ) c (Cert.ReferenceIdeal.ReadP.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.ReferenceIdeal.ReadP.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.ReferenceIdeal.ReadP.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.ReferenceIdeal.ReadP.val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (fun k p j => ?_)).trans ?_
  · exact (congrFun (stack_at7 m ρ c) _).trans (stack_apply _ _ _ _ k p j)
  rw [show U7 m ρ c main_arg6 = (m ((c : Thread nD τ).loc main_arg6)) from B7_arg6 m ρ c, show U7 m ρ c main_arg7 = (m ((c : Thread nD τ).loc main_arg7)) from B7_arg7 m ρ c]
  exact Cert.Layers.combine2_is _ _ _ _ _ _ _ _

/-! ## The three closing dense layers -/

theorem act_at9 : B9 m ρ c main_v113 = Cert.ReferenceIdeal.ReadP.val_main_v171 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (B9_arr m ρ c 3).trans <| (arr3_eq (U8 m ρ) c).trans ?_
  rw [show U8 m ρ c main_v112 = _ from act_at8 m ρ c, show U8 m ρ c main_arg8 = (m ((c : Thread nD τ).loc main_arg8)) from B8_arg8 m ρ c, show U8 m ρ c main_arg9 = (m ((c : Thread nD τ).loc main_arg9)) from B8_arg9 m ρ c]
  exact Cert.Layers.dense128a_is _ _ _ _ _ _ _ _ _ _
theorem act_at10 : B10 m ρ c main_v114 = Cert.ReferenceIdeal.ReadP.val_main_v176 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (B10_arr m ρ c 3).trans <| (arr4_eq (U9 m ρ) c).trans ?_
  rw [show U9 m ρ c main_v113 = _ from act_at9 m ρ c, show U9 m ρ c main_arg10 = (m ((c : Thread nD τ).loc main_arg10)) from B9_arg10 m ρ c, show U9 m ρ c main_arg11 = (m ((c : Thread nD τ).loc main_arg11)) from B9_arg11 m ρ c]
  exact Cert.Layers.dense128b_is _ _ _ _ _ _ _ _ _ _ _ _
/-- The kernel program's result is the reference's result term of the launch arguments. -/
theorem value_eq : B11 m ρ c main_v115 = Cert.ReferenceIdeal.ReadP.val_main_v181 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (B11_arr m ρ c 3).trans <| (arr5_eq (U10 m ρ) c).trans ?_
  rw [show U10 m ρ c main_v114 = _ from act_at10 m ρ c, show U10 m ρ c main_arg12 = (m ((c : Thread nD τ).loc main_arg12)) from B10_arg12 m ρ c, show U10 m ρ c main_arg13 = (m ((c : Thread nD τ).loc main_arg13)) from B10_arg13 m ρ c]
  exact Cert.Layers.dense1_is _ _ _ _ _ _ _ _ _ _ _ _ _ _

end Cert.KernelIdeal.Hand

end
-- ==== Proof.lean ====
/-
  The certificate of a six-region graph network against its plain reference, over the extended reals.

  The kernel program is relu(x·W₀ + b₀), two graph layers — each: three hops of "gather the source rows, scale by the
  symmetric degree weight, scatter-add into the destination rows", then relu(Σₖ Hₖ·W[k] + b) over the entry activations
  and the hops — and three more dense relu layers, the six matrix stages as tiled kernel regions of 2000 rows per grid
  point and everything about the edge list as host operations. The reference is the same network in one host program.
  At the ideal instance the two agree term by term: a change of float format is the identity, a matrix unit's product
  into a zero accumulator is the plain sum, the kernel's accumulator starts from 0 (0 + s = s), a row lies in exactly one
  block, and both programs run the hop operations on the same operands. No distributivity and no finiteness is used.

  Frames: each kernel region's body runs to its end and stores its whole output block (one module per region and
  program), the run threads the buffer contents through host stretches and regions, and no item writes an argument.
  The reference's frame and run are its generated run. The idealisation rewrote nothing, so `preserves` is `True`.
-/
import proofs.«147401_j14388140441686_1_alg».proof.Defs
import proofs.«147401_j14388140441686_1_alg».proof.Proof.Gen.Kernel
import proofs.«147401_j14388140441686_1_alg».proof.Proof.Gen.KernelIdeal
import proofs.«147401_j14388140441686_1_alg».proof.Proof.Gen.ReferenceIdeal
import proofs.«147401_j14388140441686_1_alg».proof.Proof.Gen.Pre_finite_inputs
import proofs.«147401_j14388140441686_1_alg».proof.Proof.KRun
import proofs.«147401_j14388140441686_1_alg».proof.Proof.KIRun
import proofs.«147401_j14388140441686_1_alg».proof.Proof.KIValue
import proofs.«147401_j14388140441686_1_alg».proof.Proof.RefTerm
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame_all m ρ
theorem frame_ki : Cert.frame_KernelIdeal := fun m ρ _ => Cert.KernelIdeal.Hand.frame_all m ρ
theorem frame_ri : Cert.frame_ReferenceIdeal := fun m ρ _ =>
  (θ_run Cert.ReferenceIdeal.defs _ _).mono (fun _ h c => (h c).2) (Cert.ReferenceIdeal.ValueP.run (F := Ideal) m ρ)

/-- Both programs, from memories agreeing on the arguments, end with the same result array: the kernel program's last
    region leaves the reference's result term of the launch arguments. -/
theorem algebraic : Cert.algebraic_KernelIdeal_ReferenceIdeal := by
  intro m ρ m' ρ' _ hagree
  refine ⟨fun c => Cert.KernelIdeal.Hand.B11 m ρ c (Proc.devRef .tc Cert.KernelIdeal.main_v115), ?_, ?_⟩
  · exact (θ_run Cert.KernelIdeal.defs _ _).mono (fun r h c => ⟨h c _ (Cert.KernelIdeal.Hand.mem_uc Cert.KernelIdeal.main_v115 (by decide)),
      (h c _ (Cert.KernelIdeal.Hand.mem_uc Cert.KernelIdeal.main_arg0 (by decide))).trans (Cert.KernelIdeal.Hand.B11_main_arg0 m ρ c),
      (h c _ (Cert.KernelIdeal.Hand.mem_uc Cert.KernelIdeal.main_arg1 (by decide))).trans (Cert.KernelIdeal.Hand.B11_main_arg1 m ρ c),
      (h c _ (Cert.KernelIdeal.Hand.mem_uc Cert.KernelIdeal.main_arg2 (by decide))).trans (Cert.KernelIdeal.Hand.B11_main_arg2 m ρ c),
      (h c _ (Cert.KernelIdeal.Hand.mem_uc Cert.KernelIdeal.main_arg3 (by decide))).trans (Cert.KernelIdeal.Hand.B11_main_arg3 m ρ c),
      (h c _ (Cert.KernelIdeal.Hand.mem_uc Cert.KernelIdeal.main_arg4 (by decide))).trans (Cert.KernelIdeal.Hand.B11_main_arg4 m ρ c),
      (h c _ (Cert.KernelIdeal.Hand.mem_uc Cert.KernelIdeal.main_arg5 (by decide))).trans (Cert.KernelIdeal.Hand.B11_main_arg5 m ρ c),
      (h c _ (Cert.KernelIdeal.Hand.mem_uc Cert.KernelIdeal.main_arg6 (by decide))).trans (Cert.KernelIdeal.Hand.B11_main_arg6 m ρ c),
      (h c _ (Cert.KernelIdeal.Hand.mem_uc Cert.KernelIdeal.main_arg7 (by decide))).trans (Cert.KernelIdeal.Hand.B11_main_arg7 m ρ c),
      (h c _ (Cert.KernelIdeal.Hand.mem_uc Cert.KernelIdeal.main_arg8 (by decide))).trans (Cert.KernelIdeal.Hand.B11_main_arg8 m ρ c),
      (h c _ (Cert.KernelIdeal.Hand.mem_uc Cert.KernelIdeal.main_arg9 (by decide))).trans (Cert.KernelIdeal.Hand.B11_main_arg9 m ρ c),
      (h c _ (Cert.KernelIdeal.Hand.mem_uc Cert.KernelIdeal.main_arg10 (by decide))).trans (Cert.KernelIdeal.Hand.B11_main_arg10 m ρ c),
      (h c _ (Cert.KernelIdeal.Hand.mem_uc Cert.KernelIdeal.main_arg11 (by decide))).trans (Cert.KernelIdeal.Hand.B11_main_arg11 m ρ c),
      (h c _ (Cert.KernelIdeal.Hand.mem_uc Cert.KernelIdeal.main_arg12 (by decide))).trans (Cert.KernelIdeal.Hand.B11_main_arg12 m ρ c),
      (h c _ (Cert.KernelIdeal.Hand.mem_uc Cert.KernelIdeal.main_arg13 (by decide))).trans (Cert.KernelIdeal.Hand.B11_main_arg13 m ρ c)⟩) (Cert.KernelIdeal.Hand.run_all m ρ)
  · refine (θ_run Cert.ReferenceIdeal.defs _ _).mono (fun r h c => ⟨(h c).1.trans ?_, (h c).2⟩) (Cert.ReferenceIdeal.ValueP.run (F := Ideal) m' ρ')
    obtain ⟨e0, e1, e2, e3, e4, e5, e6, e7, e8, e9, e10, e11, e12, e13⟩ := hagree c
    rw [Cert.ReferenceIdeal.ReadP.val_main_v181_eq, e0, e1, e2, e3, e4, e5, e6, e7, e8, e9, e10, e11, e12, e13]
    exact (Cert.KernelIdeal.Hand.value_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
